-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 99999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S100000x128 : Shape := ⟨2, ![100000, 128]⟩
abbrev S50x16384 : Shape := ⟨2, ![50, 16384]⟩
abbrev S6400x128 : Shape := ⟨2, ![6400, 128]⟩
abbrev S819200x128 : Shape := ⟨2, ![819200, 128]⟩
abbrev S200x128 : Shape := ⟨2, ![200, 128]⟩
abbrev S6x128x128 : Shape := ⟨3, ![6, 128, 128]⟩
abbrev S6 : Shape := ⟨1, ![6]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S50x16384x128 : Shape := ⟨3, ![50, 16384, 128]⟩
abbrev S16384x50x128 : Shape := ⟨3, ![16384, 50, 128]⟩

abbrev nBuf : Table → Nat
  | .hbm => 7
  | .local .scVector .vmem => 2
  | _ => 0

abbrev bufTy : (tb : Table) → Fin (nBuf tb) → BufTy
  | .hbm, ⟨0, _⟩ => ⟨S16384x50, .i32⟩
  | .hbm, ⟨1, _⟩ => ⟨S100000x128, .f32⟩
  | .hbm, ⟨2, _⟩ => ⟨S50x16384, .i32⟩
  | .hbm, ⟨3, _⟩ => ⟨S6400x128, .i32⟩
  | .hbm, ⟨4, _⟩ => ⟨S819200x128, .f32⟩
  | .hbm, ⟨5, _⟩ => ⟨S50x16384x128, .f32⟩
  | .hbm, ⟨6, _⟩ => ⟨S16384x50x128, .f32⟩
  | .local .scVector .vmem, ⟨0, _⟩ => ⟨S200x128, .i32⟩
  | .local .scVector .vmem, ⟨1, _⟩ => ⟨S6x128x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg1_scv : Ref sig .scVector := ⟨.hbm, 1, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c0_i32_88_r0 : BitVec 32 := 0#32
  ![v3.toNat, 0]
@[reducible] def k0_t1_loop : Scf.Loop 32 :=
  let c0_i32_37 : BitVec 32 := 0#32
  let c200_i32_38 : BitVec 32 := 200#32
  let v39 : BitVec 32 := Scalar.addi c0_i32_37 c200_i32_38
  let c1_i32_39 : BitVec 32 := 1#32
  ⟨c0_i32_37, v39, c1_i32_39⟩
def k0_off2 (k0_t1 : Fin k0_t1_loop.trips) : Fin 3 → Nat :=
  let c0_i32_37 : BitVec 32 := 0#32
  let c1_i32_39 : BitVec 32 := 1#32
  let arg9 : BitVec 32 := Scf.iv c0_i32_37 c1_i32_39 k0_t1
  let c6_i32 : BitVec 32 := 6#32
  let v94 : BitVec 32 := Scalar.remsi arg9 c6_i32
  let c0_i32_88 : BitVec 32 := 0#32
  let c0_i32_89 : BitVec 32 := 0#32
  ![v94.toNat, 0, 0]
def k0_off3 (k0_t1 : Fin k0_t1_loop.trips) : Fin 2 → Nat :=
  let c0_i32_37 : BitVec 32 := 0#32
  let c1_i32_39 : BitVec 32 := 1#32
  let arg9 : BitVec 32 := Scf.iv c0_i32_37 c1_i32_39 k0_t1
  let c0_i32_90 : BitVec 32 := 0#32
  ![arg9.toNat, 0]
def k0_off4 (k0_t1 : Fin k0_t1_loop.trips) : Fin 1 → Nat :=
  let c0_i32_37 : BitVec 32 := 0#32
  let c1_i32_39 : BitVec 32 := 1#32
  let arg9 : BitVec 32 := Scf.iv c0_i32_37 c1_i32_39 k0_t1
  let c6_i32 : BitVec 32 := 6#32
  let v94 : BitVec 32 := Scalar.remsi arg9 c6_i32
  ![v94.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_39 : BitVec 32 := 1#32
  let arg9 : BitVec 32 := Scf.iv c0_i32_37 c1_i32_39 k0_t1
  let c128_i32 : BitVec 32 := 128#32
  let v102 : BitVec 32 := Scalar.muli arg9 c128_i32
  let v103 : BitVec 32 := Scalar.addi v2 v102
  let c0_i32_95 : BitVec 32 := 0#32
  ![v103.toNat, 0]
def k0_cond1 (k0_t1 : Fin k0_t1_loop.trips) : BitVec 1 :=
  let c0_i32_37 : BitVec 32 := 0#32
  let c1_i32_39 : BitVec 32 := 1#32
  let arg9 : BitVec 32 := Scf.iv c0_i32_37 c1_i32_39 k0_t1
  let c5_i32_99 : BitVec 32 := 5#32
  let v112 : BitVec 32 := Scalar.addi arg9 c5_i32_99
  let c200_i32_100 : BitVec 32 := 200#32
  let v113 : BitVec 1 := Scalar.cmpi .slt v112 c200_i32_100
  let v114 : BitVec 32 := Scalar.extui v113
  let c0_i32_101 : BitVec 32 := 0#32
  let v115 : BitVec 1 := Scalar.cmpi .ne v114 c0_i32_101
  v115

def k0_cond2 (k0_t1 : Fin k0_t1_loop.trips) : BitVec 1 :=
  let c0_i32_37 : BitVec 32 := 0#32
  let c1_i32_39 : BitVec 32 := 1#32
  let arg9 : BitVec 32 := Scf.iv c0_i32_37 c1_i32_39 k0_t1
  let c5_i32_99 : BitVec 32 := 5#32
  let v112 : BitVec 32 := Scalar.addi arg9 c5_i32_99
  let c6_i32_103 : BitVec 32 := 6#32
  let v117 : BitVec 1 := Scalar.cmpi .sge v112 c6_i32_103
  let v118 : BitVec 32 := Scalar.extui v117
  let c0_i32_104 : BitVec 32 := 0#32
  let v119 : BitVec 1 := Scalar.cmpi .ne v118 c0_i32_104
  v119

def k0_off6 (k0_t1 : Fin k0_t1_loop.trips) : Fin 3 → Nat :=
  let c0_i32_37 : BitVec 32 := 0#32
  let c1_i32_39 : BitVec 32 := 1#32
  let arg9 : BitVec 32 := Scf.iv c0_i32_37 c1_i32_39 k0_t1
  let c5_i32_99 : BitVec 32 := 5#32
  let v112 : BitVec 32 := Scalar.addi arg9 c5_i32_99
  let c6_i32_102 : BitVec 32 := 6#32
  let v116 : BitVec 32 := Scalar.remsi v112 c6_i32_102
  let c0_i32_112 : BitVec 32 := 0#32
  let c0_i32_113 : BitVec 32 := 0#32
  ![v116.toNat, 0, 0]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_39 : BitVec 32 := 1#32
  let arg9 : BitVec 32 := Scf.iv c0_i32_37 c1_i32_39 k0_t1
  let c5_i32_99 : BitVec 32 := 5#32
  let v112 : BitVec 32 := Scalar.addi arg9 c5_i32_99
  let c6_i32_110 : BitVec 32 := 6#32
  let v127 : BitVec 32 := Scalar.subi v112 c6_i32_110
  let c128_i32_111 : BitVec 32 := 128#32
  let v128 : BitVec 32 := Scalar.muli v127 c128_i32_111
  let v129 : BitVec 32 := Scalar.addi v2 v128
  let c0_i32_114 : BitVec 32 := 0#32
  ![v129.toNat, 0]
def k0_off8 (k0_t1 : Fin k0_t1_loop.trips) : Fin 1 → Nat :=
  let c0_i32_37 : BitVec 32 := 0#32
  let c1_i32_39 : BitVec 32 := 1#32
  let arg9 : BitVec 32 := Scf.iv c0_i32_37 c1_i32_39 k0_t1
  let c5_i32_99 : BitVec 32 := 5#32
  let v112 : BitVec 32 := Scalar.addi arg9 c5_i32_99
  let c6_i32_102 : BitVec 32 := 6#32
  let v116 : BitVec 32 := Scalar.remsi v112 c6_i32_102
  ![v116.toNat]
def k0_off9 (k0_t1 : Fin k0_t1_loop.trips) : Fin 3 → Nat :=
  let c0_i32_37 : BitVec 32 := 0#32
  let c1_i32_39 : BitVec 32 := 1#32
  let arg9 : BitVec 32 := Scf.iv c0_i32_37 c1_i32_39 k0_t1
  let c5_i32_99 : BitVec 32 := 5#32
  let v112 : BitVec 32 := Scalar.addi arg9 c5_i32_99
  let c6_i32_102 : BitVec 32 := 6#32
  let v116 : BitVec 32 := Scalar.remsi v112 c6_i32_102
  let c0_i32_105 : BitVec 32 := 0#32
  let c0_i32_106 : BitVec 32 := 0#32
  ![v116.toNat, 0, 0]
def k0_off10 (k0_t1 : Fin k0_t1_loop.trips) : Fin 2 → Nat :=
  let c0_i32_37 : BitVec 32 := 0#32
  let c1_i32_39 : BitVec 32 := 1#32
  let arg9 : BitVec 32 := Scf.iv c0_i32_37 c1_i32_39 k0_t1
  let c5_i32_99 : BitVec 32 := 5#32
  let v112 : BitVec 32 := Scalar.addi arg9 c5_i32_99
  let c0_i32_107 : BitVec 32 := 0#32
  ![v112.toNat, 0]
def k0_off11 (k0_t1 : Fin k0_t1_loop.trips) : Fin 1 → Nat :=
  let c0_i32_37 : BitVec 32 := 0#32
  let c1_i32_39 : BitVec 32 := 1#32
  let arg9 : BitVec 32 := Scf.iv c0_i32_37 c1_i32_39 k0_t1
  let c5_i32_99 : BitVec 32 := 5#32
  let v112 : BitVec 32 := Scalar.addi arg9 c5_i32_99
  let c6_i32_102 : BitVec 32 := 6#32
  let v116 : BitVec 32 := Scalar.remsi v112 c6_i32_102
  ![v116.toNat]
def k0_off12 (i : grid0.Coords) (c24832_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v40 : BitVec 32 := Scalar.addi v2 c24832_i32
  let c0_i32_45 : BitVec 32 := 0#32
  ![v40.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x50_S50x16384_1_0 : S16384x50.Transposes [1, 0] S50x16384
  shapeCasts_S50x16384_S6400x128 : S50x16384.ShapeCasts S6400x128
  inb_S6x128x128_S1x128x128_0_0_0 : ∀ a, (![0, 0, 0] : Fin 3 → Nat) a + S1x128x128.size a ≤ S6x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S100000x128_S100000x128_0_0 : ∀ a, (![0, 0] : Fin 2 → Nat) a + S100000x128.size a ≤ S100000x128.size a
  inb_S6_S1_0 : ∀ a, (![0] : Fin 1 → Nat) a + S1.size a ≤ S6.size a
  squeezes_S1_S_ : S1.Squeezes S_
  gathers_S100000x128_S128x128 : S100000x128.Gathers 0 S128x128
  inb_S6x128x128_S1x128x128_1_0_0 : ∀ a, (![1, 0, 0] : Fin 3 → Nat) a + S1x128x128.size a ≤ S6x128x128.size a
  inb_S200x128_S1x128_1_0 : ∀ a, (![1, 0] : Fin 2 → Nat) a + S1x128.size a ≤ S200x128.size a
  inb_S6_S1_1 : ∀ a, (![1] : Fin 1 → Nat) a + S1.size a ≤ S6.size a
  inb_S6x128x128_S1x128x128_2_0_0 : ∀ a, (![2, 0, 0] : Fin 3 → Nat) a + S1x128x128.size a ≤ S6x128x128.size a
  inb_S200x128_S1x128_2_0 : ∀ a, (![2, 0] : Fin 2 → Nat) a + S1x128.size a ≤ S200x128.size a
  inb_S6_S1_2 : ∀ a, (![2] : Fin 1 → Nat) a + S1.size a ≤ S6.size a
  inb_S6x128x128_S1x128x128_3_0_0 : ∀ a, (![3, 0, 0] : Fin 3 → Nat) a + S1x128x128.size a ≤ S6x128x128.size a
  inb_S200x128_S1x128_3_0 : ∀ a, (![3, 0] : Fin 2 → Nat) a + S1x128.size a ≤ S200x128.size a
  inb_S6_S1_3 : ∀ a, (![3] : Fin 1 → Nat) a + S1.size a ≤ S6.size a
  inb_S6x128x128_S1x128x128_4_0_0 : ∀ a, (![4, 0, 0] : Fin 3 → Nat) a + S1x128x128.size a ≤ S6x128x128.size a
  inb_S200x128_S1x128_4_0 : ∀ a, (![4, 0] : Fin 2 → Nat) a + S1x128.size a ≤ S200x128.size a
  inb_S6_S1_4 : ∀ a, (![4] : Fin 1 → Nat) a + S1.size a ≤ S6.size a
  inb_S6x128x128_S1x128x128_5_0_0 : ∀ a, (![5, 0, 0] : Fin 3 → Nat) a + S1x128x128.size a ≤ S6x128x128.size a
  inb_S6_S1_5 : ∀ a, (![5] : Fin 1 → Nat) a + S1.size a ≤ S6.size a
  shapeCasts_S819200x128_S50x16384x128 : S819200x128.ShapeCasts S50x16384x128
  transposes_S50x16384x128_S16384x50x128_1_0_2 : S50x16384x128.Transposes [1, 0, 2] S16384x50x128
  hcc0_scratch2 : 0 + S6.numel ≤ 13
  hcc0_scratch3 : 6 + S6.numel ≤ 13
  hcc0_scoped0 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S6400x128.size a
  k0_t1_ok : k0_t1_loop.OK
  k0_off2_inb : ∀ k0_t1 : Fin k0_t1_loop.trips, ∀ a, (k0_off2 k0_t1) a + S1x128x128.size a ≤ S6x128x128.size a
  k0_off3_inb : ∀ k0_t1 : Fin k0_t1_loop.trips, ∀ a, (k0_off3 k0_t1) a + S1x128.size a ≤ S200x128.size a
  k0_off4_inb : ∀ k0_t1 : Fin k0_t1_loop.trips, ∀ a, (k0_off4 k0_t1) a + S1.size a ≤ S6.size a
  k0_off5_inb : ∀ (i : grid0.Coords) (k0_t1 : Fin k0_t1_loop.trips), ∀ a, (k0_off5 i k0_t1) a + S128x128.size a ≤ S819200x128.size a
  k0_off6_inb : ∀ k0_t1 : Fin k0_t1_loop.trips, ∀ (k0_h1 : k0_cond1 k0_t1 = 1#1), ∀ (k0_h2 : k0_cond2 k0_t1 = 1#1), ∀ a, (k0_off6 k0_t1) a + S1x128x128.size a ≤ S6x128x128.size a
  k0_off7_inb : ∀ (i : grid0.Coords) (k0_t1 : Fin k0_t1_loop.trips), ∀ (k0_h1 : k0_cond1 k0_t1 = 1#1), ∀ (k0_h2 : k0_cond2 k0_t1 = 1#1), ∀ a, (k0_off7 i k0_t1) a + S128x128.size a ≤ S819200x128.size a
  k0_off8_inb : ∀ k0_t1 : Fin k0_t1_loop.trips, ∀ (k0_h1 : k0_cond1 k0_t1 = 1#1), ∀ (k0_h2 : k0_cond2 k0_t1 = 1#1), ∀ a, (k0_off8 k0_t1) a + S1.size a ≤ S6.size a
  k0_off9_inb : ∀ k0_t1 : Fin k0_t1_loop.trips, ∀ (k0_h1 : k0_cond1 k0_t1 = 1#1), ∀ a, (k0_off9 k0_t1) a + S1x128x128.size a ≤ S6x128x128.size a
  k0_off10_inb : ∀ k0_t1 : Fin k0_t1_loop.trips, ∀ (k0_h1 : k0_cond1 k0_t1 = 1#1), ∀ a, (k0_off10 k0_t1) a + S1x128.size a ≤ S200x128.size a
  k0_off11_inb : ∀ k0_t1 : Fin k0_t1_loop.trips, ∀ (k0_h1 : k0_cond1 k0_t1 = 1#1), ∀ a, (k0_off11 k0_t1) a + S1.size a ≤ S6.size a
  k0_off12_inb : ∀ i : grid0.Coords, ∀ (r : Fin 6), ∀ a, (k0_off12 i (BitVec.ofNat 32 (24832 + 128 * r.val))) a + S128x128.size a ≤ S819200x128.size a

variable [Facts₀]

abbrev cc0_scratch2 : DmaSems sig S6 := SemArray.consecutive 0 S6 hcc0_scratch2
abbrev cc0_scratch3 : DmaSems sig S6 := SemArray.consecutive 6 S6 hcc0_scratch3
abbrev cc0_scoped0 : DmaSems sig S_ := SemArray.consecutive 12 S_ hcc0_scoped0

class Facts : Prop extends Facts₀ where

variable [Facts]
-- ==== ReferenceIdeal.lean ====
abbrev S16384x50 : Shape := ⟨2, ![16384, 50]⟩
abbrev S100000x128 : Shape := ⟨2, ![100000, 128]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x128 : Shape := ⟨3, ![16384, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S100000x128, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x128, .f32⟩
  | .hbm, ⟨21, _⟩ => ⟨S16384x50x128, .i1⟩
  | .hbm, ⟨22, _⟩ => ⟨S_, .f32⟩
  | .hbm, ⟨23, _⟩ => ⟨S16384x50x128, .f32⟩
  | .hbm, ⟨24, _⟩ => ⟨S16384x50x128, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x128_0_1 : S16384x50.BroadcastsInDim S16384x50x128 (![0, 1] : Fin 2 → Fin S16384x50x128.rank)
  bcast_S_S16384x50x128 : S_.BroadcastsInDim S16384x50x128 (![] : Fin 0 → Fin S16384x50x128.rank)
  gather_S100000x128_S16384x50x1_S16384x50x128_2_0_n_n_0_2_1128_wf : GatherDims.WF S100000x128 S16384x50x1 S16384x50x128 [2] [0] [] [0] [] 2 ![1, 128]

variable [Facts₀]

def gather_S100000x128_S16384x50x1_S16384x50x128_2_0_n_n_0_2_1128 : GatherDims S100000x128 S16384x50x1 S16384x50x128 where
  offsetDims := [2]
  collapsedSliceDims := [0]
  operandBatchingDims := []
  startIndicesBatchingDims := []
  startIndexMap := [0]
  indexVectorDim := 2
  sliceSizes := ![1, 128]
  wf := gather_S100000x128_S16384x50x1_S16384x50x128_2_0_n_n_0_2_1128_wf

class Facts : Prop extends Facts₀ where

variable [Facts]
-- ==== Proof.Spec.lean ====
/-
  The function both programs compute, stated once over literal shapes and importing neither program.

  An embedding lookup: `ids` is an array of [16384, 50] row numbers, `tab` a table of [100000, 128] values, and the
  result at (b, h, l) is `tab` at (ids(b, h), l). The kernel reads the row numbers through a re-laid copy of `ids`
  (transposed to [50, 16384], then cut into 6400 lists of 128) and writes one gathered row per list entry into a
  flat [819200, 128] array, which the host re-lays as [50, 16384, 128] and transposes back; `gatherOut` is that flat
  array as a function of the list and the table, `lookup` the final result as a function of `ids` and the table.
  A row number is read as a natural below 100000 by `rowOf` (total: the remainder modulo 100000, which is the
  word's own value whenever that is in range).
-/
import Idealize.ShloMosaic.Lib.ValueIdx
import Idealize.ShloMosaic.Lib.Pipeline.Value

noncomputable section

namespace Cert.Proof.Spec

open Idealize.ShloMosaic Idealize.ShloMosaic.ValueIdx

abbrev SIds : Shape := ⟨2, ![16384, 50]⟩
abbrev SIdsT : Shape := ⟨2, ![50, 16384]⟩
abbrev STab : Shape := ⟨2, ![100000, 128]⟩
abbrev SList : Shape := ⟨2, ![6400, 128]⟩
abbrev SFlat : Shape := ⟨2, ![819200, 128]⟩
abbrev SMid : Shape := ⟨3, ![50, 16384, 128]⟩
abbrev SRes : Shape := ⟨3, ![16384, 50, 128]⟩

/-- A 32-bit word read as a row of the table: its value when that is below 100000. -/
def rowOf (w : BitVec 32) : Fin 100000 := ⟨w.toNat % 100000, Nat.mod_lt _ (by decide)⟩

theorem rowOf_val {w : BitVec 32} (h : w.toNat < 100000) : (rowOf w).val = w.toNat := Nat.mod_eq_of_lt h

/-- Entry `p` of the index lists read in row-major order: list `p / 128`, position `p % 128`. -/
def listAt (lst : SList.Idx → BitVec 32) (p : Fin 819200) : BitVec 32 :=
  lst (ix2 (⟨p.val / 128, by have := p.isLt; omega⟩ : Fin 6400) (⟨p.val % 128, Nat.mod_lt _ (by decide)⟩ : Fin 128))

/-- The flat gathered array: row `p` is the table's row named by entry `p` of the lists. -/
def gatherOut {α : Type} (lst : SList.Idx → BitVec 32) (tab : STab.Idx → α) : SFlat.Idx → α :=
  fun x => tab (ix2 (rowOf (listAt lst (x 0))) (x 1))

/-- The lookup itself: at (b, h, l) the table's row `ids (b, h)`, column `l`. -/
def lookup {α : Type} (ids : SIds.Idx → BitVec 32) (tab : STab.Idx → α) : SRes.Idx → α :=
  fun x => tab (ix2 (rowOf (ids (ix2 (x 0) (x 1)))) (x 2))

end Cert.Proof.Spec

end
-- ==== Proof.RefValue.lean ====
/-
  The reference's value as a pure function of its two argument arrays, and that function on in-range row numbers.

  The reference wraps a negative row number (adds the table's height 100000 to it), masks the positions whose wrapped row
  number lies outside [0, 99999] (both compares signed), gathers the table's rows at the wrapped row numbers (a start
  index is read signed and clamped into [0, 99999]) and keeps a gathered row where the mask holds, the not-a-number
  constant elsewhere. When every row number, read unsigned, is below 100000 it is also non-negative read signed (100000
  is below 2^31), so the wrap keeps it, the mask holds everywhere, the clamp is the identity, and the result at
  (b, h, l) is the table at (row number at (b, h), l): the lookup of the shared specification.
-/
import proofs.«206364_g2774548873608_retrytranche1_142_25_alg».proof.Proof.Gen.ReferenceIdeal
import proofs.«206364_g2774548873608_retrytranche1_142_25_alg».proof.Proof.Spec
import Idealize.ShloMosaic.Lib.ReduceAll
import Idealize.ShloMosaic.Lib.ValueIdx
import Idealize.ShloMosaic.Lib.Pipeline.Value

noncomputable section

namespace Cert.Proof.Ref

open Cert.ReferenceIdeal Cert.ReferenceIdeal.Gen Idealize.ShloMosaic Idealize.ShloMosaic.ValueIdx

/-! ## The value -/

/-- The row numbers after the wrap: a row number below zero (read signed) has 100000 added, any other is kept. -/
def wrapped (ids : S16384x50.Idx → BitVec 32) : S16384x50.Idx → BitVec 32 :=
  select (cmpi .slt ids (broadcastInDim S16384x50 ![] bcast_S_S16384x50 (constantI S_ 32 0#32)))
    (addi ids (broadcastInDim S16384x50 ![] bcast_S_S16384x50 (constantI S_ 32 100000#32))) ids

/-- The wrapped row numbers with a trailing axis of extent one: the gather's start indices. -/
def starts (ids : S16384x50.Idx → BitVec 32) : S16384x50x1.Idx → BitVec 32 :=
  broadcastInDim S16384x50x1 ![0, 1] bcast_S16384x50_S16384x50x1_0_1 (wrapped ids)

/-- Where the wrapped row number lies in [0, 99999] (both compares signed), the conjunction taken along the trailing
    axis of extent one. -/
def inBounds (ids : S16384x50.Idx → BitVec 32) : S16384x50.Idx → BitVec 1 :=
  Host.reduce IntOp.andi
    (andi (cmpi .sge (starts ids) (broadcastInDim S16384x50x1 ![] bcast_S_S16384x50x1 (constantI S_ 32 0#32)))
      (cmpi .sle (starts ids)
        (broadcastInDim S16384x50x1 ![0, 1, 2] bcast_S1x1x1_S16384x50x1_0_1_2
          (broadcastInDim S1x1x1 ![2] bcast_S1_S1x1x1_2 (constantI S1 32 99999#32)))))
    (constantI S_ 1 1#1) reducesTo_S16384x50x1_S16384x50_d2 h_S_

/-- The reference's result as a function of its two arguments: the gathered rows where the row number is in bounds, the
    not-a-number constant elsewhere. -/
def refVal (ids : Spec.SIds.Idx → BitVec 32) (tab : Spec.STab.Idx → EReal) : Spec.SRes.Idx → EReal :=
  select (broadcastInDim S16384x50x128 ![0, 1] bcast_S16384x50_S16384x50x128_0_1 (inBounds ids))
    (Host.gather gather_S100000x128_S16384x50x1_S16384x50x128_2_0_n_n_0_2_1128 tab (starts ids))
    (broadcastInDim S16384x50x128 ![] bcast_S_S16384x50x128 (constant (F := Ideal) S_ .f32 0x7FC00000#32))

/-! ## Words below 100000 -/

/-- A word below 100000 read unsigned is the same number read signed. -/
theorem toInt_of_lt {w : BitVec 32} (h : w.toNat < 100000) : w.toInt = (w.toNat : Int) :=
  BitVec.toInt_eq_toNat_of_lt (by omega)

/-- ... so it does not test negative, ... -/
theorem slt_zero_of_lt {w : BitVec 32} (h : w.toNat < 100000) : IntOp.cmpi .slt w 0#32 = 0#1 := by
  refine eq_zero_of_ne_one fun e => ?_
  rw [IntOp.cmpi_slt, toInt_of_lt h, show (0#32 : BitVec 32).toInt = 0 from by decide] at e
  omega

/-- ... tests at least zero, ... -/
theorem sge_zero_of_lt {w : BitVec 32} (h : w.toNat < 100000) : IntOp.cmpi .sge w 0#32 = 1#1 := by
  rw [IntOp.cmpi_sge, toInt_of_lt h, show (0#32 : BitVec 32).toInt = 0 from by decide]
  omega

/-- ... and tests at most 99999. -/
theorem sle_top_of_lt {w : BitVec 32} (h : w.toNat < 100000) : IntOp.cmpi .sle w 99999#32 = 1#1 := by
  rw [IntOp.cmpi_sle, toInt_of_lt h, show (99999#32 : BitVec 32).toInt = 99999 from by decide]
  omega

/-- A left fold by and, from 1, over words that are all 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_one f hf l

/-! ## The pieces at an index, for in-range row numbers -/

section InRange

variable (ids : S16384x50.Idx → BitVec 32) (hin : ∀ j, (ids j).toNat < 100000)
include hin

/-- The wrap keeps an in-range row number. -/
theorem wrapped_apply (j : S16384x50.Idx) : wrapped ids j = ids j := by
  show Scalar.select (IntOp.cmpi .slt (ids j) 0#32) (IntOp.addi (ids j) 100000#32) (ids j) = ids j
  rw [slt_zero_of_lt (hin j), select_zero]

/-- The start index at (b, h, 0) is the row number at (b, h). -/
theorem starts_apply (b : Fin 16384) (h : Fin 50) (z : Fin 1) : starts ids (ix3 b h z) = ids (ix2 b h) :=
  (broadcastInDim_apply (![0, 1] : Fin 2 → Fin 3) bcast_S16384x50_S16384x50x1_0_1 (wrapped ids) (ix3 b h z) (ix2 b h)
    (fun a => match a with | ⟨0, _⟩ => rfl | ⟨1, _⟩ => rfl)).trans (wrapped_apply ids hin _)

/-- The bounds mask holds everywhere. -/
theorem inBounds_apply (j : S16384x50.Idx) : inBounds ids j = 1#1 := by
  unfold inBounds
  rw [Host.reduce_eq_foldl]
  generalize List.filter _ _ = L
  refine foldl_andi_one _ (fun i => ?_) L
  obtain ⟨b, h, z, rfl⟩ : ∃ (b : Fin 16384) (h : Fin 50) (z : Fin 1), i = ix3 b h z := ⟨i 0, i 1, i 2, eq_ix3 i⟩
  show IntOp.andi (IntOp.cmpi .sge (starts ids (ix3 b h z)) 0#32) (IntOp.cmpi .sle (starts ids (ix3 b h z)) 99999#32) = 1#1
  rw [starts_apply ids hin b h z, IntOp.andi_eq_one]
  exact ⟨sge_zero_of_lt (hin _), sle_top_of_lt (hin _)⟩

end InRange

/-! ## The gather at an index -/

/-- The gather's dimension numbers: operand [100000, 128], start indices [16384, 50, 1], result [16384, 50, 128]; axis 0 of
    the operand collapsed and named by the one-component start index, axis 1 the result's offset axis 2. -/
abbrev gd : GatherDims S100000x128 S16384x50x1 S16384x50x128 :=
  gather_S100000x128_S16384x50x1_S16384x50x128_2_0_n_n_0_2_1128

/-- The gather read at (b, h, l): the table at (the start index at (b, h, 0) read signed and clamped into [0, 99999], l). -/
theorem gather_apply {α : Type} (tab : S100000x128.Idx → α) (idx : S16384x50x1.Idx → BitVec 32)
    (b : Fin 16384) (h : Fin 50) (l : Fin 128) :
    Host.gather gd tab idx (ix3 b h l)
      = tab (ix2 (⟨min (idx (ix3 b h (0 : Fin 1))).toInt.toNat 99999, by omega⟩ : Fin 100000) l) := by
  unfold Host.gather
  refine congrArg tab (funext fun a => Fin.ext ?_)
  match a with
  | ⟨0, _⟩ =>
    show gd.start (ix3 b h l) idx 0 + gd.batchCoord (ix3 b h l) 0 + gd.offCoord (ix3 b h l) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gd.startIndexMap from List.mem_singleton.mpr rfl)]
    have hsi : gd.siIdx (ix3 b h l) ⟨List.idxOf (0 : Fin 2) gd.startIndexMap,
        List.idxOf_lt_length_iff.2 (List.mem_singleton.mpr rfl)⟩ = ix3 b h (0 : Fin 1) := by
      funext c; refine Fin.ext ?_
      match c with
      | ⟨0, _⟩ => rfl
      | ⟨1, _⟩ => rfl
      | ⟨2, _⟩ => rfl
    rw [hsi]
    rfl
  | ⟨1, _⟩ =>
    show gd.start (ix3 b h l) idx 1 + gd.batchCoord (ix3 b h l) 1 + gd.offCoord (ix3 b h l) 1 = l.val
    rw [GatherDims.batchCoord_eq_zero _ _ _ List.not_mem_nil]
    have hs : gd.start (ix3 b h l) idx 1 = 0 := by
      unfold GatherDims.start
      rw [dif_neg (show (1 : Fin 2) ∉ gd.startIndexMap from by decide)]
    have ho : gd.offCoord (ix3 b h l) 1 = l.val := by
      unfold GatherDims.offCoord
      rw [dif_pos (show (1 : Fin 2) ∈ gd.sKept from by decide)]
      rfl
    rw [hs, ho]
    omega

/-! ## The value on in-range row numbers -/

attribute [local irreducible] Host.reduce Host.gather inBounds in
/-- With every row number below 100000, the reference's result is the lookup. -/
theorem refVal_eq_lookup (ids : Spec.SIds.Idx → BitVec 32) (tab : Spec.STab.Idx → EReal)
    (hin : ∀ j, (ids j).toNat < 100000) : refVal ids tab = Spec.lookup ids tab := by
  funext x
  obtain ⟨b, h, l, rfl⟩ : ∃ (b : Fin 16384) (h : Fin 50) (l : Fin 128), x = ix3 b h l := ⟨x 0, x 1, x 2, eq_ix3 x⟩
  -- the mask at (b, h, l) is the mask at (b, h), which holds
  have hm : broadcastInDim S16384x50x128 ![0, 1] bcast_S16384x50_S16384x50x128_0_1 (inBounds ids) (ix3 b h l) = 1#1 :=
    (broadcastInDim_apply (![0, 1] : Fin 2 → Fin 3) bcast_S16384x50_S16384x50x128_0_1 (inBounds ids) (ix3 b h l) (ix2 b h)
      (fun a => match a with | ⟨0, _⟩ => rfl | ⟨1, _⟩ => rfl)).trans (inBounds_apply ids hin _)
  unfold refVal
  rw [select_apply, hm, select_one, gather_apply]
  show tab _ = tab (ix2 (Spec.rowOf (ids (ix2 b h))) l)
  refine congrArg tab (congrArg (fun r : Fin 100000 => ix2 r l) (Fin.ext ?_))
  show min (starts ids (ix3 b h (0 : Fin 1))).toInt.toNat 99999 = (Spec.rowOf (ids (ix2 b h))).val
  rw [starts_apply ids hin b h 0, toInt_of_lt (hin _), Int.toNat_natCast, Spec.rowOf_val (hin _)]
  have := hin (ix2 b h)
  omega

end Cert.Proof.Ref

end
-- ==== Proof.RefRun.lean ====
/-
  The reference program's run, read back as a pure function of its two argument arrays.

  The reference is a straight line of twenty-three host operations (the outlined lookup and, inside it, the outlined
  three-way select, each unfolded at its call). `run` says every weakly fair execution of the program ends with the
  result buffer at `refVal` of the two arguments' launch contents (`refVal`: the composition of the operations'
  functions, defined with the value lemmas) and the two arguments unchanged.
-/
import proofs.«206364_g2774548873608_retrytranche1_142_25_alg».proof.Proof.Gen.ReferenceIdeal
import proofs.«206364_g2774548873608_retrytranche1_142_25_alg».proof.Proof.RefValue
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

/-- The program's twenty-three operations in order, the two calls unfolded (the seventh is the three-way select's one),
    each over the buffers its call names: an operation takes the buffers themselves, whose types are the values' types by
    computation. -/
abbrev ops : List (HloOp τ sig (Elt Ideal)) :=
  [ nullary main_call0_c (constantI S_ 32 0#32),
    unary main_call0_c main_call0_v0 (broadcastInDim S16384x50 ![] bcast_S_S16384x50),
    binary main_arg0 main_call0_v0 main_call0_v1 (cmpi .slt),
    nullary main_call0_c_0 (constantI S_ 32 100000#32),
    unary main_call0_c_0 main_call0_v2 (broadcastInDim S16384x50 ![] bcast_S_S16384x50),
    binary main_arg0 main_call0_v2 main_call0_v3 addi,
    ternary main_call0_v1 main_call0_v3 main_arg0 main_call0_v4 select,
    unary main_call0_v4 main_call0_v5 (broadcastInDim S16384x50x1 ![0, 1] bcast_S16384x50_S16384x50x1_0_1),
    nullary main_call0_c_1 (constantI S1 32 99999#32),
    nullary main_call0_c_2 (constantI S_ 32 0#32),
    unary main_call0_c_2 main_call0_v6 (broadcastInDim S16384x50x1 ![] bcast_S_S16384x50x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S16384x50x1 ![0, 1, 2] bcast_S1x1x1_S16384x50x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S16384x50x1_S16384x50_d2 h_S_),
    binary main_arg1 main_call0_v5 main_call0_v13 (fun x i => Host.gather gather_S100000x128_S16384x50x1_S16384x50x128_2_0_n_n_0_2_1128 x i),
    unary main_call0_v12 main_call0_v14 (broadcastInDim S16384x50x128 ![0, 1] bcast_S16384x50_S16384x50x128_0_1),
    nullary main_call0_cst (constant (F := Ideal) S_ .f32 0x7FC00000#32),
    unary main_call0_cst main_call0_v15 (broadcastInDim S16384x50x128 ![] bcast_S_S16384x50x128),
    ternary main_call0_v14 main_call0_v13 main_call0_v15 main_v0 select ]

attribute [local irreducible] Host.reduce Host.gather in
set_option maxRecDepth 16384 in
/-- The program is that straight line: the two outlined functions unfolded at their calls, both sides are one chain of
    steps once the sequencing is re-associated; step by step the program's operation over typed buffers is the listed one,
    the transport along a buffer's type equation being the identity at a literal buffer. The fold over the reduced axis
    and the gather's index arithmetic stay closed: the comparison never looks inside them. -/
theorem main_eq (c : Dev nD) : main (F := Ideal) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- What the result buffer holds after the operations, from any contents: each operation's result read at its own buffer
    and every other buffer left as it was. The
    fold over a reduced axis and the gather's index arithmetic are kept closed meanwhile: the equation never looks inside
    them. -/
theorem out_eq (V : Valuation τ sig (Elt Ideal)) :
    after ops V (main_v0 : DevRef τ sig) = refVal (V (main_arg0 : DevRef τ sig)) (V (main_arg1 : DevRef τ sig)) := by
  after_results_simp
  rfl

/-- No operation writes the first argument. -/
theorem arg0_eq (V : Valuation τ sig (Elt Ideal)) :
    after ops V (main_arg0 : DevRef τ sig) = V (main_arg0 : DevRef τ sig) := by
  after_results_simp

/-- No operation writes the second argument. -/
theorem arg1_eq (V : Valuation τ sig (Elt Ideal)) :
    after ops V (main_arg1 : DevRef τ sig) = V (main_arg1 : DevRef τ sig) := by
  after_results_simp

/-- On the one device, from any memory with zero counters: every weakly fair execution of the reference terminates with
    its result at `refVal` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
          = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.HostGlue.lean ====
/-
  The two re-layings around the gather, as index equations.

  Before the gather the array of row numbers, [16384, 50], is transposed to [50, 16384] and cut, in row-major
  order, into 6400 lists of 128. Entry p of those lists (list p / 128, position p % 128) sits at row-major
  position p of the transposed array, that is at its (p / 16384, p % 16384), which is the original array's
  (p % 16384, p / 16384).

  After the gather the flat [819200, 128] array is cut, in row-major order, into [50, 16384, 128] and its first two
  axes are exchanged: the result's (b, h, l) is the middle array's (h, b, l), which is the flat array's row
  h * 16384 + b, column l.

  Put together: the flat array's row h * 16384 + b holds the table row named by list entry h * 16384 + b, which is
  the row number at (b, h) of the original array, since (h * 16384 + b) % 16384 = b and (h * 16384 + b) / 16384 = h
  for b below 16384. So the re-laid gather is the lookup.
-/
import proofs.«206364_g2774548873608_retrytranche1_142_25_alg».proof.Proof.Spec
import Idealize.ShloMosaic.Lib.ValueIdx
import Idealize.ShloMosaic.Lib.Pipeline.Value

noncomputable section

namespace Cert.Proof.HostGlue

open Idealize.ShloMosaic Idealize.ShloMosaic.ValueIdx
open Cert.Proof

/-- Entry `p` of the lists cut from the transposed row numbers is the row number at (p % 16384, p / 16384). -/
theorem list_of_ids (ids : Spec.SIds.Idx → BitVec 32) (hT : Spec.SIds.Transposes [1, 0] Spec.SIdsT)
    (hC : Spec.SIdsT.ShapeCasts Spec.SList) (p : Fin 819200) :
    Spec.listAt (shapeCast Spec.SList (transpose Spec.SIdsT [1, 0] ids hT) hC) p
      = ids (ix2 (⟨p.val % 16384, Nat.mod_lt _ (by decide)⟩ : Fin 16384)
                 (⟨p.val / 16384, by have := p.isLt; omega⟩ : Fin 50)) := by
  have hp : p.val < 819200 := p.isLt
  unfold Spec.listAt
  -- the cut into lists: [6400, 128] at (p / 128, p % 128) reads [50, 16384] at (p / 16384, p % 16384)
  refine (shapeCast_apply _ hC _
    (ix2 (⟨p.val / 16384, by omega⟩ : Fin 50) (⟨p.val % 16384, Nat.mod_lt _ (by decide)⟩ : Fin 16384)) ?_).trans ?_
  · rw [Shape.rowMajor_val_two, Shape.rowMajor_val_two]
    show p.val / 16384 * 16384 + p.val % 16384 = p.val / 128 * 128 + p.val % 128
    omega
  -- the transpose: [50, 16384] at (h, b) reads [16384, 50] at (b, h)
  · exact transpose_apply _ ids hT _ _ (fun a => match a with | ⟨0, _⟩ => rfl | ⟨1, _⟩ => rfl)

/-- The re-laid flat array at (b, h, l) is the flat array's row `h * 16384 + b`, column `l`. -/
theorem result_of_flat {α : Type} (out : Spec.SFlat.Idx → α) (hC : Spec.SFlat.ShapeCasts Spec.SMid)
    (hT : Spec.SMid.Transposes [1, 0, 2] Spec.SRes) (b : Fin 16384) (h : Fin 50) (l : Fin 128) :
    transpose Spec.SRes [1, 0, 2] (shapeCast Spec.SMid out hC) hT (ix3 b h l)
      = out (ix2 (⟨h.val * 16384 + b.val, by have := h.isLt; have := b.isLt; omega⟩ : Fin 819200) l) := by
  -- the transpose: [16384, 50, 128] at (b, h, l) reads [50, 16384, 128] at (h, b, l)
  refine (transpose_apply _ _ hT _ (ix3 h b l)
    (fun a => match a with | ⟨0, _⟩ => rfl | ⟨1, _⟩ => rfl | ⟨2, _⟩ => rfl)).trans ?_
  -- the cut: [50, 16384, 128] at (h, b, l) reads [819200, 128] at (h * 16384 + b, l)
  refine shapeCast_apply out hC _ _ ?_
  rw [Shape.rowMajor_val_two, Shape.rowMajor_val_three]
  show (h.val * 16384 + b.val) * 128 + l.val = (h.val * 16384 + b.val) * 128 + l.val
  rfl

/-- The gather through the re-laid row numbers, re-laid back, is the lookup. -/
theorem lookup_of_gatherOut {α : Type} (ids : Spec.SIds.Idx → BitVec 32) (tab : Spec.STab.Idx → α)
    (hT1 : Spec.SIds.Transposes [1, 0] Spec.SIdsT) (hC1 : Spec.SIdsT.ShapeCasts Spec.SList)
    (hC2 : Spec.SFlat.ShapeCasts Spec.SMid) (hT2 : Spec.SMid.Transposes [1, 0, 2] Spec.SRes) :
    transpose Spec.SRes [1, 0, 2]
        (shapeCast Spec.SMid
          (Spec.gatherOut (shapeCast Spec.SList (transpose Spec.SIdsT [1, 0] ids hT1) hC1) tab) hC2) hT2
      = Spec.lookup ids tab := by
  funext x
  obtain ⟨b, h, l, rfl⟩ : ∃ (b : Fin 16384) (h : Fin 50) (l : Fin 128), x = ix3 b h l :=
    ⟨x 0, x 1, x 2, eq_ix3 x⟩
  have hb : b.val < 16384 := b.isLt
  have hh : h.val < 50 := h.isLt
  rw [result_of_flat]
  show tab (ix2 (Spec.rowOf (Spec.listAt (shapeCast Spec.SList (transpose Spec.SIdsT [1, 0] ids hT1) hC1)
        (⟨h.val * 16384 + b.val, by omega⟩ : Fin 819200))) l)
      = tab (ix2 (Spec.rowOf (ids (ix2 b h))) l)
  rw [list_of_ids]
  -- (h * 16384 + b) % 16384 = b and (h * 16384 + b) / 16384 = h
  have e1 : (⟨(h.val * 16384 + b.val) % 16384, Nat.mod_lt _ (by decide)⟩ : Fin 16384) = b := Fin.ext (by show (h.val * 16384 + b.val) % 16384 = b.val; omega)
  have e2 : (⟨(h.val * 16384 + b.val) / 16384, by omega⟩ : Fin 50) = h := Fin.ext (by show (h.val * 16384 + b.val) / 16384 = h.val; omega)
  rw [e1, e2]

end Cert.Proof.HostGlue

end
-- ==== Proof.PreRange.lean ====
/-
  From the precondition to the range of the row numbers.

  The precondition is the conjunction of two "for all" statements, each computed as an AND over a whole array
  started from 1: every table entry is finite, and every row number x satisfies 0 <= x and x <= 99999, both compared
  as signed 32-bit words. The conjunction being 1 makes its second conjunct 1; an AND over all positions that came out
  1 met a 1 at every position; and at one position, 0 <= x <= 99999 as a signed word says the word's top bit is clear,
  so its signed value is its value as a natural number, which is then at most 99999.

  Nothing here depends on how floats are read: the statement holds for every float instance, and is then restated
  for each program's launch memory in the form its precondition takes.
-/
import proofs.«206364_g2774548873608_retrytranche1_142_25_alg».proof.Pre_input_domain
import proofs.«206364_g2774548873608_retrytranche1_142_25_alg».proof.Proof.Gen.Pre_input_domain
import proofs.«206364_g2774548873608_retrytranche1_142_25_alg».proof.Defs
import Idealize.ShloMosaic.Lib.ReduceAll
import Idealize.ShloMosaic.Lib.ValueIdx

namespace Cert.Proof.PreRange

open Idealize.ShloMosaic Idealize.ShloMosaic.ValueIdx Idealize.SL.Sem

/-- The scalar shape has one index. -/
instance : Subsingleton Cert.Pre_input_domain.S_.Idx := ⟨fun a b => funext fun d => d.elim0⟩

/-- A 32-bit word that is at least 0 and at most 99999, compared signed, is below 100000 as a natural number. -/
theorem word_lt (v : BitVec 32)
    (e : IntOp.andi (IntOp.cmpi .sge v 0#32) (IntOp.cmpi .sle v 99999#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- The precondition all ones: every row number is below 100000. -/
theorem ids_lt {F : FTy → Type} [FloatOps F] [Cert.Pre_input_domain.Facts]
    (ids : IVec Cert.Pre_input_domain.S16384x50 32) (tab : FVec F Cert.Pre_input_domain.S100000x128 .f32)
    (h : Cert.Pre_input_domain.fn (F := F) ids tab = fun _ => 1#1) : ∀ j, (ids j).toNat < 100000 := by
  intro j
  -- the one entry of the scalar result
  have e := congrFun h ix0
  dsimp only [Cert.Pre_input_domain.fn] at e
  -- the second conjunct: the AND over all row numbers of the two comparisons
  obtain ⟨_, e9⟩ := IntOp.andi_eq_one.1 e
  -- at position j
  have ej := Host.reduce_andi_all _ _ _ _ _ e9 j
  exact word_lt _ ej

/-- The same, of the idealized kernel's launch memory. -/
theorem ids_lt_of_pre_kernelIdeal [Cert.Pre_input_domain.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ j, (m ((c.tc : Thread Cert.KernelIdeal.nD Cert.KernelIdeal.τ).loc Cert.KernelIdeal.main_arg0) j).toNat < 100000 :=
  ids_lt (F := Ideal) _ _ (h c)

/-- The same, of the kernel's launch memory. -/
theorem ids_lt_of_pre_kernel [Cert.Pre_input_domain.Facts]
    (m : (ℓ : Loc Cert.Kernel.nD Cert.Kernel.τ Cert.Kernel.sig) → Buf (Elt Bits) ℓ)
    (h : Cert.Pre_Kernel m) (c : Dev Cert.Kernel.nD) :
    ∀ j, (m ((c.tc : Thread Cert.Kernel.nD Cert.Kernel.τ).loc Cert.Kernel.main_arg0) j).toNat < 100000 :=
  ids_lt (F := Bits) _ _ (h c)

/-- The same, of the idealized reference's launch memory. -/
theorem ids_lt_of_pre_referenceIdeal [Cert.Pre_input_domain.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ j, (m ((c.tc : Thread Cert.ReferenceIdeal.nD Cert.ReferenceIdeal.τ).loc Cert.ReferenceIdeal.main_arg0) j).toNat < 100000 :=
  ids_lt (F := Ideal) _ _ (h c)

end Cert.Proof.PreRange
-- ==== Proof.TileDefsI.lean ====
import proofs.«206364_g2774548873608_retrytranche1_142_25_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206364_g2774548873608_retrytranche1_142_25_alg».proof.Proof.Gen.KernelIdeal
import proofs.«206364_g2774548873608_retrytranche1_142_25_alg».proof.Proof.Gen.KernelIdeal.Skeleton
import proofs.«206364_g2774548873608_retrytranche1_142_25_alg».proof.Proof.Spec

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and one tile's canonical windows -/

variable (m : (ℓ : Loc nD τ sig) → Buf (Elt F) ℓ) (ρ : Dev nD → PrngReg)

abbrev tLoc (d : Dev nD) : Loc nD τ sig := (SparseCore.T d).loc main_arg1
abbrev lLoc (d : Dev nD) : Loc nD τ sig := (SparseCore.T d).loc main_v1
abbrev oLoc (d : Dev nD) : Loc nD τ sig := (SparseCore.T d).loc main_v2

local notation "tV" => (Memref.whole Cert.KernelIdeal.main_arg1_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S6400x128 EltTy.i32)
local notation "oV" => (Memref.whole Cert.KernelIdeal.main_v2_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S6x128x128 EltTy.f32)

abbrev cV (L : grid0.Coords) : Fin τ.nSC := (L 0).castLE hcore0
abbrev jV (L : grid0.Coords) : Fin τ.nSub := (L 1).castLE hsub0

/-- The first output row of the tile at grid point `L`: tile number `2 * L 1 + L 0` times 25600. -/
def base (L : grid0.Coords) : ℕ := 51200 * (L 1).val + 25600 * (L 0).val

theorem base_le (L : grid0.Coords) : base L + 25600 ≤ 819200 := by
  have h1 : (L 1).val < 16 := (L 1).isLt
  have h0 : (L 0).val < 2 := (L 0).isLt
  unfold base; omega

theorem sOff_inb (s : ℕ) : ∀ a, (![s % 6, 0, 0] : Fin 3 → Nat) a + S1x128x128.size a ≤ S6x128x128.size a := by
  have : s % 6 < 6 := Nat.mod_lt _ (by decide)
  intro a; fin_cases a <;> simp <;> omega
theorem iOff_inb (c : ℕ) : ∀ a, (![c % 200, 0] : Fin 2 → Nat) a + S1x128.size a ≤ S200x128.size a := by
  have : c % 200 < 200 := Nat.mod_lt _ (by decide)
  intro a; fin_cases a <;> simp <;> omega
theorem oOff_inb (L : grid0.Coords) (c : ℕ) : ∀ a, (![base L + 128 * (c % 200), 0] : Fin 2 → Nat) a + S128x128.size a ≤ S819200x128.size a := by
  have : c % 200 < 200 := Nat.mod_lt _ (by decide)
  have := base_le L
  intro a; fin_cases a <;> simp <;> omega
theorem qOff_inb (s : ℕ) : ∀ a, (![s % 6] : Fin 1 → Nat) a + S1.size a ≤ S6.size a := by
  have : s % 6 < 6 := Nat.mod_lt _ (by decide)
  intro a; fin_cases a; simp; omega

/-- The whole table, as every gather names it. -/
abbrev tAll : Memref sig .scVector .hbm S100000x128 .f32 :=
  (tV).slice (Rect.unit (s := S100000x128) ![0, 0] S100000x128.size inb_S100000x128_S100000x128_0_0) (fun _ => rfl)
/-- Row buffer `s % 6` of the six. -/
abbrev slotM (s : ℕ) : Memref sig .scVector .vmem S128x128 .f32 :=
  ((rV).slice (Rect.unit (s := S6x128x128) ![s % 6, 0, 0] S1x128x128.size (sOff_inb s)) (fun _ => rfl)).squeeze S128x128 squeezes_S1x128x128_S128x128
/-- List `c` of the tile's 200 fetched index lists. -/
abbrev irowM (c : ℕ) : Memref sig .scVector .vmem S128 .i32 :=
  ((iV).slice (Rect.unit (s := S200x128) ![c % 200, 0] S1x128.size (iOff_inb c)) (fun _ => rfl)).squeeze S128 squeezes_S1x128_S128
/-- Chunk `c` of the tile's 200 chunks of 128 output rows. -/
abbrev ochM (L : grid0.Coords) (c : ℕ) : Memref sig .scVector .hbm S128x128 .f32 :=
  (oV).slice (Rect.unit (s := S819200x128) ![base L + 128 * (c % 200), 0] S128x128.size (oOff_inb L c)) (fun _ => rfl)
/-- The tile's block of 200 index lists in the list array. -/
abbrev lblkM (L : grid0.Coords) : Memref sig .scVector .hbm S200x128 .i32 :=
  (lV).slice (Rect.unit (s := S6400x128) (k0_off1 L) S200x128.size (k0_off1_inb L)) (fun _ => rfl)
/-- The gathers' and the write-outs' semaphores of row buffer `s % 6`. -/
abbrev gsemM (s : ℕ) : DmaSem sig := ((cc0_scratch2.slice (Rect.unit (s := S6) ![s % 6] S1.size (qOff_inb s))).squeeze S_ squeezes_S1_S_).sem
abbrev psemM (s : ℕ) : DmaSem sig := ((cc0_scratch3.slice (Rect.unit (s := S6) ![s % 6] S1.size (qOff_inb s))).squeeze S_ squeezes_S1_S_).sem

theorem slotM_add6 (s : ℕ) : slotM (s + 6) = slotM s := by
  unfold slotM; rw [Memref.slice_unit_congr (rV) (show (![(s + 6) % 6, 0, 0] : Fin 3 → Nat) = ![s % 6, 0, 0] by rw [Nat.add_mod_right])]
theorem gsemM_add6 (s : ℕ) : gsemM (s + 6) = gsemM s := by
  unfold gsemM; rw [SemArray.slice_unit_congr cc0_scratch2 (show (![(s + 6) % 6] : Fin 1 → Nat) = ![s % 6] by rw [Nat.add_mod_right])]
theorem psemM_add6 (s : ℕ) : psemM (s + 6) = psemM s := by
  unfold psemM; rw [SemArray.slice_unit_congr cc0_scratch3 (show (![(s + 6) % 6] : Fin 1 → Nat) = ![s % 6] by rw [Nat.add_mod_right])]

/-! ## What the tile's scratch and output hold, stated by coordinates -/

/-- The tile's fetched index lists are its block of the list array: list `c`, entry `l` is list
    `400 * L 1 + 200 * L 0 + c`, entry `l` of the array. -/
def IdxHolds (L : grid0.Coords) (lst : S6400x128.Idx → BitVec 32) (fo : S200x128.Idx → BitVec 32) : Prop :=
  ∀ (c : Fin 200) (l : Fin 128),
    fo (ValueIdx.ix2 c l) = lst (ValueIdx.ix2 (⟨400 * (L 1).val + 200 * (L 0).val + c.val, by
      have h1 : (L 1).val < 16 := (L 1).isLt
      have h0 : (L 0).val < 2 := (L 0).isLt
      have := c.isLt; omega⟩ : Fin 6400) l)

/-- Row buffer `c % 6`, read through its window, holds the table's rows named by index list `c % 200`:
    row `r`, column `l` is the table at row `fo (c % 200, r)`, column `l`. -/
def SlotHolds (c : ℕ) (fo : S200x128.Idx → BitVec 32) (tab : S100000x128.Idx → Elt F .f32) (f : S6x128x128.Idx → Elt F .f32) : Prop :=
  ∀ (r l : Fin 128), (slotM c).view.read (Elt F) f (ValueIdx.ix2 r l)
    = tab (ValueIdx.ix2 (Spec.rowOf (fo (ValueIdx.ix2 (⟨c % 200, Nat.mod_lt _ (by decide)⟩ : Fin 200) r))) l)

end Cert.Proof.KernelIdealP
end
-- ==== Proof.PayI.lean ====
import proofs.«206364_g2774548873608_retrytranche1_142_25_alg».proof.Proof.TileDefsI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the launch's handshakes carry -/

section Pay

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

/-- The list array as the kernel finds it: the row numbers transposed to [50, 16384] and cut into 6400 lists of 128. -/
def lstOf (d : Dev nD) : S6400x128.Idx → BitVec 32 :=
  shapeCast S6400x128 (transpose S50x16384 [1, 0] (m ((SparseCore.T d).loc main_arg0)) transposes_S16384x50_S50x16384_1_0) shapeCasts_S50x16384_S6400x128
/-- The table, and the flat output array as the launch memory has it. -/
abbrev tabOf (d : Dev nD) : S100000x128.Idx → Elt F .f32 := m (tLoc d)
abbrev outOf (d : Dev nD) : S819200x128.Idx → Elt F .f32 := m (oLoc d)

/-- The shares of the table: half-way down to a SparseCore, then to one of its sixteen tiles. -/
abbrev coreShare (c : Fin 2) : PosShare TreeShare := Transfers.shareTok fullShare 2 c
abbrev tileShare (c : Fin 2) (i : Fin 16) : PosShare TreeShare := Transfers.shareTok (coreShare c) 16 i

/-- A tile's part of the list array and of the output (at contents `f`), and its share of the table. -/
abbrev tileArrs (d : Dev nD) (c : Fin 2) (i : Fin 16) (f : S819200x128.Idx → Elt F .f32) : sProp 𝕄 :=
  iprop((lLoc d ↦[(lblkM (coordsV c i)).view.set]{fullShare} lstOf m d)
    ∗ bigSep (Finset.range 200) fun k => oLoc d ↦[(ochM (coordsV c i) k).view.set]{fullShare} f)
abbrev tileTab (d : Dev nD) (c : Fin 2) (i : Fin 16) : sProp 𝕄 := tLoc d ↦{tileShare c i} tabOf m d

/-- The one call hands each SparseCore its tiles' parts of the list array and of the output and its share of the
    table, each tile its own; back comes the same with the output's parts at the gathered rows. -/
def P : (K (F := F)).Pay (nD := nD) (Val := Elt F) (Name := ℕ) (U := UU) where
  st := fun q d c => match q with
    | 0 => iprop((bigSep Finset.univ fun i : Fin 16 => tileArrs m d (Fin.cast nCore_zero c) i (outOf m d)) ∗ tLoc d ↦{coreShare (Fin.cast nCore_zero c)} tabOf m d)
  dn := fun q d c => match q with
    | 0 => iprop((bigSep Finset.univ fun i : Fin 16 => tileArrs m d (Fin.cast nCore_zero c) i (Spec.gatherOut (lstOf m d) (tabOf m d))) ∗ tLoc d ↦{coreShare (Fin.cast nCore_zero c)} tabOf m d)
  go := fun q d c i => match q with
    | 0 => iprop(tileArrs m d (Fin.cast nCore_zero c) (Fin.cast nSub_zero i) (outOf m d) ∗ tileTab m d (Fin.cast nCore_zero c) (Fin.cast nSub_zero i))
  td := fun q d c i => match q with
    | 0 => iprop(tileArrs m d (Fin.cast nCore_zero c) (Fin.cast nSub_zero i) (Spec.gatherOut (lstOf m d) (tabOf m d)) ∗ tileTab m d (Fin.cast nCore_zero c) (Fin.cast nSub_zero i))
  x := fun _ _ => iprop(emp)

end Pay

end Cert.Proof.KernelIdealP
end
-- ==== Proof.Assemble.lean ====
/-
  The certificate's five claims from the runs of its three programs.

  Taken as hypotheses: the idealized kernel's run (from any launch memory whose index lists hold row numbers below
  100000, every weakly fair execution terminates with the result array at the flat gathered array re-laid as
  [50, 16384, 128] and transposed back, and the two arguments unchanged) and the kernel's own frame claim. Proved
  elsewhere and used here: the reference's run and its value on in-range row numbers, the two re-layings around the
  gather as index equations, and the range of the row numbers under the precondition.

  The index lists are a re-laying of the array of row numbers (its transpose cut into lists), so each list entry is
  one of the row numbers, and the precondition puts every row number below 100000: the hypothesis of the kernel's run
  holds. The re-laid gather through the re-laid row numbers is the lookup of the table at the row numbers; so is the
  reference's result on in-range row numbers. From memories that agree on the arguments the two results are therefore
  one array, the lookup at the kernel's arguments, which is the witness of the equality claim. The frame claims forget
  the result's conjunct; no operation of the program was rewritten by the idealization, so that claim is trivial.
-/
import proofs.«206364_g2774548873608_retrytranche1_142_25_alg».proof.Defs
import proofs.«206364_g2774548873608_retrytranche1_142_25_alg».proof.Proof.Gen.Kernel
import proofs.«206364_g2774548873608_retrytranche1_142_25_alg».proof.Proof.Gen.KernelIdeal
import proofs.«206364_g2774548873608_retrytranche1_142_25_alg».proof.Proof.Gen.ReferenceIdeal
import proofs.«206364_g2774548873608_retrytranche1_142_25_alg».proof.Proof.Gen.Pre_input_domain
import proofs.«206364_g2774548873608_retrytranche1_142_25_alg».proof.Proof.RefRun
import proofs.«206364_g2774548873608_retrytranche1_142_25_alg».proof.Proof.HostGlue
import proofs.«206364_g2774548873608_retrytranche1_142_25_alg».proof.Proof.PreRange
import proofs.«206364_g2774548873608_retrytranche1_142_25_alg».proof.Proof.PayI

noncomputable section

namespace Cert.Proof.Asm

open Idealize.ShloMosaic Idealize.SL.Sem
open Cert.Proof

/-- The idealized kernel's run, as the assembly takes it: from a launch memory whose index lists hold row numbers below
    100000, every weakly fair execution terminates with the result at the flat gathered array (the table's rows named
    by the lists) cut into [50, 16384, 128] and its first two axes exchanged, and the two arguments unchanged. -/
abbrev KernelIdealRun : Prop :=
  ∀ (m : (ℓ : Loc Cert.KernelIdeal.nD Cert.KernelIdeal.τ Cert.KernelIdeal.sig) → Buf (Elt Ideal) ℓ)
    (ρ : Dev Cert.KernelIdeal.nD → PrngReg),
    (∀ d j, (KernelIdealP.lstOf m d j).toNat < 100000) →
    θ_run (Cert.KernelIdeal.defs (F := Ideal)) (Cert.KernelIdeal.threads (F := Ideal)) ⟨m, fun _ => 0, ρ⟩
      (fun r => ∀ c : Dev Cert.KernelIdeal.nD,
        r.2.mem ((SparseCore.T c).loc Cert.KernelIdeal.main_v4)
            = transpose Cert.KernelIdeal.S16384x50x128 [1, 0, 2]
                (shapeCast Cert.KernelIdeal.S50x16384x128 (Spec.gatherOut (KernelIdealP.lstOf m c) (KernelIdealP.tabOf m c))
                  Cert.KernelIdeal.Facts₀.shapeCasts_S819200x128_S50x16384x128)
                Cert.KernelIdeal.Facts₀.transposes_S50x16384x128_S16384x50x128_1_0_2
        ∧ r.2.mem ((SparseCore.T c).loc Cert.KernelIdeal.main_arg0) = m ((SparseCore.T c).loc Cert.KernelIdeal.main_arg0)
        ∧ r.2.mem ((SparseCore.T c).loc Cert.KernelIdeal.main_arg1) = m ((SparseCore.T c).loc Cert.KernelIdeal.main_arg1))

/-- Under the precondition every entry of the index lists is below 100000: the lists are the array of row numbers
    transposed and cut, so each entry is one of the row numbers. -/
theorem lst_lt (m : (ℓ : Loc Cert.KernelIdeal.nD Cert.KernelIdeal.τ Cert.KernelIdeal.sig) → Buf (Elt Ideal) ℓ)
    (hpre : Cert.Pre_KernelIdeal m) (d : Dev Cert.KernelIdeal.nD) (j : Cert.KernelIdeal.S6400x128.Idx) :
    (KernelIdealP.lstOf m d j).toNat < 100000 :=
  PreRange.ids_lt_of_pre_kernelIdeal m hpre d _

/-- The idealized kernel runs and leaves its arguments unchanged. -/
theorem frame_kernelIdeal (hI : KernelIdealRun) : Cert.frame_KernelIdeal := fun m g hpre =>
  (θ_run Cert.KernelIdeal.defs _ _).mono (fun _ h c => (h c).2) (hI m g (lst_lt m hpre))

/-- The idealized reference runs and leaves its arguments unchanged. -/
theorem frame_referenceIdeal : Cert.frame_ReferenceIdeal := fun m g _ =>
  (θ_run Cert.ReferenceIdeal.defs _ _).mono (fun _ h c => (h c).2) (Ref.run m g)

/-- From memories that agree on the arguments, under the precondition, both programs end with the lookup of the table at
    the row numbers: the kernel's re-laid gather is that lookup, and so is the reference's value on in-range row numbers. -/
theorem algebraic (hI : KernelIdealRun) : Cert.algebraic_KernelIdeal_ReferenceIdeal := by
  intro m g m' g' hpre hagree
  refine ⟨fun c => Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (hI m g (lst_lt m hpre))
    exact HostGlue.lookup_of_gatherOut _ _ _ _ _ _
  · refine (θ_run Cert.ReferenceIdeal.defs _ _).mono (fun _ h c => ⟨(h c).1.trans ?_, (h c).2⟩) (Ref.run m' g')
    rw [(hagree c).1, (hagree c).2]
    exact Ref.refVal_eq_lookup _ _ (PreRange.ids_lt_of_pre_kernelIdeal m hpre c)

/-- The certificate's claim from the idealized kernel's run and the kernel's frame claim. -/
theorem claim_of (hI : KernelIdealRun)
    (hB : Cert.frame_Kernel (hKernel := Cert.Kernel.Gen.facts) (hPre_input_domain := Cert.Pre_input_domain.Gen.facts)) :
    Cert.Claim :=
  ⟨Cert.Kernel.Gen.facts, Cert.KernelIdeal.Gen.facts, Cert.ReferenceIdeal.Gen.facts, Cert.Pre_input_domain.Gen.facts,
    hB, frame_kernelIdeal hI, frame_referenceIdeal, trivial, algebraic hI⟩

end Cert.Proof.Asm

end
-- ==== Proof.SplitI.lean ====
import proofs.«206364_g2774548873608_retrytranche1_142_25_alg».proof.Proof.PayI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Cutting a points-to along the fibres of a map

The elements `S` of a location are the disjoint union, over the values `t` a map `g` takes on
them, of the fibres `{i ∈ S | g i = t}`; so a points-to on `S` is the separating product of the
points-tos on the fibres. -/

theorem pts_fiber {X : Type} [DecidableEq X] {ℓ : Loc nD τ sig} (A : Finset (Idx ℓ)) (B : Finset X) (g : Idx ℓ → X)
    (hg : ∀ i ∈ A, g i ∈ B) (q : PosShare TreeShare) (f : Buf (Elt F) ℓ) :
    (ℓ ↦[A]{q} f : sProp 𝕄) = bigSep B fun t => ℓ ↦[A.filter fun i => g i = t]{q} f := by
  have hd : ∀ t ∈ B, ∀ t' ∈ B, t ≠ t' → Disjoint (A.filter fun i => g i = t) (A.filter fun i => g i = t') :=
    fun t _ t' _ h => Finset.disjoint_filter.mpr fun i _ h1 h2 => h (h1.symm.trans h2)
  rw [← pointsTo_biUnion B (ℓ := ℓ) (fun t => A.filter fun i => g i = t) hd, Finset.biUnion_filter_eq_of_maps_to hg]

/-! ## Inside a tile: the index scratch by lists, the row scratch by buffers -/

/-- The elements of list `k % 200` of the `[200,128]` index scratch: first coordinate `k % 200`. -/
theorem set_irowM (k : ℕ) :
    (irowM k).view.set = (Finset.univ : Finset S200x128.Idx).filter fun i => (i 0).val = k % 200 := by
  show (((Memref.whole cc0_scratch0 : Memref sig .scVector .vmem S200x128 .i32).view.slice
      (Rect.unit (s := S200x128) ![k % 200, 0] S1x128.size (iOff_inb k))).reshape S128 squeezes_S1x128_S128.numel_eq).set = _
  rw [View.set_reshape]
  show ((View.whole (cc0_scratch0 : Ref sig .scVector)).slice _).set = _
  rw [View.set_slice_whole]
  ext i
  rw [Rect.mem_set_unit, Finset.mem_filter]
  constructor
  · intro h
    have h0 := h 0
    simp at h0
    exact ⟨Finset.mem_univ _, by omega⟩
  · rintro ⟨-, h⟩ a
    have ha : (i a).val < S200x128.size a := (i a).isLt
    fin_cases a <;> simp at ha ⊢ <;> omega

/-- The elements of row buffer `s % 6` of the `[6,128,128]` row scratch: first coordinate `s % 6`. -/
theorem set_slotM (s : ℕ) :
    (slotM s).view.set = (Finset.univ : Finset S6x128x128.Idx).filter fun i => (i 0).val = s % 6 := by
  show (((Memref.whole cc0_scratch1 : Memref sig .scVector .vmem S6x128x128 .f32).view.slice
      (Rect.unit (s := S6x128x128) ![s % 6, 0, 0] S1x128x128.size (sOff_inb s))).reshape S128x128 squeezes_S1x128x128_S128x128.numel_eq).set = _
  rw [View.set_reshape]
  show ((View.whole (cc0_scratch1 : Ref sig .scVector)).slice _).set = _
  rw [View.set_slice_whole]
  ext i
  rw [Rect.mem_set_unit, Finset.mem_filter]
  constructor
  · intro h
    have h0 := h 0
    simp at h0
    exact ⟨Finset.mem_univ _, by omega⟩
  · rintro ⟨-, h⟩ a
    have ha : (i a).val < S6x128x128.size a := (i a).isLt
    fin_cases a <;> simp at ha ⊢ <;> omega

theorem iPts_rows (d : Dev nD) (c : Fin τ.nSC) (i : Fin τ.nSub) (f : Buf (Elt F) ((V d c i).loc cc0_scratch0)) :
    ((V d c i).loc cc0_scratch0 ↦{fullShare} f : sProp 𝕄)
      = bigSep (Finset.range 200) fun k => (V d c i).loc cc0_scratch0 ↦[(irowM k).view.set]{fullShare} f := by
  rw [pts_fiber (ℓ := (V d c i).loc cc0_scratch0) Finset.univ (Finset.range 200) (fun j : S200x128.Idx => (j 0).val)
    (fun j _ => Finset.mem_range.mpr (j 0).isLt) fullShare f]
  refine bigSep_congr fun k hk => ?_
  rw [set_irowM, Nat.mod_eq_of_lt (Finset.mem_range.mp hk)]
  rfl

theorem rPts_slots (d : Dev nD) (c : Fin τ.nSC) (i : Fin τ.nSub) (f : Buf (Elt F) ((V d c i).loc cc0_scratch1)) :
    ((V d c i).loc cc0_scratch1 ↦{fullShare} f : sProp 𝕄)
      = bigSep (Finset.range 6) fun s => (V d c i).loc cc0_scratch1 ↦[(slotM s).view.set]{fullShare} f := by
  rw [pts_fiber (ℓ := (V d c i).loc cc0_scratch1) Finset.univ (Finset.range 6) (fun j : S6x128x128.Idx => (j 0).val)
    (fun j _ => Finset.mem_range.mpr (j 0).isLt) fullShare f]
  refine bigSep_congr fun s hs => ?_
  rw [set_slotM, Nat.mod_eq_of_lt (Finset.mem_range.mp hs)]
  rfl

/-! ## The output among the tiles and, in a tile, among its chunks

Row `r` of the `[819200,128]` output lies in the tile of SparseCore `r / 25600 % 2` and vector subcore
`r / 51200`, in that tile's chunk `r / 128 % 200`: the tile at `(c, s)` owns the 25600 rows from
`51200 * s + 25600 * c`, its chunk `k` the 128 rows from there plus `128 * k`. -/

theorem coordsV_zero (c : Fin 2) (s : Fin 16) : ((coordsV c s) 0).val = c.val := rfl
theorem coordsV_one (c : Fin 2) (s : Fin 16) : ((coordsV c s) 1).val = s.val := rfl

/-- The elements of chunk `k % 200` of the tile at `L`: the 128 rows from `base L + 128 * (k % 200)`. -/
theorem set_ochM (L : grid0.Coords) (k : ℕ) :
    (ochM L k).view.set = (Finset.univ : Finset S819200x128.Idx).filter fun i =>
      base L + 128 * (k % 200) ≤ (i 0).val ∧ (i 0).val < base L + 128 * (k % 200) + 128 := by
  show ((View.whole (main_v2_scv : Ref sig .scVector)).slice _).set = _
  rw [View.set_slice_whole]
  ext i
  rw [Rect.mem_set_unit, Finset.mem_filter]
  constructor
  · intro h
    have h0 := h 0
    simp at h0
    exact ⟨Finset.mem_univ _, by omega⟩
  · rintro ⟨-, h⟩ a
    have ha : (i a).val < S819200x128.size a := (i a).isLt
    fin_cases a <;> simp at ha ⊢ <;> omega

theorem mem_set_ochM (L : grid0.Coords) (k : ℕ) (i : S819200x128.Idx) :
    i ∈ (ochM L k).view.set ↔ base L + 128 * (k % 200) ≤ (i 0).val ∧ (i 0).val < base L + 128 * (k % 200) + 128 := by
  rw [set_ochM, Finset.mem_filter]
  exact and_iff_right (Finset.mem_univ _)

/-- The SparseCore, the vector subcore and the chunk that own an output element. -/
def oC (i : S819200x128.Idx) : Fin 2 := ⟨(i 0).val / 25600 % 2, Nat.mod_lt _ (by decide)⟩
def oS (i : S819200x128.Idx) : Fin 16 := ⟨(i 0).val / 51200, by have h : (i 0).val < 819200 := (i 0).isLt; omega⟩
def oK (i : S819200x128.Idx) : ℕ := (i 0).val / 128 % 200

theorem oFibre_eq (c : Fin 2) (s : Fin 16) (k : ℕ) (hk : k < 200) :
    ((((Finset.univ : Finset S819200x128.Idx).filter fun i => oC i = c).filter fun i => oS i = s).filter fun i => oK i = k)
      = (ochM (coordsV c s) k).view.set := by
  ext i
  refine Iff.trans ?_ (mem_set_ochM (coordsV c s) k i).symm
  have hr : (i 0).val < 819200 := (i 0).isLt
  have hc : c.val < 2 := c.isLt
  have hs : s.val < 16 := s.isLt
  simp only [Finset.mem_filter, Finset.mem_univ, true_and, Fin.ext_iff, oC, oS, oK, base, coordsV_zero, coordsV_one]
  omega

theorem oPts_split (d : Dev nD) (f : Buf (Elt F) (oLoc d)) :
    (oLoc d ↦{fullShare} f : sProp 𝕄) = bigSep Finset.univ fun c : Fin 2 => bigSep Finset.univ fun s : Fin 16 =>
      bigSep (Finset.range 200) fun k => oLoc d ↦[(ochM (coordsV c s) k).view.set]{fullShare} f := by
  rw [pts_fiber (ℓ := oLoc d) Finset.univ (Finset.univ : Finset (Fin 2)) oC (fun _ _ => Finset.mem_univ _) fullShare f]
  refine bigSep_congr fun c _ => ?_
  rw [pts_fiber (ℓ := oLoc d) _ (Finset.univ : Finset (Fin 16)) oS (fun _ _ => Finset.mem_univ _) fullShare f]
  refine bigSep_congr fun s _ => ?_
  rw [pts_fiber (ℓ := oLoc d) _ (Finset.range 200) oK (fun _ _ => Finset.mem_range.mpr (Nat.mod_lt _ (by decide))) fullShare f]
  refine bigSep_congr fun k hk => ?_
  exact congrArg (fun A => (oLoc d ↦[A]{fullShare} f : sProp 𝕄)) (oFibre_eq c s k (Finset.mem_range.mp hk))

/-! ## The list array among the tiles

List `r` of the `[6400,128]` list array lies in the block of SparseCore `r / 200 % 2` and vector subcore
`r / 400`: the tile at `(c, s)` owns the 200 lists from `400 * s + 200 * c`. -/

/-- The elements of the tile's block of the list array: the 200 lists from `400 * L 1 + 200 * L 0`. -/
theorem set_lblkM (L : grid0.Coords) :
    (lblkM L).view.set = (Finset.univ : Finset S6400x128.Idx).filter fun i =>
      400 * (L 1).val + 200 * (L 0).val ≤ (i 0).val ∧ (i 0).val < 400 * (L 1).val + 200 * (L 0).val + 200 := by
  show ((View.whole (main_v1_scv : Ref sig .scVector)).slice _).set = _
  rw [View.set_slice_whole]
  ext i
  rw [Rect.mem_set_unit, Finset.mem_filter, k0_off1_eq]
  constructor
  · intro h
    have h0 := h 0
    simp at h0
    exact ⟨Finset.mem_univ _, by omega⟩
  · rintro ⟨-, h⟩ a
    have ha : (i a).val < S6400x128.size a := (i a).isLt
    fin_cases a <;> simp at ha ⊢ <;> omega

theorem mem_set_lblkM (L : grid0.Coords) (i : S6400x128.Idx) :
    i ∈ (lblkM L).view.set ↔ 400 * (L 1).val + 200 * (L 0).val ≤ (i 0).val ∧ (i 0).val < 400 * (L 1).val + 200 * (L 0).val + 200 := by
  rw [set_lblkM, Finset.mem_filter]
  exact and_iff_right (Finset.mem_univ _)

/-- The SparseCore and the vector subcore that own an element of the list array. -/
def lC (i : S6400x128.Idx) : Fin 2 := ⟨(i 0).val / 200 % 2, Nat.mod_lt _ (by decide)⟩
def lS (i : S6400x128.Idx) : Fin 16 := ⟨(i 0).val / 400, by have h : (i 0).val < 6400 := (i 0).isLt; omega⟩

theorem lFibre_eq (c : Fin 2) (s : Fin 16) :
    (((Finset.univ : Finset S6400x128.Idx).filter fun i => lC i = c).filter fun i => lS i = s)
      = (lblkM (coordsV c s)).view.set := by
  ext i
  refine Iff.trans ?_ (mem_set_lblkM (coordsV c s) i).symm
  have hr : (i 0).val < 6400 := (i 0).isLt
  have hc : c.val < 2 := c.isLt
  have hs : s.val < 16 := s.isLt
  simp only [Finset.mem_filter, Finset.mem_univ, true_and, Fin.ext_iff, lC, lS, coordsV_zero, coordsV_one]
  omega

theorem lPts_split (d : Dev nD) (f : Buf (Elt F) (lLoc d)) :
    (lLoc d ↦{fullShare} f : sProp 𝕄) = bigSep Finset.univ fun c : Fin 2 => bigSep Finset.univ fun s : Fin 16 =>
      lLoc d ↦[(lblkM (coordsV c s)).view.set]{fullShare} f := by
  rw [pts_fiber (ℓ := lLoc d) Finset.univ (Finset.univ : Finset (Fin 2)) lC (fun _ _ => Finset.mem_univ _) fullShare f]
  refine bigSep_congr fun c _ => ?_
  rw [pts_fiber (ℓ := lLoc d) _ (Finset.univ : Finset (Fin 16)) lS (fun _ _ => Finset.mem_univ _) fullShare f]
  refine bigSep_congr fun s _ => ?_
  exact congrArg (fun A => (lLoc d ↦[A]{fullShare} f : sProp 𝕄)) (lFibre_eq c s)

end Cert.Proof.KernelIdealP
end
-- ==== Proof.LaunchI.lean ====
/-
  The launch: from one tile's obligation to the run of the whole program.

  @main on the TensorCore re-lays the row numbers (a transpose, then a cut into lists of 128), calls the two
  SparseCores, and re-lays the flat output (a cut into [50, 16384, 128], then an exchange of the first two axes).
  Around the call the arrays are dealt out and gathered back:

  * the list array and the output are handed over whole, as the disjoint union of the thirty-two tiles' parts (a
    tile's block of 200 lists; its 200 chunks of 128 output rows);
  * the table is only read, by every tile at once, so it goes out in read shares: the full share is halved for the
    two SparseCores, each half is divided again among that SparseCore's sixteen tiles, and at each level the
    remainder of the division stays behind and is joined with the returning shares into the share that was divided.

  What comes back is the same with the output's parts holding the gathered rows; joined, the output is the flat
  gathered array, and the two host operations after the call turn it into the result. The arguments are never
  written: the row numbers are held whole by @main throughout, the table's share is whole again after the call.
  The final memory therefore has the result array at the re-laid gather and both arguments at their launch contents.
-/
import proofs.«206364_g2774548873608_retrytranche1_142_25_alg».proof.Proof.SplitI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The handshakes' payloads can be stored -/

instance P_storable : (P (F := F) m).IsStorable where
  st q d c := match q with
    | 0 => (inferInstance : BI.Storable (upEmb : UEmb _ 𝕄)
        iprop((bigSep Finset.univ fun i : Fin 16 => tileArrs m d (Fin.cast nCore_zero c) i (outOf m d)) ∗ tLoc d ↦{coreShare (Fin.cast nCore_zero c)} tabOf m d))
  dn q d c := match q with
    | 0 => (inferInstance : BI.Storable (upEmb : UEmb _ 𝕄)
        iprop((bigSep Finset.univ fun i : Fin 16 => tileArrs m d (Fin.cast nCore_zero c) i (Spec.gatherOut (lstOf m d) (tabOf m d))) ∗ tLoc d ↦{coreShare (Fin.cast nCore_zero c)} tabOf m d))
  go q d c i := match q with
    | 0 => (inferInstance : BI.Storable (upEmb : UEmb _ 𝕄)
        iprop(tileArrs m d (Fin.cast nCore_zero c) (Fin.cast nSub_zero i) (outOf m d) ∗ tileTab m d (Fin.cast nCore_zero c) (Fin.cast nSub_zero i)))
  td q d c i := match q with
    | 0 => (inferInstance : BI.Storable (upEmb : UEmb _ 𝕄)
        iprop(tileArrs m d (Fin.cast nCore_zero c) (Fin.cast nSub_zero i) (Spec.gatherOut (lstOf m d) (tabOf m d)) ∗ tileTab m d (Fin.cast nCore_zero c) (Fin.cast nSub_zero i)))

/-! ## A SparseCore's operands split among its sixteen tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The arrays' parts are already one per tile; the SparseCore's share of the table splits into sixteen tile shares
    and a remainder, which stays behind and is joined back when the tiles' shares return. -/
theorem vecSplit : (K (F := F)).VecSplit' (P m) 0 := by
  intro d c
  show iprop((bigSep Finset.univ fun i : Fin 16 => tileArrs m d (Fin.cast nCore_zero c) i (outOf m d)) ∗ tLoc d ↦{coreShare (Fin.cast nCore_zero c)} tabOf m d)
    ⊢ |={Set.univ}=> iprop(
      (bigSep Finset.univ fun i : Fin ((K (F := F)).nSub 0) =>
        iprop(tileArrs m d (Fin.cast nCore_zero c) (Fin.cast nSub_zero i) (outOf m d) ∗ tileTab m d (Fin.cast nCore_zero c) (Fin.cast nSub_zero i)))
      ∗ ((bigSep Finset.univ fun i : Fin ((K (F := F)).nSub 0) =>
          iprop(tileArrs m d (Fin.cast nCore_zero c) (Fin.cast nSub_zero i) (Spec.gatherOut (lstOf m d) (tabOf m d)) ∗ tileTab m d (Fin.cast nCore_zero c) (Fin.cast nSub_zero i)))
          -∗ iprop((bigSep Finset.univ fun i : Fin 16 => tileArrs m d (Fin.cast nCore_zero c) i (Spec.gatherOut (lstOf m d) (tabOf m d))) ∗ tLoc d ↦{coreShare (Fin.cast nCore_zero c)} tabOf m d)))
  rw [bigSep_tasks (F := F) (fun i => iprop(tileArrs m d (Fin.cast nCore_zero c) i (outOf m d) ∗ tileTab m d (Fin.cast nCore_zero c) i)),
    bigSep_tasks (F := F) (fun i => iprop(tileArrs m d (Fin.cast nCore_zero c) i (Spec.gatherOut (lstOf m d) (tabOf m d)) ∗ tileTab m d (Fin.cast nCore_zero c) i)),
    bigSep_sep' (Finset.univ : Finset (Fin 16)) (fun i => tileArrs m d (Fin.cast nCore_zero c) i (outOf m d)) (fun i => tileTab m d (Fin.cast nCore_zero c) i),
    bigSep_sep' (Finset.univ : Finset (Fin 16)) (fun i => tileArrs m d (Fin.cast nCore_zero c) i (Spec.gatherOut (lstOf m d) (tabOf m d))) (fun i => tileTab m d (Fin.cast nCore_zero c) i)]
  iintro ⟨Ha, Ht⟩
  ihave Ht' := (Transfers.pointsTo_toks_split (ℓ := tLoc d) (S := Finset.univ) (f := tabOf m d) (coreShare (Fin.cast nCore_zero c)) 16) $$ Ht
  icases Ht' with ⟨Hrest, Htoks⟩
  imodintro
  isplitl [Ha Htoks]
  · isplitl [Ha]; · iexact Ha
    iexact Htoks
  iintro ⟨Ha, Htoks⟩
  isplitl [Ha]; · iexact Ha
  iapply (Transfers.pointsTo_toks_join (ℓ := tLoc d) (S := Finset.univ) (f := tabOf m d) (coreShare (Fin.cast nCore_zero c)) 16)
  isplitl [Hrest]; · iexact Hrest
  iexact Htoks

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main's arrays and host operations -/

abbrev aLoc (d : Dev nD) : Loc nD τ sig := (SparseCore.T d).loc main_arg0
abbrev rLoc (d : Dev nD) : Loc nD τ sig := (SparseCore.T d).loc main_v4

abbrev a0' : DevRef τ sig := Proc.devRef .tc (main_arg0 : Ref sig .tc)
abbrev a1' : DevRef τ sig := Proc.devRef .tc (main_arg1 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev w3' : DevRef τ sig := Proc.devRef .tc (main_v3 : Ref sig .tc)
abbrev w4' : DevRef τ sig := Proc.devRef .tc (main_v4 : Ref sig .tc)

/-- The TensorCore's arrays, all unscoped: the two arguments and the five intermediate and result arrays. -/
abbrev S7 : Finset (DevRef τ sig) := {a0', a1', w0', w1', w2', w3', w4'}

omit [FloatOps F] in
theorem held_S7 (d : Dev nD) (W : Valuation τ sig (Elt F)) :
    (held (T d) S7 W : sProp 𝕄) = iprop((aLoc d ↦{fullShare} W a0') ∗ (tLoc d ↦{fullShare} W a1')
      ∗ ((SparseCore.T d).loc main_v0 ↦{fullShare} W w0') ∗ (lLoc d ↦{fullShare} W w1') ∗ (oLoc d ↦{fullShare} W w2')
      ∗ ((SparseCore.T d).loc main_v3 ↦{fullShare} W w3') ∗ (rLoc d ↦{fullShare} W w4')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1)
      ∗ ((SparseCore.T d).loc main_v0 ↦{fullShare} W main_v0) ∗ (lLoc d ↦{fullShare} W main_v1) ∗ (oLoc d ↦{fullShare} W main_v2)
      ∗ ((SparseCore.T d).loc main_v3 ↦{fullShare} W main_v3) ∗ (rLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The four host operations of @main, as the program writes them. -/
abbrev opT1 : HloOp τ sig (Elt F) :=
  StableHlo.unary main_arg0 main_v0 ((transpose S50x16384 [1, 0] · transposes_S16384x50_S50x16384_1_0) : (⟨S16384x50, .i32⟩ : BufTy).Contents (Elt F) → (⟨S50x16384, .i32⟩ : BufTy).Contents (Elt F))
abbrev opR1 : HloOp τ sig (Elt F) := StableHlo.reshape main_v0 main_v1 rfl shapeCasts_S50x16384_S6400x128
abbrev opR2 : HloOp τ sig (Elt F) := StableHlo.reshape main_v2 main_v3 rfl shapeCasts_S819200x128_S50x16384x128
abbrev opT2 : HloOp τ sig (Elt F) :=
  StableHlo.unary main_v3 main_v4 ((transpose S16384x50x128 [1, 0, 2] · transposes_S50x16384x128_S16384x50x128_1_0_2) : (⟨S50x16384x128, .f32⟩ : BufTy).Contents (Elt F) → (⟨S16384x50x128, .f32⟩ : BufTy).Contents (Elt F))

theorem hT1 : (opT1 (F := F)).bufs ⊆ S7 := show ({a0', w0'} : Finset (DevRef τ sig)) ⊆ S7 by decide
theorem hR1 : (opR1 (F := F)).bufs ⊆ S7 := show ({w0', w1'} : Finset (DevRef τ sig)) ⊆ S7 by decide
theorem hR2 : (opR2 (F := F)).bufs ⊆ S7 := show ({w2', w3'} : Finset (DevRef τ sig)) ⊆ S7 by decide
theorem hT2 : (opT2 (F := F)).bufs ⊆ S7 := show ({w3', w4'} : Finset (DevRef τ sig)) ⊆ S7 by decide

/-- The flat gathered array, and the result it is re-laid into. -/
abbrev GO (d : Dev nD) : S819200x128.Idx → Elt F .f32 := Spec.gatherOut (lstOf m d) (tabOf m d)
abbrev RES (d : Dev nD) : S16384x50x128.Idx → Elt F .f32 :=
  transpose S16384x50x128 [1, 0, 2] (shapeCast S50x16384x128 (GO m d) shapeCasts_S819200x128_S50x16384x128) transposes_S50x16384x128_S16384x50x128_1_0_2

/-- The launch valuation; before the call, after the two re-layings of the row numbers; after the call, the output at
    the gathered rows; at the end, after the two re-layings of the output. -/
def V0 (d : Dev nD) : Valuation τ sig (Elt F) := fun b => m (d, b)
def VA (d : Dev nD) : Valuation τ sig (Elt F) := (opR1 (F := F)).result ((opT1 (F := F)).result (V0 m d))
def VB (d : Dev nD) : Valuation τ sig (Elt F) := Function.update (VA m d) w2' (GO m d)
def VC (d : Dev nD) : Valuation τ sig (Elt F) := (opT2 (F := F)).result ((opR2 (F := F)).result (VB m d))

theorem unscoped_held (d : Dev nD) : (unscopedBufs d (fun b => m ((SparseCore.T d).loc b)) : sProp 𝕄) = held (T d) S7 (V0 m d) := by
  rw [unscopedBufs_eq, held_S7]; rfl

theorem VA_l (d : Dev nD) : VA m d w1' = lstOf m d := by
  unfold VA
  rw [StableHlo.reshape_result', StableHlo.unary_result']
  rfl
theorem VA_a0 (d : Dev nD) : VA m d a0' = m (aLoc d) := by
  unfold VA
  rw [(opR1 (F := F)).result_of_not_mem _ (b := a0') (show a0' ∉ ({w1'} : Finset (DevRef τ sig)) by decide),
    (opT1 (F := F)).result_of_not_mem _ (b := a0') (show a0' ∉ ({w0'} : Finset (DevRef τ sig)) by decide)]
  rfl
theorem VA_a1 (d : Dev nD) : VA m d a1' = m (tLoc d) := by
  unfold VA
  rw [(opR1 (F := F)).result_of_not_mem _ (b := a1') (show a1' ∉ ({w1'} : Finset (DevRef τ sig)) by decide),
    (opT1 (F := F)).result_of_not_mem _ (b := a1') (show a1' ∉ ({w0'} : Finset (DevRef τ sig)) by decide)]
  rfl
theorem VA_o (d : Dev nD) : VA m d w2' = m (oLoc d) := by
  unfold VA
  rw [(opR1 (F := F)).result_of_not_mem _ (b := w2') (show w2' ∉ ({w1'} : Finset (DevRef τ sig)) by decide),
    (opT1 (F := F)).result_of_not_mem _ (b := w2') (show w2' ∉ ({w0'} : Finset (DevRef τ sig)) by decide)]
  rfl

theorem VB_o (d : Dev nD) : VB m d w2' = GO m d := Function.update_self _ _ _
theorem VB_ne (d : Dev nD) {b : DevRef τ sig} (h : b ≠ w2') : VB m d b = VA m d b := Function.update_of_ne h _ _

theorem VC_r (d : Dev nD) : VC m d w4' = RES m d := by
  unfold VC
  rw [StableHlo.unary_result', StableHlo.reshape_result', VB_o]
  rfl
theorem VC_a0 (d : Dev nD) : VC m d a0' = m (aLoc d) := by
  unfold VC
  rw [(opT2 (F := F)).result_of_not_mem _ (b := a0') (show a0' ∉ ({w4'} : Finset (DevRef τ sig)) by decide),
    (opR2 (F := F)).result_of_not_mem _ (b := a0') (show a0' ∉ ({w3'} : Finset (DevRef τ sig)) by decide),
    VB_ne m d (show a0' ≠ w2' by decide), VA_a0]
theorem VC_a1 (d : Dev nD) : VC m d a1' = m (tLoc d) := by
  unfold VC
  rw [(opT2 (F := F)).result_of_not_mem _ (b := a1') (show a1' ∉ ({w4'} : Finset (DevRef τ sig)) by decide),
    (opR2 (F := F)).result_of_not_mem _ (b := a1') (show a1' ∉ ({w3'} : Finset (DevRef τ sig)) by decide),
    VB_ne m d (show a1' ≠ w2' by decide), VA_a1]

/-! ## What @main leaves the claim -/

abbrev FIN (d : Dev nD) : sProp 𝕄 :=
  iprop((rLoc d ↦{fullShare} RES m d) ∗ (aLoc d ↦{fullShare} m (aLoc d)) ∗ (tLoc d ↦{fullShare} m (tLoc d)))

def fq (d : Dev nD) (s' : Phys nD τ sig (Elt F)) : Prop :=
  s'.mem.mem (rLoc d) = RES m d ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha, Ht⟩, HSI⟩
  ihave H := (persistent_entails_right (SI_pointsTo_agree (st := s') (ℓ := rLoc d) (I := Finset.univ) (q := fullShare) (f := RES m d))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := tLoc d) (I := Finset.univ) (q := fullShare) (f := m (tLoc d))) $$ [HSI Ht]
  · isplitl [HSI] <;> iassumption
  icases H with %h3
  ipureintro
  exact ⟨funext fun i => h1 i (Finset.mem_univ i), funext fun i => h2 i (Finset.mem_univ i), funext fun i => h3 i (Finset.mem_univ i)⟩

/-! ## What the call takes and hands back -/

/-- The list array whole is its thirty-two tiles' blocks. -/
def LSplit : Prop := ∀ (d : Dev nD) (f : Buf (Elt F) (lLoc d)),
  (lLoc d ↦{fullShare} f : sProp 𝕄) = bigSep Finset.univ fun c : Fin 2 => bigSep Finset.univ fun s : Fin 16 =>
    lLoc d ↦[(lblkM (coordsV c s)).view.set]{fullShare} f
/-- The output whole is its thirty-two tiles' two hundred chunks each. -/
def OSplit : Prop := ∀ (d : Dev nD) (f : Buf (Elt F) (oLoc d)),
  (oLoc d ↦{fullShare} f : sProp 𝕄) = bigSep Finset.univ fun c : Fin 2 => bigSep Finset.univ fun s : Fin 16 =>
    bigSep (Finset.range 200) fun k => oLoc d ↦[(ochM (coordsV c s) k).view.set]{fullShare} f

omit [FloatOps F] in
/-- All the tiles' parts of the list array and of the output are the two arrays whole. -/
theorem arrs_eq (hL : LSplit (F := F)) (hO : OSplit (F := F)) (d : Dev nD) (f : S819200x128.Idx → Elt F .f32) :
    (bigSep Finset.univ fun c : Fin 2 => bigSep Finset.univ fun i : Fin 16 => tileArrs m d c i f)
      = iprop((lLoc d ↦{fullShare} lstOf m d) ∗ (oLoc d ↦{fullShare} f)) := by
  rw [hL d (lstOf m d), hO d f, ← bigSep_sep']
  refine bigSep_congr fun c _ => ?_
  rw [← bigSep_sep']

omit [FloatOps F] in
/-- What the two SparseCores take: the list array and the output whole, and the two halves of the table's share. -/
theorem cores_eq (hL : LSplit (F := F)) (hO : OSplit (F := F)) (d : Dev nD) (f : S819200x128.Idx → Elt F .f32) :
    (bigSep Finset.univ fun c : Fin 2 =>
        iprop((bigSep Finset.univ fun i : Fin 16 => tileArrs m d c i f) ∗ tLoc d ↦{coreShare c} tabOf m d))
      = iprop(((lLoc d ↦{fullShare} lstOf m d) ∗ (oLoc d ↦{fullShare} f)) ∗ bigSep Finset.univ fun c : Fin 2 => tLoc d ↦{coreShare c} tabOf m d) := by
  rw [bigSep_sep' (Finset.univ : Finset (Fin 2)) (fun c => bigSep Finset.univ fun i : Fin 16 => tileArrs m d c i f) (fun c => tLoc d ↦{coreShare c} tabOf m d),
    arrs_eq m hL hO d f]

theorem st0_eq (hL : LSplit (F := F)) (hO : OSplit (F := F)) (d : Dev nD) :
    (bigSep Finset.univ fun c : Fin ((K (F := F)).nCore 0) => (P m).st 0 d c)
    = iprop(((lLoc d ↦{fullShare} lstOf m d) ∗ (oLoc d ↦{fullShare} outOf m d)) ∗ bigSep Finset.univ fun c : Fin 2 => tLoc d ↦{coreShare c} tabOf m d) :=
  cores_eq m hL hO d (outOf m d)
theorem dn0_eq (hL : LSplit (F := F)) (hO : OSplit (F := F)) (d : Dev nD) :
    (bigSep Finset.univ fun c : Fin ((K (F := F)).nCore 0) => (P m).dn 0 d c)
    = iprop(((lLoc d ↦{fullShare} lstOf m d) ∗ (oLoc d ↦{fullShare} GO m d)) ∗ bigSep Finset.univ fun c : Fin 2 => tLoc d ↦{coreShare c} tabOf m d) :=
  cores_eq m hL hO d (GO m d)

/-! ## @main on the TensorCore -/

abbrev w0Loc (d : Dev nD) : Loc nD τ sig := (SparseCore.T d).loc main_v0
abbrev w3Loc (d : Dev nD) : Loc nD τ sig := (SparseCore.T d).loc main_v3

theorem held_VA (d : Dev nD) : (held (T d) S7 (VA m d) : sProp 𝕄) = iprop((aLoc d ↦{fullShare} m (aLoc d)) ∗ (tLoc d ↦{fullShare} tabOf m d)
    ∗ (w0Loc d ↦{fullShare} VA m d w0') ∗ (lLoc d ↦{fullShare} lstOf m d) ∗ (oLoc d ↦{fullShare} outOf m d)
    ∗ (w3Loc d ↦{fullShare} VA m d w3') ∗ (rLoc d ↦{fullShare} VA m d w4')) := by
  rw [held_S7, VA_a0, VA_a1, VA_l, VA_o]

theorem held_VB (d : Dev nD) : (held (T d) S7 (VB m d) : sProp 𝕄) = iprop((aLoc d ↦{fullShare} m (aLoc d)) ∗ (tLoc d ↦{fullShare} tabOf m d)
    ∗ (w0Loc d ↦{fullShare} VA m d w0') ∗ (lLoc d ↦{fullShare} lstOf m d) ∗ (oLoc d ↦{fullShare} GO m d)
    ∗ (w3Loc d ↦{fullShare} VA m d w3') ∗ (rLoc d ↦{fullShare} VA m d w4')) := by
  rw [held_S7, VB_o, VB_ne m d (show a0' ≠ w2' by decide), VB_ne m d (show a1' ≠ w2' by decide), VB_ne m d (show w0' ≠ w2' by decide),
    VB_ne m d (show w1' ≠ w2' by decide), VB_ne m d (show w3' ≠ w2' by decide), VB_ne m d (show w4' ≠ w2' by decide), VA_a0, VA_a1, VA_l]

theorem held_VC (d : Dev nD) : (held (T d) S7 (VC m d) : sProp 𝕄) = iprop((aLoc d ↦{fullShare} m (aLoc d)) ∗ (tLoc d ↦{fullShare} m (tLoc d))
    ∗ (w0Loc d ↦{fullShare} VC m d w0') ∗ (lLoc d ↦{fullShare} VC m d w1') ∗ (oLoc d ↦{fullShare} VC m d w2')
    ∗ (w3Loc d ↦{fullShare} VC m d w3') ∗ (rLoc d ↦{fullShare} RES m d)) := by
  rw [held_S7, VC_a0, VC_a1, VC_r]

theorem held_VA' (d : Dev nD) : (held (T d) S7 ((opR1 (F := F)).result ((opT1 (F := F)).result (V0 m d))) : sProp 𝕄)
    = iprop((aLoc d ↦{fullShare} m (aLoc d)) ∗ (tLoc d ↦{fullShare} tabOf m d)
    ∗ (w0Loc d ↦{fullShare} VA m d w0') ∗ (lLoc d ↦{fullShare} lstOf m d) ∗ (oLoc d ↦{fullShare} outOf m d)
    ∗ (w3Loc d ↦{fullShare} VA m d w3') ∗ (rLoc d ↦{fullShare} VA m d w4')) := held_VA m d
theorem held_VC' (d : Dev nD) : (held (T d) S7 ((opT2 (F := F)).result ((opR2 (F := F)).result (VB m d))) : sProp 𝕄)
    = iprop((aLoc d ↦{fullShare} m (aLoc d)) ∗ (tLoc d ↦{fullShare} m (tLoc d))
    ∗ (w0Loc d ↦{fullShare} VC m d w0') ∗ (lLoc d ↦{fullShare} VC m d w1') ∗ (oLoc d ↦{fullShare} VC m d w2')
    ∗ (w3Loc d ↦{fullShare} VC m d w3') ∗ (rLoc d ↦{fullShare} RES m d)) := held_VC m d

/-- @main on device `d`'s TensorCore: the row numbers re-laid into the list array; the call, which takes the list array and
    the output whole and the table's share in two halves, the remainder kept here; the output re-laid into the result. -/
theorem hmain (hL : LSplit (F := F)) (hO : OSplit (F := F)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the row numbers transposed, then cut into lists
  iapply (wp_hlo_within 𝒱 (SparseCore.T d) none Set.univ (op := opT1) (S := S7) hT1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S7) hR1 (V := (opT1 (F := F)).result (V0 m d))) $$ [Hb Hheld]
  · isplitl [Hb]; · iexact Hb
    iexact Hheld
  iintro ⟨Hb, Hheld⟩
  rw [wp_ret]; imodintro
  ihave Hh := (Entails.of_eq (held_VA' m d)) $$ Hheld
  icases Hh with ⟨Ha, Ht, H0, Hl, Ho, H3, Hr⟩
  -- the table's share halved for the two SparseCores, the remainder kept
  ihave Ht' := (Transfers.pointsTo_toks_split (ℓ := tLoc d) (S := Finset.univ) (f := tabOf m d) fullShare 2) $$ Ht
  icases Ht' with ⟨Hrest, Htoks⟩
  -- the call
  iapply ((K (F := F)).wp_run (D (F := F)) 𝒱 (EH := EH) (P := P m) κ d 0) $$ [Hst Hl Ho Htoks Hb Ha H0 H3 Hr Hrest]
  isplitr; · iexact Hctx
  isplitl [Hst]; · iexact Hst
  isplitl [Hl Ho Htoks]
  · rw [st0_eq m hL hO]
    isplitl [Hl Ho]
    · isplitl [Hl]; · iexact Hl
      iexact Ho
    iexact Htoks
  iintro ⟨Hst, Hdn⟩
  ihave Hdn' := (Entails.of_eq (dn0_eq m hL hO d)) $$ Hdn
  icases Hdn' with ⟨⟨Hl, Ho⟩, Htoks⟩
  ihave Ht := (Transfers.pointsTo_toks_join (ℓ := tLoc d) (S := Finset.univ) (f := tabOf m d) fullShare 2) $$ [Hrest Htoks]
  · isplitl [Hrest]; · iexact Hrest
    iexact Htoks
  -- the output cut into [50, 16384, 128], then its first two axes exchanged
  iapply (wp_hlo_within 𝒱 (SparseCore.T d) none Set.univ (op := opR2) (S := S7) hR2 (V := VB m d)) $$ [Hb Ha Ht H0 Hl Ho H3 Hr]
  · isplitl [Hb]; · iexact Hb
    rw [held_VB]
    isplitl [Ha]; · iexact Ha
    isplitl [Ht]; · iexact Ht
    isplitl [H0]; · iexact H0
    isplitl [Hl]; · iexact Hl
    isplitl [Ho]; · iexact Ho
    isplitl [H3]; · iexact H3
    iexact Hr
  iintro ⟨Hb, Hheld⟩
  rw [wp_ret]; imodintro
  iapply (wp_hlo_within 𝒱 (SparseCore.T d) none Set.univ (op := opT2) (S := S7) hT2 (V := (opR2 (F := F)).result (VB m d))) $$ [Hb Hheld]
  · isplitl [Hb]; · iexact Hb
    iexact Hheld
  iintro ⟨Hb, Hheld⟩
  ihave Hh := (Entails.of_eq (held_VC' m d)) $$ Hheld
  icases Hh with ⟨Ha, Ht, -, -, -, -, Hr⟩
  rw [wp_ret]; imodintro; imodintro
  isplitl [Hst]; · iexact Hst
  isplitl [Hr]; · iexact Hr
  isplitl [Ha]; · iexact Ha
  iexact Ht

/-! ## The program's run -/

/-- Every device ends with the result array at the re-laid gather and its two arguments unchanged. -/
def QC : PUnit × MemSt nD τ sig (Elt F) → Prop := fun r => ∀ c : Dev nD,
  r.2.mem ((SparseCore.T c).loc main_v4) = transpose S16384x50x128 [1, 0, 2] (shapeCast S50x16384x128 (Spec.gatherOut (lstOf m c) (tabOf m c)) shapeCasts_S819200x128_S50x16384x128) transposes_S50x16384x128_S16384x50x128_1_0_2
  ∧ r.2.mem ((SparseCore.T c).loc main_arg0) = m ((SparseCore.T c).loc main_arg0)
  ∧ r.2.mem ((SparseCore.T c).loc main_arg1) = m ((SparseCore.T c).loc main_arg1)

/-- The run, given the tile's obligation and the two arrays' splits into the tiles' parts. -/
theorem run_main_of_splits [∀ e, Nonempty (Elt F e)] (hL : LSplit (F := F)) (hO : OSplit (F := F))
    (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ hL hO) (fq m) (hfin m) (QC m) (fun _ h => h)

/-- The run, given the tile's obligation: every device ends with the result array at the re-laid gather and its two
    arguments unchanged. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD,
        r.2.mem ((SparseCore.T c).loc main_v4) = transpose S16384x50x128 [1, 0, 2] (shapeCast S50x16384x128 (Spec.gatherOut (lstOf m c) (tabOf m c)) shapeCasts_S819200x128_S50x16384x128) transposes_S50x16384x128_S16384x50x128_1_0_2
        ∧ r.2.mem ((SparseCore.T c).loc main_arg0) = m ((SparseCore.T c).loc main_arg0)
        ∧ r.2.mem ((SparseCore.T c).loc main_arg1) = m ((SparseCore.T c).loc main_arg1)) :=
  run_main_of_splits m ρ (fun d f => lPts_split d f) (fun d f => oPts_split d f) htile

end Cert.Proof.KernelIdealP
end
-- ==== Proof.StepsI.lean ====
import proofs.«206364_g2774548873608_retrytranche1_142_25_alg».proof.Proof.TileDefsI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The states of one chunk of 128 rows -/

section Chunk

variable [FloatOps F]
variable (d : Dev nD) (L : grid0.Coords) (qT : PosShare TreeShare)

abbrev thrV (d : Dev nD) (L : grid0.Coords) : Thread nD τ := V d (cV L) (jV L)

local notation "rV" => (Memref.whole Cert.KernelIdeal.cc0_scratch1 : Memref Cert.KernelIdeal.sig Kind.scVector Space.vmem Cert.KernelIdeal.S6x128x128 EltTy.f32)

/-- The row buffer of chunk c. -/
abbrev sl (c : ℕ) : Fin 6 := ⟨c % 6, Nat.mod_lt _ (by decide)⟩
theorem rOff_inb (r : Fin 6) : ∀ a, (![r.val, 0, 0] : Fin 3 → Nat) a + S1x128x128.size a ≤ S6x128x128.size a := by
  have := r.isLt
  intro a; fin_cases a <;> simp <;> omega
theorem qrOff_inb (r : Fin 6) : ∀ a, (![r.val] : Fin 1 → Nat) a + S1.size a ≤ S6.size a := by
  have := r.isLt
  intro a; fin_cases a; simp; try omega
/-- Row buffer r and its two semaphores, by the buffer's number. -/
abbrev slotF (r : Fin 6) : Memref sig .scVector .vmem S128x128 .f32 :=
  ((rV).slice (Rect.unit (s := S6x128x128) ![r.val, 0, 0] S1x128x128.size (rOff_inb r)) (fun _ => rfl)).squeeze S128x128 squeezes_S1x128x128_S128x128
abbrev gsemF (r : Fin 6) : DmaSem sig := ((cc0_scratch2.slice (Rect.unit (s := S6) ![r.val] S1.size (qrOff_inb r))).squeeze S_ squeezes_S1_S_).sem
abbrev psemF (r : Fin 6) : DmaSem sig := ((cc0_scratch3.slice (Rect.unit (s := S6) ![r.val] S1.size (qrOff_inb r))).squeeze S_ squeezes_S1_S_).sem
theorem slotM_eq_slotF (c : ℕ) : slotM c = slotF (sl c) := rfl
theorem gsemM_eq_gsemF (c : ℕ) : gsemM c = gsemF (sl c) := rfl
theorem psemM_eq_psemF (c : ℕ) : psemM c = psemF (sl c) := rfl

variable (lst : S6400x128.Idx → BitVec 32) (tab : S100000x128.Idx → Elt F .f32)
variable (fo : S200x128.Idx → BitVec 32) (f0 : S819200x128.Idx → Elt F .f32)

/-- The share of the table a gather into row buffer `s % 6` reads. -/
abbrev tq (qT : PosShare TreeShare) (s : ℕ) : PosShare TreeShare := Transfers.shareTok qT 6 ⟨s % 6, Nat.mod_lt _ (by decide)⟩

abbrev gN : ℕ := (slotM 0).view.dmaCredit
abbrev pN (L : grid0.Coords) : ℕ := (ochM L 0).view.dmaCredit

abbrev tTok (s : ℕ) : sProp 𝕄 := (tAll).view.loc (thrV d L) ↦[(tAll).view.set]{tq qT s} tab
abbrev iRowPts (c : ℕ) : sProp 𝕄 := (irowM c).view.loc (thrV d L) ↦[(irowM c).view.set]{fullShare} fo
abbrev oChPts (c : ℕ) (f : S819200x128.Idx → Elt F .f32) : sProp 𝕄 := (ochM L c).view.loc (thrV d L) ↦[(ochM L c).view.set]{fullShare} f
abbrev slotPts (s : ℕ) (f : S6x128x128.Idx → Elt F .f32) : sProp 𝕄 := (slotM s).view.loc (thrV d L) ↦[(slotM s).view.set]{fullShare} f
abbrev gCell (s : ℕ) : GSem nD τ sig := (thrV d L, .dma (gsemM s))
abbrev pCell (s : ℕ) : GSem nD τ sig := (thrV d L, .dma (psemM s))

/-- What the gather of chunk `c` delivers: its row buffer holding the rows the chunk's list names, the share of
    the table and the list back. -/
def Dg (c : ℕ) : sProp 𝕄 :=
  iprop((∃ f, ⌜SlotHolds c fo tab f⌝ ∗ slotPts d L c f) ∗ tTok d L qT tab c ∗ iRowPts d L fo c)

/-- What the write-out of chunk `c` delivers: the chunk of the output at its final contents, the row buffer back. -/
def Dp (c : ℕ) : sProp 𝕄 :=
  iprop(oChPts d L c (Spec.gatherOut lst tab) ∗ ∃ f, slotPts d L c f)

/-- Chunk `c` not yet begun: its list, its output rows at the launch contents. -/
def Fr (c : ℕ) : sProp 𝕄 := iprop(iRowPts d L fo c ∗ oChPts d L c f0)
/-- Row buffer r idle: the buffer, its two semaphores at zero, its share of the table. -/
def Idle (r : Fin 6) : sProp 𝕄 :=
  iprop((∃ f : S6x128x128.Idx → Elt F .f32, (slotF r).view.loc (thrV d L) ↦[(slotF r).view.set]{fullShare} f)
    ∗ semVal ((thrV d L, .dma (gsemF r)) : GSem nD τ sig) 0 ∗ semVal ((thrV d L, .dma (psemF r)) : GSem nD τ sig) 0
    ∗ ((tAll).view.loc (thrV d L) ↦[(tAll).view.set]{Transfers.shareTok qT 6 r} tab))
/-- Chunk `c` being gathered. -/
def Gs (c : ℕ) : sProp 𝕄 :=
  iprop(Transfers.Flight countersEmb (thrV d L) (.dma (gsemM c)) (default : HIx 1) gN (Dg d L qT tab fo c)
    ∗ semVal (pCell d L c) 0 ∗ oChPts d L c f0)
/-- Chunk `c` gathered, not yet written out. -/
def Gd (c : ℕ) : sProp 𝕄 :=
  iprop(Dg d L qT tab fo c ∗ semVal (gCell d L c) 0 ∗ semVal (pCell d L c) 0 ∗ oChPts d L c f0)
/-- Chunk `c` being written out. -/
def Ps (c : ℕ) : sProp 𝕄 :=
  iprop(Transfers.Flight countersEmb (thrV d L) (.dma (psemM c)) (default : HIx 1) (pN L) (Dp d L lst tab c)
    ∗ semVal (gCell d L c) 0 ∗ tTok d L qT tab c ∗ iRowPts d L fo c)
/-- Chunk `c` done. -/
def Dn (c : ℕ) : sProp 𝕄 := iprop(oChPts d L c (Spec.gatherOut lst tab) ∗ iRowPts d L fo c)

end Chunk

/-! ## The four steps of a chunk -/

section Steps

variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)

/-- The wait for chunk `c`'s gather: the chunk is gathered. -/
theorem wp_gatherWait (c : ℕ) (O : CellTallies nD τ sig (HIx 1)) (W : Waits sig (HIx 1)) {sem : DmaSem sig}
    {sp' : Space} {s' : Shape} {e' : EltTy} {κ' : Kind} {sp : Space} {s : Shape} {e : EltTy}
    {srcw : Memref sig (thrV d L).2.kind sp' s' e'} {dstw : Memref sig κ' sp s e}
    {hsrc : srcw.view.WordExact} {hdst : dstw.view.WordExact}
    {α : Type} {Qp : α → sProp 𝕄} {k : PUnit → Prog (TpuEff nD τ sig (Elt F) Λ₀ (thrV d L).2) α}
    (hsem : sem = gsemM c) (hN : dstw.view.dmaCredit = gN) :
    iprop(Transfers.MayWaits (thrV d L) (default : HIx 1) O ∗ Gs d L qT tab fo f0 c ∗ owes (thrV d L) O W)
      ⊢ iprop((iprop(Gd d L qT tab fo f0 c ∗ owes (thrV d L) O (insert (SemLoc.dma (gsemM c), (default : HIx 1)) W))
            -∗ wp frame (wpE (defs₀ (F := F)) 𝒱₀ (thrV d L) none) Set.univ (k ⟨⟩) Qp)
          -∗ wp frame (wpE (defs₀ (F := F)) 𝒱₀ (thrV d L) none) Set.univ (.op (.waitDma2 sem srcw dstw hsrc hdst) k) Qp) := by
  subst hsem
  unfold Gs Gd
  iintro ⟨#Hmw, ⟨Hf, Hp, Ho⟩, HO⟩ Hk
  iapply (Transfers.wp_waitLocalO countersEmb 𝒱₀ (thrV d L) none (default : HIx 1) hN) $$ [Hf HO]
  · isplitl [Hf]; · iexact Hf
    isplitl [HO]; · iexact HO
    iapply (Transfers.MayWaits.elim (SemLoc.dma (gsemM c))) $$ Hmw
  iintro ⟨HD, Hv, HO⟩
  iapply Hk
  isplitr [HO]
  · isplitl [HD]; · iexact HD
    isplitl [Hv]; · iexact Hv
    isplitl [Hp]; · iexact Hp
    iexact Ho
  · iexact HO

/-- The wait for chunk `c`'s write-out: the chunk is done and its row buffer idle. -/
theorem wp_putWait (c : ℕ) (O : CellTallies nD τ sig (HIx 1)) (W : Waits sig (HIx 1)) {sem : DmaSem sig}
    {sp' : Space} {s' : Shape} {e' : EltTy} {κ' : Kind} {sp : Space} {s : Shape} {e : EltTy}
    {srcw : Memref sig (thrV d L).2.kind sp' s' e'} {dstw : Memref sig κ' sp s e}
    {hsrc : srcw.view.WordExact} {hdst : dstw.view.WordExact}
    {α : Type} {Qp : α → sProp 𝕄} {k : PUnit → Prog (TpuEff nD τ sig (Elt F) Λ₀ (thrV d L).2) α}
    (hsem : sem = psemM c) (hN : dstw.view.dmaCredit = pN L) :
    iprop(Transfers.MayWaits (thrV d L) (default : HIx 1) O ∗ Ps d L qT lst tab fo c ∗ owes (thrV d L) O W)
      ⊢ iprop((iprop(Dn d L lst tab fo c ∗ Idle d L qT tab (sl c) ∗ owes (thrV d L) O (insert (SemLoc.dma (psemM c), (default : HIx 1)) W))
            -∗ wp frame (wpE (defs₀ (F := F)) 𝒱₀ (thrV d L) none) Set.univ (k ⟨⟩) Qp)
          -∗ wp frame (wpE (defs₀ (F := F)) 𝒱₀ (thrV d L) none) Set.univ (.op (.waitDma2 sem srcw dstw hsrc hdst) k) Qp) := by
  subst hsem
  unfold Ps Dn Idle Dp
  iintro ⟨#Hmw, ⟨Hf, Hg, Ht, Hi⟩, HO⟩ Hk
  iapply (Transfers.wp_waitLocalO countersEmb 𝒱₀ (thrV d L) none (default : HIx 1) hN) $$ [Hf HO]
  · isplitl [Hf]; · iexact Hf
    isplitl [HO]; · iexact HO
    iapply (Transfers.MayWaits.elim (SemLoc.dma (psemM c))) $$ Hmw
  iintro ⟨⟨Hout, Hslot⟩, Hv, HO⟩
  iapply Hk
  isplitl [Hout Hi]
  · isplitl [Hout]; · iexact Hout
    iexact Hi
  isplitr [HO]
  · isplitl [Hslot]; · iexact Hslot
    isplitl [Hg]; · iexact Hg
    isplitl [Hv]; · iexact Hv
    iexact Ht
  · iexact HO

end Steps

section Issue

variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)

theorem pN_pos (L : grid0.Coords) : 0 < pN L := View.dmaCredit_pos _ (by decide)

/-- The issue of chunk `c`'s write-out, from the chunk gathered. -/
theorem wp_putIssue (c : ℕ) {sem : DmaSem sig}
    {src : Memref sig (thrV d L).2.kind .vmem S128x128 .f32} {dst : Memref sig (thrV d L).2.kind .hbm S128x128 .f32}
    {hsrc : src.view.WordExact} {hdst : dst.view.WordExact} {hsem : DmaTarget.Typed (nD := nD) .vmem (SemLoc.dma sem) (.here dst)}
    {α : Type} {Qp : α → sProp 𝕄} {k : PUnit → Prog (TpuEff nD τ sig (Elt F) Λ₀ (thrV d L).2) α}
    (hs : src = slotM c) (hd : dst = ochM L c) (hse : sem = psemM c)
    (hF2 : ∀ f, SlotHolds c fo tab f → ∀ x ∈ (ochM L c).view.set,
      (ochM L c).view.write (Elt F) f0 ((slotM c).view.read (Elt F) f) Finset.univ x = Spec.gatherOut lst tab x) :
    Gd d L qT tab fo f0 c
      ⊢ iprop((Ps d L qT lst tab fo c -∗ wp frame (wpE (defs₀ (F := F)) 𝒱₀ (thrV d L) none) Set.univ (k ⟨⟩) Qp)
          -∗ wp frame (wpE (defs₀ (F := F)) 𝒱₀ (thrV d L) none) Set.univ (.op (.enqueueDma src (.here dst) (.dma sem) hsrc hdst hsem) k) Qp) := by
  subst hs hd hse
  unfold Gd Ps Dg
  iintro ⟨⟨⟨%f, %hf, Hslot⟩, Ht, Hi⟩, Hg, Hp, Ho⟩ Hk
  iapply (Transfers.wp_dmaLocal countersEmb 𝒱₀ (thrV d L) none (default : HIx 1) (pN L) rfl (pN_pos L) (Finset.Subset.refl _)) $$ [Hslot Ho Hp]
  · isplitl [Hslot]; · iexact Hslot
    isplitl [Ho]; · iexact Ho
    iexact Hp
  iintro Hf
  iapply Hk
  isplitl [Hf]
  · iapply (Transfers.Flight_mono countersEmb (thrV d L) (D' := Dp d L lst tab c) ?_) $$ Hf
    unfold Dp
    iintro ⟨Hout, Hslot⟩
    isplitl [Hout]
    · iapply (Entails.of_eq (pointsTo_congr (hF2 f hf))) $$ Hout
    · iexists f; iexact Hslot
  isplitl [Hg]; · iexact Hg
  isplitl [Ht]; · iexact Ht
  iexact Hi

/-- The issue of chunk `c`'s gather into an idle row buffer. -/
theorem wp_gatherIssue (c : ℕ) {sem : DmaSem sig}
    {src : Memref sig (thrV d L).2.kind .hbm S100000x128 .f32} {dst : Memref sig (thrV d L).2.kind .vmem S128x128 .f32}
    {offs : Memref sig (thrV d L).2.kind .vmem S128 .i32} {hg : S100000x128.Gathers 0 S128x128} {hn : S128.numel = S128x128.size hg.axis'}
    {hp : (thrV d L).2.kind = .scVector} {hsrc : src.view.WordExact} {he : EltTy.f32.bits = 32} {hsp : Space.hbm = .hbm ∨ Space.hbm = .shared} {hr : S100000x128.StreamRows 0}
    {α : Type} {Qp : α → sProp 𝕄} {k : PUnit → Prog (TpuEff nD τ sig (Elt F) Λ₀ (thrV d L).2) α}
    (hs : src = tAll) (hd : dst = slotM c) (ho : offs = irowM c) (hse : sem = gsemM c)
    (hin : ∀ x, ((irowM c).view.read (Elt F) fo x).toNat < S100000x128.size hg.axis)
    (hF1 : ∀ fd, SlotHolds c fo tab ((slotM c).view.write (Elt F) fd
      (SparseCore.gatherPayload hg ((tAll).view.read (Elt F) tab) (SparseCore.rows ((irowM c).view.read (Elt F) fo) hn hin)) Finset.univ)) :
    iprop(Fr d L fo f0 c ∗ Idle d L qT tab (sl c))
      ⊢ iprop((Gs d L qT tab fo f0 c -∗ wp frame (wpE (defs₀ (F := F)) 𝒱₀ (thrV d L) none) Set.univ (k ⟨⟩) Qp)
          -∗ wp frame (wpE (defs₀ (F := F)) 𝒱₀ (thrV d L) none) Set.univ
              (SparseCore.enqueueIndirectGather hp src dst hg offs hn sem hsrc he hsp hr >>= k) Qp) := by
  subst hs hd ho hse
  unfold Fr Idle Gs
  iintro ⟨⟨Hi, Ho⟩, ⟨%fd, Hslot⟩, Hg, Hp, Ht⟩ Hk
  have hN : ∑ j, ((slotM c).slice (S128x128.rowRect hg.axis' j) (S128x128.stride_rowRect hg.axis' j)).view.dmaCredit = gN := by
    exact SparseCore.sum_rowCredit_eq_dmaCredit (slotM c) hg.axis' (fun s' => rfl)
  iapply (SparseCore.wp_indirectGatherLocal countersEmb 𝒱₀ (thrV d L) none (default : HIx 1) gN hN (by decide) hin) $$ [Ht Hslot Hi Hg]
  · isplitl [Ht]; · iexact Ht
    isplitl [Hslot]; · iexact Hslot
    isplitl [Hi]; · iexact Hi
    iexact Hg
  iintro Hf
  iapply Hk
  isplitl [Hf]
  · iapply (Transfers.Flight_mono countersEmb (thrV d L) (D' := Dg d L qT tab fo c) ?_) $$ Hf
    unfold Dg
    iintro ⟨Hslot, Ht, Hi⟩
    isplitl [Hslot]
    · iexists _; isplitr
      · ipureintro; exact hF1 fd
      · iexact Hslot
    isplitl [Ht]; · iexact Ht
    iexact Hi
  isplitl [Hp]; · iexact Hp
  iexact Ho

end Issue

end Cert.Proof.KernelIdealP
end
-- ==== Proof.PayloadI.lean ====
/-
  What the tile's windows read and write, by coordinates.

  Each window of the tile is a unit-stride rectangle of an array, some with a leading axis of extent one dropped.
  Dropping such an axis keeps the row-major order, so a window's index sits in the array at the rectangle's offset
  plus the index itself: row buffer s % 6 at (r, l) is the scratch array's (s % 6, r, l); fetched list c % 200 at
  entry r is the scratch array's (c % 200, r); output chunk c % 200 at (r, l) is the output's row
  base + 128 (c % 200) + r, column l; the tile's block of the list array at (c, l) is list
  400 L1 + 200 L0 + c, entry l; the table's window is the whole table.

  From these: the fetch copies the tile's block of the list array into the scratch lists; if every entry of the list
  array is a row of the table, so is every fetched entry; the gather puts into row r of a row buffer the table's row
  named by entry r of its list (on the indexed axis the source coordinate is the named row, on the other axis the
  destination's own column); and the write-out of a row buffer puts those rows at output rows
  base + 128 (c % 200) + r, which the flat gathered array defines through list entry number
  base + 128 (c % 200) + r — list (base + 128 (c % 200) + r) / 128 = 400 L1 + 200 L0 + c % 200, entry
  (base + 128 (c % 200) + r) % 128 = r, because base = 128 (400 L1 + 200 L0) and r is below 128.
-/
import proofs.«206364_g2774548873608_retrytranche1_142_25_alg».proof.Proof.TileDefsI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## Where a window's index sits in its array -/

/-- Row buffer `s % 6` at (r, l) sits at (s % 6, r, l) of the scratch array. -/
theorem slotM_emb (s : ℕ) (r l : Fin 128) :
    (slotM s).view.emb (ix2 r l) = ix3 (⟨s % 6, Nat.mod_lt _ (by decide)⟩ : Fin 6) r l := by
  show (Rect.unit (s := S6x128x128) ![s % 6, 0, 0] S1x128x128.size (sOff_inb s)).emb
      (Shape.reshapeEquiv squeezes_S1x128x128_S128x128.numel_eq (ix2 r l)) = _
  rw [Shape.reshapeEquiv_eq_of_rowMajor _ (y := ix3 (0 : Fin 1) r l) (by
    rw [Shape.rowMajor_val_three, Shape.rowMajor_val_two]
    show (0 * 128 + r.val) * 128 + l.val = r.val * 128 + l.val
    omega)]
  funext a; apply Fin.ext
  rw [Rect.emb_apply]
  match a with
  | ⟨0, _⟩ => show s % 6 + 1 * 0 = s % 6; omega
  | ⟨1, _⟩ => show 0 + 1 * r.val = r.val; omega
  | ⟨2, _⟩ => show 0 + 1 * l.val = l.val; omega

/-- Fetched list `c % 200` at entry r sits at (c % 200, r) of the scratch array. -/
theorem irowM_emb (c : ℕ) (r : Fin 128) :
    (irowM c).view.emb (ix1 r) = ix2 (⟨c % 200, Nat.mod_lt _ (by decide)⟩ : Fin 200) r := by
  show (Rect.unit (s := S200x128) ![c % 200, 0] S1x128.size (iOff_inb c)).emb
      (Shape.reshapeEquiv squeezes_S1x128_S128.numel_eq (ix1 r)) = _
  rw [Shape.reshapeEquiv_eq_of_rowMajor _ (y := ix2 (0 : Fin 1) r) (by
    rw [Shape.rowMajor_val_two, Shape.rowMajor_val_one]
    show 0 * 128 + r.val = r.val
    omega)]
  funext a; apply Fin.ext
  rw [Rect.emb_apply]
  match a with
  | ⟨0, _⟩ => show c % 200 + 1 * 0 = c % 200; omega
  | ⟨1, _⟩ => show 0 + 1 * r.val = r.val; omega

/-- Output chunk `c % 200` of the tile at (r, l) sits at row base + 128 (c % 200) + r, column l. -/
theorem ochM_emb (L : grid0.Coords) (c : ℕ) (r l : Fin 128) :
    (ochM L c).view.emb (ix2 r l) = ix2 (⟨base L + 128 * (c % 200) + r.val, by
      have := base_le L; have : c % 200 < 200 := Nat.mod_lt _ (by decide); have := r.isLt; omega⟩ : Fin 819200) l := by
  show (Rect.unit (s := S819200x128) ![base L + 128 * (c % 200), 0] S128x128.size (oOff_inb L c)).emb (ix2 r l) = _
  funext a; apply Fin.ext
  rw [Rect.emb_apply]
  match a with
  | ⟨0, _⟩ => show base L + 128 * (c % 200) + 1 * r.val = base L + 128 * (c % 200) + r.val; omega
  | ⟨1, _⟩ => show 0 + 1 * l.val = l.val; omega

/-- The tile's block of the list array at (c, l) sits at list 400 L1 + 200 L0 + c, entry l. -/
theorem lblkM_emb (L : grid0.Coords) (c : Fin 200) (l : Fin 128) :
    (lblkM L).view.emb (ix2 c l) = ix2 (⟨400 * (L 1).val + 200 * (L 0).val + c.val, by
      have h1 : (L 1).val < 16 := (L 1).isLt
      have h0 : (L 0).val < 2 := (L 0).isLt
      have := c.isLt; omega⟩ : Fin 6400) l := by
  show (Rect.unit (s := S6400x128) (k0_off1 L) S200x128.size (k0_off1_inb L)).emb (ix2 c l) = _
  funext a; apply Fin.ext
  rw [Rect.emb_apply]
  show (k0_off1 L) a + 1 * ((ix2 c l) a).val = _
  rw [k0_off1_eq]
  match a with
  | ⟨0, _⟩ => show 400 * (L 1).val + 200 * (L 0).val + 1 * c.val = 400 * (L 1).val + 200 * (L 0).val + c.val; omega
  | ⟨1, _⟩ => show 0 + 1 * l.val = l.val; omega

/-- The table's window is the whole table. -/
theorem tAll_emb (x : S100000x128.Idx) : (tAll).view.emb x = x := by
  show (Rect.unit (s := S100000x128) ![0, 0] S100000x128.size inb_S100000x128_S100000x128_0_0).emb x = x
  funext a; apply Fin.ext
  rw [Rect.emb_apply]
  match a with
  | ⟨0, _⟩ => show 0 + 1 * (x 0).val = (x 0).val; omega
  | ⟨1, _⟩ => show 0 + 1 * (x 1).val = (x 1).val; omega

/-! ## Reading a window -/

/-- Fetched list `c % 200`, read through its window at entry r, is the scratch array at (c % 200, r). -/
theorem irowM_read (c : ℕ) (fo : S200x128.Idx → BitVec 32) (r : Fin 128) :
    (irowM c).view.read (Elt F) fo (ix1 r) = fo (ix2 (⟨c % 200, Nat.mod_lt _ (by decide)⟩ : Fin 200) r) := by
  rw [View.read_apply, irowM_emb, cast_eq]

/-- Position k of a list of 128 in row-major order is its entry k. -/
theorem rowMajor_symm_S128 (k : Fin S128.numel) :
    S128.rowMajor.symm k = ix1 (⟨k.val, k.isLt⟩ : Fin 128) := by
  rw [Equiv.symm_apply_eq]
  apply Fin.ext
  rw [Shape.rowMajor_val_one]

/-! ## The four facts -/

/-- After the tile's fetch, its index lists are its block of the list array. -/
theorem idxHolds_of_fetch (L : grid0.Coords) (lst : S6400x128.Idx → BitVec 32) (fs : S200x128.Idx → BitVec 32) :
    IdxHolds L lst
      ((Memref.whole cc0_scratch0 : Memref sig .scVector .vmem S200x128 .i32).view.write (Elt F) fs
        ((ReadAs.same : ReadAs (Elt F) S200x128 .i32 S200x128 .i32).apply ((lblkM L).view.read (Elt F) lst)) Finset.univ) := by
  intro c l
  show (View.whole cc0_scratch0).write (Elt F) fs ((lblkM L).view.read (Elt F) lst) Finset.univ (ix2 c l) = _
  rw [View.write_whole_univ, View.read_apply, lblkM_emb, cast_eq]

/-- Every fetched row number is in the table's range when every entry of the list array is. -/
theorem offs_in_range (L : grid0.Coords) (lst : S6400x128.Idx → BitVec 32) (fo : S200x128.Idx → BitVec 32)
    (h : IdxHolds L lst fo) (hl : ∀ j, (lst j).toNat < 100000) (c : ℕ) :
    ∀ x, ((irowM c).view.read (Elt F) fo x).toNat < S100000x128.size gathers_S100000x128_S128x128.axis := by
  intro x
  obtain ⟨r, rfl⟩ : ∃ r : Fin 128, x = ix1 r := ⟨x 0, eq_ix1 x⟩
  rw [irowM_read, h]
  exact hl _

/-- After the gather, row buffer `c % 6` holds the table's rows named by list `c % 200`. -/
theorem slotHolds_of_gather (c : ℕ) (fo : S200x128.Idx → BitVec 32) (tab : S100000x128.Idx → Elt F .f32)
    (fd : S6x128x128.Idx → Elt F .f32)
    (hn : S128.numel = S128x128.size gathers_S100000x128_S128x128.axis')
    (hin : ∀ x, ((irowM c).view.read (Elt F) fo x).toNat < S100000x128.size gathers_S100000x128_S128x128.axis) :
    SlotHolds c fo tab
      ((slotM c).view.write (Elt F) fd
        (SparseCore.gatherPayload gathers_S100000x128_S128x128 ((tAll).view.read (Elt F) tab)
          (SparseCore.rows ((irowM c).view.read (Elt F) fo) hn hin)) Finset.univ) := by
  intro r l
  rw [View.read_write_univ]
  unfold SparseCore.gatherPayload
  rw [View.read_apply, tAll_emb, cast_eq]
  congr 1
  funext a; apply Fin.ext
  match a with
  | ⟨0, _⟩ =>
    -- the indexed axis: the row the list names for destination row r
    show (gathers_S100000x128_S128x128.idx _ (ix2 r l) gathers_S100000x128_S128x128.axis).val = _
    rw [Shape.Gathers.idx_axis]
    unfold SparseCore.rows
    show ((irowM c).view.read (Elt F) fo (S128.rowMajor.symm _)).toNat = _
    rw [rowMajor_symm_S128]
    show ((irowM c).view.read (Elt F) fo (ix1 r)).toNat = _
    have hr := hin (ix1 r)
    rw [irowM_read] at hr ⊢
    exact (Spec.rowOf_val hr).symm
  | ⟨1, _⟩ =>
    -- the other axis: the destination's own column
    exact Shape.Gathers.idx_of_ne gathers_S100000x128_S128x128 _ (ix2 r l) ⟨1, by decide⟩ (by decide)

/-- After the write-out of row buffer `c % 6`, chunk `c % 200` of the tile's output rows is the gather. -/
theorem out_of_slot (L : grid0.Coords) (c : ℕ) (hc : c < 200) (lst : S6400x128.Idx → BitVec 32)
    (fo : S200x128.Idx → BitVec 32) (tab : S100000x128.Idx → Elt F .f32)
    (f : S6x128x128.Idx → Elt F .f32) (f0 : S819200x128.Idx → Elt F .f32)
    (hI : IdxHolds L lst fo) (hS : SlotHolds c fo tab f) :
    ∀ x ∈ (ochM L c).view.set,
      (ochM L c).view.write (Elt F) f0
        ((ReadAs.same : ReadAs (Elt F) S128x128 .f32 S128x128 .f32).apply ((slotM c).view.read (Elt F) f)) Finset.univ x
        = Spec.gatherOut lst tab x := by
  intro x hx
  obtain ⟨y, -, rfl⟩ := Finset.mem_map.mp hx
  obtain ⟨r, l, rfl⟩ : ∃ (r l : Fin 128), y = ix2 r l := ⟨y 0, y 1, eq_ix2 y⟩
  have h1 : (L 1).val < 16 := (L 1).isLt
  have h0 : (L 0).val < 2 := (L 0).isLt
  have hc' : c % 200 < 200 := Nat.mod_lt _ (by decide)
  have hr : r.val < 128 := r.isLt
  rw [View.write_emb_of_mem _ _ (Finset.mem_univ _)]
  show cast _ ((slotM c).view.read (Elt F) f (ix2 r l)) = _
  rw [cast_eq, hS r l, ochM_emb, hI]
  unfold Spec.gatherOut Spec.listAt
  -- row base + 128 (c % 200) + r of the output is list 400 L1 + 200 L0 + c % 200, entry r
  show tab (ix2 (Spec.rowOf (lst (ix2 (⟨400 * (L 1).val + 200 * (L 0).val + c % 200, _⟩ : Fin 6400) r))) l)
     = tab (ix2 (Spec.rowOf (lst (ix2 (⟨(base L + 128 * (c % 200) + r.val) / 128, _⟩ : Fin 6400)
                                      (⟨(base L + 128 * (c % 200) + r.val) % 128, _⟩ : Fin 128)))) l)
  have e1 : (⟨(base L + 128 * (c % 200) + r.val) / 128, by have := base_le L; omega⟩ : Fin 6400)
      = ⟨400 * (L 1).val + 200 * (L 0).val + c % 200, by omega⟩ :=
    Fin.ext (by show (base L + 128 * (c % 200) + r.val) / 128 = 400 * (L 1).val + 200 * (L 0).val + c % 200; unfold base; omega)
  have e2 : (⟨(base L + 128 * (c % 200) + r.val) % 128, Nat.mod_lt _ (by decide)⟩ : Fin 128) = r :=
    Fin.ext (by show (base L + 128 * (c % 200) + r.val) % 128 = r.val; unfold base; omega)
  rw [e1, e2]

end Cert.Proof.KernelIdealP
end
-- ==== Proof.LoopDefsI.lean ====
import proofs.«206364_g2774548873608_retrytranche1_142_25_alg».proof.Proof.StepsI
import proofs.«206364_g2774548873608_retrytranche1_142_25_alg».proof.Proof.PayloadI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The loop: every chunk's state before trip `k` -/

section Loop

variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)
variable (O : CellTallies nD τ sig (HIx 1)) (W : Waits sig (HIx 1))

/-- Before trip `k`: chunks up to `k - 2` (and below 194) are done, chunk `k - 1` (and those from 194 on) is being
    written out, chunks `k … k + 4` are being gathered, the rest are not begun. -/
def st (k c : ℕ) : sProp 𝕄 :=
  if c + 1 < k ∧ c < 194 then Dn d L lst tab fo c
  else if c < k then Ps d L qT lst tab fo c
  else if c < k + 5 then Gs d L qT tab fo f0 c
  else Fr d L fo f0 c

theorem st_dn {k c : ℕ} (h : c + 1 < k ∧ c < 194) : st d L qT lst tab fo f0 k c = Dn d L lst tab fo c := if_pos h
theorem st_ps {k c : ℕ} (h : ¬(c + 1 < k ∧ c < 194)) (h' : c < k) : st d L qT lst tab fo f0 k c = Ps d L qT lst tab fo c :=
  (if_neg h).trans (if_pos h')
theorem st_gs {k c : ℕ} (h : k ≤ c) (h' : c < k + 5) : st d L qT lst tab fo f0 k c = Gs d L qT tab fo f0 c :=
  (if_neg (by omega)).trans ((if_neg (by omega)).trans (if_pos h'))
theorem st_fr {k c : ℕ} (h : k + 5 ≤ c) : st d L qT lst tab fo f0 k c = Fr d L fo f0 c :=
  (if_neg (by omega)).trans ((if_neg (by omega)).trans (if_neg (by omega)))

def Inv (k : ℕ) (_ : Unit) : sProp 𝕄 :=
  iprop(Transfers.MayWaits (thrV d L) (default : HIx 1) O
    ∗ bigSep (Finset.range 200) (st d L qT lst tab fo f0 k)
    ∗ (if k = 0 then Idle d L qT tab 5 else emp)
    ∗ ∃ W', ⌜∀ p ∈ W', p ∈ W ∨ p.2 = none⌝ ∗ owes (thrV d L) O W')

theorem trips_eq : k0_t1_loop.trips = 200 := by decide
theorem cond1_iff : ∀ k : Fin k0_t1_loop.trips, k0_cond1 k = 1#1 ↔ k.val + 5 < 200 := by decide +kernel
theorem cond2_iff : ∀ k : Fin k0_t1_loop.trips, k0_cond2 k = 1#1 ↔ 1 ≤ k.val := by decide +kernel

local notation "tV" => (Memref.whole Cert.KernelIdeal.main_arg1_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S6400x128 EltTy.i32)
local notation "oV" => (Memref.whole Cert.KernelIdeal.main_v2_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S6x128x128 EltTy.f32)

/-! The trip's windows and semaphores are the canonical ones. -/

theorem gsem_off4 (k : Fin k0_t1_loop.trips) (p) :
    ((SemArray.slice cc0_scratch2 (Rect.unit (s := S6) (k0_off4 k) S1.size p)).squeeze S_ squeezes_S1_S_).sem = gsemM k.val := by
  unfold gsemM; rw [SemArray.slice_unit_congr cc0_scratch2 (k0_off4_eq k)]
theorem psem_off4 (k : Fin k0_t1_loop.trips) (p) :
    ((SemArray.slice cc0_scratch3 (Rect.unit (s := S6) (k0_off4 k) S1.size p)).squeeze S_ squeezes_S1_S_).sem = psemM k.val := by
  unfold psemM; rw [SemArray.slice_unit_congr cc0_scratch3 (k0_off4_eq k)]
theorem slot_off2 (k : Fin k0_t1_loop.trips) (p) (q) :
    ((rV).slice (Rect.unit (s := S6x128x128) (k0_off2 k) S1x128x128.size p) q).squeeze S128x128 squeezes_S1x128x128_S128x128 = slotM k.val := by
  unfold slotM; rw [Memref.slice_unit_congr (rV) (k0_off2_eq k)]
theorem och_off5 (k : Fin k0_t1_loop.trips) (p) (q) :
    (oV).slice (Rect.unit (s := S819200x128) (k0_off5 L k) S128x128.size p) q = ochM L k.val := by
  have hk : k.val < 200 := trips_eq ▸ k.isLt
  unfold ochM; rw [Memref.slice_unit_congr (oV) (show k0_off5 L k = ![base L + 128 * (k.val % 200), 0] by
    rw [k0_off5_eq, Nat.mod_eq_of_lt hk]; rfl)]
theorem psem_off8 (k : Fin k0_t1_loop.trips) (hk1 : 1 ≤ k.val) (p) :
    ((SemArray.slice cc0_scratch3 (Rect.unit (s := S6) (k0_off8 k) S1.size p)).squeeze S_ squeezes_S1_S_).sem = psemM (k.val - 1) := by
  unfold psemM; rw [SemArray.slice_unit_congr cc0_scratch3 (show k0_off8 k = ![(k.val - 1) % 6] by
    rw [k0_off8_eq, show (k.val + 5) % 6 = (k.val - 1) % 6 by omega])]
theorem slot_off9 (k : Fin k0_t1_loop.trips) (p) (q) :
    ((rV).slice (Rect.unit (s := S6x128x128) (k0_off9 k) S1x128x128.size p) q).squeeze S128x128 squeezes_S1x128x128_S128x128 = slotM (k.val + 5) := by
  unfold slotM; rw [Memref.slice_unit_congr (rV) (k0_off9_eq k)]
theorem irow_off10 (k : Fin k0_t1_loop.trips) (hk5 : k.val + 5 < 200) (p) (q) :
    ((iV).slice (Rect.unit (s := S200x128) (k0_off10 k) S1x128.size p) q).squeeze S128 squeezes_S1x128_S128 = irowM (k.val + 5) := by
  unfold irowM; rw [Memref.slice_unit_congr (iV) (show k0_off10 k = ![(k.val + 5) % 200, 0] by rw [k0_off10_eq, Nat.mod_eq_of_lt hk5])]
theorem gsem_off11 (k : Fin k0_t1_loop.trips) (p) :
    ((SemArray.slice cc0_scratch2 (Rect.unit (s := S6) (k0_off11 k) S1.size p)).squeeze S_ squeezes_S1_S_).sem = gsemM (k.val + 5) := by
  unfold gsemM; rw [SemArray.slice_unit_congr cc0_scratch2 (k0_off11_eq k)]

theorem slot_credit (off : Fin 3 → Nat) (p) (q) :
    (((rV).slice (Rect.unit (s := S6x128x128) off S1x128x128.size p) q).squeeze S128x128 squeezes_S1x128x128_S128x128).view.dmaCredit = gN := rfl
theorem och_credit (off : Fin 2 → Nat) (p) (q) :
    ((oV).slice (Rect.unit (s := S819200x128) off S128x128.size p) q).view.dmaCredit = pN L := rfl

theorem sl_pred (k : ℕ) (hk1 : 1 ≤ k) : sl (k - 1) = sl (k + 5) := Fin.ext (by show (k - 1) % 6 = (k + 5) % 6; omega)

end Loop

end Cert.Proof.KernelIdealP
end
-- ==== Proof.TripI.lean ====
import proofs.«206364_g2774548873608_retrytranche1_142_25_alg».proof.Proof.LoopDefsI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One trip of the loop keeps every chunk's state in step -/

section Loop
variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)
variable (O : CellTallies nD τ sig (HIx 1)) (W : Waits sig (HIx 1))
local notation "tV" => (Memref.whole Cert.KernelIdeal.main_arg1_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S6400x128 EltTy.i32)
local notation "oV" => (Memref.whole Cert.KernelIdeal.main_v2_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S6x128x128 EltTy.f32)

/-! A chunk the trip does not touch keeps its state. -/

theorem st_next_mid {k c : ℕ} (hk1 : 1 ≤ k) (hk5 : k + 5 < 200) (h0 : c ≠ k) (h1 : c ≠ k - 1) (h2 : c ≠ k + 5) :
    st d L qT lst tab fo f0 (k + 1) c = st d L qT lst tab fo f0 k c := by
  rcases Nat.lt_or_ge c k with h | h
  · rw [st_dn d L qT lst tab fo f0 (k := k + 1) (c := c) ⟨by omega, by omega⟩, st_dn d L qT lst tab fo f0 (k := k) (c := c) ⟨by omega, by omega⟩]
  · rcases Nat.lt_or_ge c (k + 5) with h' | h'
    · rw [st_gs d L qT lst tab fo f0 (k := k + 1) (c := c) (by omega) (by omega), st_gs d L qT lst tab fo f0 (k := k) (c := c) h h']
    · rw [st_fr d L qT lst tab fo f0 (k := k + 1) (c := c) (by omega), st_fr d L qT lst tab fo f0 (k := k) (c := c) h']

theorem st_next_first {c : ℕ} (h0 : c ≠ 0) (h5 : c ≠ 5) :
    st d L qT lst tab fo f0 1 c = st d L qT lst tab fo f0 0 c := by
  rcases Nat.lt_or_ge c 5 with h | h
  · rw [st_gs d L qT lst tab fo f0 (k := 1) (c := c) (by omega) (by omega), st_gs d L qT lst tab fo f0 (k := 0) (c := c) (by omega) (by omega)]
  · rw [st_fr d L qT lst tab fo f0 (k := 1) (c := c) (by omega), st_fr d L qT lst tab fo f0 (k := 0) (c := c) (by omega)]

theorem st_next_last {k c : ℕ} (hk : 195 ≤ k) (hc : c < 200) (h0 : c ≠ k) :
    st d L qT lst tab fo f0 (k + 1) c = st d L qT lst tab fo f0 k c := by
  rcases Nat.lt_or_ge c k with h | h
  · rcases Nat.lt_or_ge c 194 with h' | h'
    · rw [st_dn d L qT lst tab fo f0 (k := k + 1) (c := c) ⟨by omega, h'⟩, st_dn d L qT lst tab fo f0 (k := k) (c := c) ⟨by omega, h'⟩]
    · rw [st_ps d L qT lst tab fo f0 (k := k + 1) (c := c) (by omega) (by omega), st_ps d L qT lst tab fo f0 (k := k) (c := c) (by omega) h]
  · rw [st_gs d L qT lst tab fo f0 (k := k + 1) (c := c) (by omega) (by omega), st_gs d L qT lst tab fo f0 (k := k) (c := c) h (by omega)]

set_option maxHeartbeats 4000000 in
/-- The first trip: chunk 0's gather is waited for and its write-out issued; chunk 5's gather goes into the one
    row buffer still idle. -/
theorem trip_first (hI : IdxHolds L lst fo) (hl : ∀ j, (lst j).toNat < 100000) (v2 : BitVec 32) (k : Fin k0_t1_loop.trips) (u : Unit)
    (hk0 : k.val = 0) :
    Inv d L qT lst tab fo f0 O W k.val u
      ⊢ wp frame (wpE (defs₀ (F := F)) 𝒱₀ (thrV d L) none) Set.univ
          (k0_t1_body L tV (Memref.isWhole_whole _) lV (Memref.isWhole_whole _) oV (Memref.isWhole_whole _)
            iV (Memref.isWhole_whole _) rV (Memref.isWhole_whole _) cc0_scratch2 cc0_scratch3 cc0_scoped0 v2 k u)
          (Inv d L qT lst tab fo f0 O W (k.val + 1)) := by
  have hk : k.val < 200 := trips_eq ▸ k.isLt
  have hk5 : k.val + 5 < 200 := by omega
  have k0_h1 : k0_cond1 k = 1#1 := (cond1_iff k).mpr hk5
  have k0_h2 : ¬ k0_cond2 k = 1#1 := fun h => by have := (cond2_iff k).mp h; omega
  have m0 : k.val ∈ Finset.range 200 := Finset.mem_range.mpr hk
  have m2 : k.val + 5 ∈ (Finset.range 200).erase k.val := Finset.mem_erase.mpr ⟨by omega, Finset.mem_range.mpr hk5⟩
  unfold k0_t1_body Inv
  rw [if_pos hk0]
  iintro ⟨#Hmw, Hst, Hidle, %W', %hW', HO⟩
  ihave H := (Entails.of_eq (SparseCore.bigSep_erase' m0)) $$ Hst
  icases H with ⟨Hc0, Hst⟩
  ihave H := (Entails.of_eq (SparseCore.bigSep_erase' m2)) $$ Hst
  icases H with ⟨Hc2, Hst⟩
  ihave Hc0 := (Entails.of_eq (st_gs d L qT lst tab fo f0 (k := k.val) (c := k.val) (le_refl _) (by omega))) $$ Hc0
  ihave Hc2 := (Entails.of_eq (st_fr d L qT lst tab fo f0 (k := k.val) (c := k.val + 5) (le_refl _))) $$ Hc2
  ihave Hidle := (Entails.of_eq (congrArg (Idle d L qT tab) (show (5 : Fin 6) = sl (k.val + 5) from Fin.ext (by show 5 = (k.val + 5) % 6; omega)))) $$ Hidle
  sl_exec
  iapply (wp_gatherWait d L qT tab fo f0 k.val O W' (hsem := gsem_off4 k _) (hN := slot_credit _ _ _)) $$ [Hc0 HO]
  · isplitr; · iexact Hmw
    isplitl [Hc0]; · iexact Hc0
    iexact HO
  iintro ⟨Hgd, HO⟩
  sl_exec
  iapply (wp_putIssue d L qT lst tab fo f0 k.val (hs := slot_off2 k _ _) (hd := och_off5 L k _ _) (hse := psem_off4 k _)
      (hF2 := fun f hf => out_of_slot L k.val hk lst fo tab f f0 hI hf)) $$ Hgd
  iintro Hps
  sl_exec
  iapply (wp_gatherIssue d L qT tab fo f0 (k.val + 5) (hs := rfl) (hd := slot_off9 k _ _) (ho := irow_off10 k hk5 _ _) (hse := gsem_off11 k _)
      (hin := offs_in_range L lst fo hI hl (k.val + 5)) (hF1 := fun fd => slotHolds_of_gather (k.val + 5) fo tab fd _ _)) $$ [Hc2 Hidle]
  · isplitl [Hc2]; · iexact Hc2
    iexact Hidle
  iintro Hgs
  sl_exec
  sl_step
  isplitr; · iexact Hmw
  isplitl [Hst Hps Hgs]
  · iapply (Entails.of_eq (SparseCore.bigSep_erase' m0).symm)
    isplitl [Hps]
    · iapply (Entails.of_eq (st_ps d L qT lst tab fo f0 (k := k.val + 1) (c := k.val) (by omega) (by omega)).symm); iexact Hps
    iapply (Entails.of_eq (SparseCore.bigSep_erase' m2).symm)
    isplitl [Hgs]
    · iapply (Entails.of_eq (st_gs d L qT lst tab fo f0 (k := k.val + 1) (c := k.val + 5) (by omega) (by omega)).symm); iexact Hgs
    iapply (Entails.of_eq (bigSep_congr fun c hc => by
      obtain ⟨h2, hc⟩ := Finset.mem_erase.mp hc
      obtain ⟨h0, -⟩ := Finset.mem_erase.mp hc
      rw [hk0] at h0 h2 ⊢
      exact (st_next_first d L qT lst tab fo f0 h0 h2).symm)) $$ Hst
  isplitr
  · rw [if_neg (Nat.succ_ne_zero _)]; iempintro
  iexists _; isplitr
  swap; · iexact HO
  ipureintro; intro p hp
  rcases Finset.mem_insert.mp hp with hp | hp; · exact .inr (hp ▸ rfl)
  exact hW' p hp
set_option maxHeartbeats 4000000 in
/-- A trip in the middle of the loop: chunk k's gather is waited for and its write-out issued, chunk k - 1's
    write-out is waited for, and chunk k + 5's gather issued into the row buffer that frees. -/
theorem trip_mid (hI : IdxHolds L lst fo) (hl : ∀ j, (lst j).toNat < 100000) (v2 : BitVec 32) (k : Fin k0_t1_loop.trips) (u : Unit)
    (hk1 : 1 ≤ k.val) (hk5 : k.val + 5 < 200) :
    Inv d L qT lst tab fo f0 O W k.val u
      ⊢ wp frame (wpE (defs₀ (F := F)) 𝒱₀ (thrV d L) none) Set.univ
          (k0_t1_body L tV (Memref.isWhole_whole _) lV (Memref.isWhole_whole _) oV (Memref.isWhole_whole _)
            iV (Memref.isWhole_whole _) rV (Memref.isWhole_whole _) cc0_scratch2 cc0_scratch3 cc0_scoped0 v2 k u)
          (Inv d L qT lst tab fo f0 O W (k.val + 1)) := by
  have hk : k.val < 200 := trips_eq ▸ k.isLt
  have k0_h1 : k0_cond1 k = 1#1 := (cond1_iff k).mpr hk5
  have k0_h2 : k0_cond2 k = 1#1 := (cond2_iff k).mpr hk1
  have m0 : k.val ∈ Finset.range 200 := Finset.mem_range.mpr hk
  have m1 : k.val - 1 ∈ (Finset.range 200).erase k.val := Finset.mem_erase.mpr ⟨by omega, Finset.mem_range.mpr (by omega)⟩
  have m2 : k.val + 5 ∈ ((Finset.range 200).erase k.val).erase (k.val - 1) :=
    Finset.mem_erase.mpr ⟨by omega, Finset.mem_erase.mpr ⟨by omega, Finset.mem_range.mpr hk5⟩⟩
  unfold k0_t1_body Inv
  iintro ⟨#Hmw, Hst, -, %W', %hW', HO⟩
  ihave H := (Entails.of_eq (SparseCore.bigSep_erase' m0)) $$ Hst
  icases H with ⟨Hc0, Hst⟩
  ihave H := (Entails.of_eq (SparseCore.bigSep_erase' m1)) $$ Hst
  icases H with ⟨Hc1, Hst⟩
  ihave H := (Entails.of_eq (SparseCore.bigSep_erase' m2)) $$ Hst
  icases H with ⟨Hc2, Hst⟩
  ihave Hc0 := (Entails.of_eq (st_gs d L qT lst tab fo f0 (k := k.val) (c := k.val) (le_refl _) (by omega))) $$ Hc0
  ihave Hc1 := (Entails.of_eq (st_ps d L qT lst tab fo f0 (k := k.val) (c := k.val - 1) (by omega) (by omega))) $$ Hc1
  ihave Hc2 := (Entails.of_eq (st_fr d L qT lst tab fo f0 (k := k.val) (c := k.val + 5) (le_refl _))) $$ Hc2
  sl_exec
  iapply (wp_gatherWait d L qT tab fo f0 k.val O W' (hsem := gsem_off4 k _) (hN := slot_credit _ _ _)) $$ [Hc0 HO]
  · isplitr; · iexact Hmw
    isplitl [Hc0]; · iexact Hc0
    iexact HO
  iintro ⟨Hgd, HO⟩
  sl_exec
  iapply (wp_putIssue d L qT lst tab fo f0 k.val (hs := slot_off2 k _ _) (hd := och_off5 L k _ _) (hse := psem_off4 k _)
      (hF2 := fun f hf => out_of_slot L k.val hk lst fo tab f f0 hI hf)) $$ Hgd
  iintro Hps
  sl_exec
  iapply (wp_putWait d L qT lst tab fo (k.val - 1) O _ (hsem := psem_off8 k hk1 _) (hN := och_credit L _ _ _)) $$ [Hc1 HO]
  · isplitr; · iexact Hmw
    isplitl [Hc1]; · iexact Hc1
    iexact HO
  iintro ⟨Hdn, Hidle, HO⟩
  ihave Hidle := (Entails.of_eq (congrArg (Idle d L qT tab) (sl_pred k.val hk1))) $$ Hidle
  sl_exec
  iapply (wp_gatherIssue d L qT tab fo f0 (k.val + 5) (hs := rfl) (hd := slot_off9 k _ _) (ho := irow_off10 k hk5 _ _) (hse := gsem_off11 k _)
      (hin := offs_in_range L lst fo hI hl (k.val + 5)) (hF1 := fun fd => slotHolds_of_gather (k.val + 5) fo tab fd _ _)) $$ [Hc2 Hidle]
  · isplitl [Hc2]; · iexact Hc2
    iexact Hidle
  iintro Hgs
  sl_exec
  sl_step
  isplitr; · iexact Hmw
  isplitl [Hst Hps Hdn Hgs]
  · iapply (Entails.of_eq (SparseCore.bigSep_erase' m0).symm)
    isplitl [Hps]
    · iapply (Entails.of_eq (st_ps d L qT lst tab fo f0 (k := k.val + 1) (c := k.val) (by omega) (by omega)).symm); iexact Hps
    iapply (Entails.of_eq (SparseCore.bigSep_erase' m1).symm)
    isplitl [Hdn]
    · iapply (Entails.of_eq (st_dn d L qT lst tab fo f0 (k := k.val + 1) (c := k.val - 1) ⟨by omega, by omega⟩).symm); iexact Hdn
    iapply (Entails.of_eq (SparseCore.bigSep_erase' m2).symm)
    isplitl [Hgs]
    · iapply (Entails.of_eq (st_gs d L qT lst tab fo f0 (k := k.val + 1) (c := k.val + 5) (by omega) (by omega)).symm); iexact Hgs
    iapply (Entails.of_eq (bigSep_congr fun c hc => by
      obtain ⟨h2, hc⟩ := Finset.mem_erase.mp hc
      obtain ⟨h1, hc⟩ := Finset.mem_erase.mp hc
      obtain ⟨h0, -⟩ := Finset.mem_erase.mp hc
      exact (st_next_mid d L qT lst tab fo f0 hk1 hk5 h0 h1 h2).symm)) $$ Hst
  isplitr
  · rw [if_neg (Nat.succ_ne_zero _)]; iempintro
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
/-- One of the last five trips: chunk k's gather is waited for and its write-out issued; nothing is left to gather. -/
theorem trip_last (hI : IdxHolds L lst fo) (v2 : BitVec 32) (k : Fin k0_t1_loop.trips) (u : Unit) (hk195 : 195 ≤ k.val) :
    Inv d L qT lst tab fo f0 O W k.val u
      ⊢ wp frame (wpE (defs₀ (F := F)) 𝒱₀ (thrV d L) none) Set.univ
          (k0_t1_body L tV (Memref.isWhole_whole _) lV (Memref.isWhole_whole _) oV (Memref.isWhole_whole _)
            iV (Memref.isWhole_whole _) rV (Memref.isWhole_whole _) cc0_scratch2 cc0_scratch3 cc0_scoped0 v2 k u)
          (Inv d L qT lst tab fo f0 O W (k.val + 1)) := by
  have hk : k.val < 200 := trips_eq ▸ k.isLt
  have k0_h1 : ¬ k0_cond1 k = 1#1 := fun h => by have := (cond1_iff k).mp h; omega
  have m0 : k.val ∈ Finset.range 200 := Finset.mem_range.mpr hk
  unfold k0_t1_body Inv
  iintro ⟨#Hmw, Hst, -, %W', %hW', HO⟩
  ihave H := (Entails.of_eq (SparseCore.bigSep_erase' m0)) $$ Hst
  icases H with ⟨Hc0, Hst⟩
  ihave Hc0 := (Entails.of_eq (st_gs d L qT lst tab fo f0 (k := k.val) (c := k.val) (le_refl _) (by omega))) $$ Hc0
  sl_exec
  iapply (wp_gatherWait d L qT tab fo f0 k.val O W' (hsem := gsem_off4 k _) (hN := slot_credit _ _ _)) $$ [Hc0 HO]
  · isplitr; · iexact Hmw
    isplitl [Hc0]; · iexact Hc0
    iexact HO
  iintro ⟨Hgd, HO⟩
  sl_exec
  iapply (wp_putIssue d L qT lst tab fo f0 k.val (hs := slot_off2 k _ _) (hd := och_off5 L k _ _) (hse := psem_off4 k _)
      (hF2 := fun f hf => out_of_slot L k.val hk lst fo tab f f0 hI hf)) $$ Hgd
  iintro Hps
  sl_exec
  sl_step
  isplitr; · iexact Hmw
  isplitl [Hst Hps]
  · iapply (Entails.of_eq (SparseCore.bigSep_erase' m0).symm)
    isplitl [Hps]
    · iapply (Entails.of_eq (st_ps d L qT lst tab fo f0 (k := k.val + 1) (c := k.val) (by omega) (by omega)).symm); iexact Hps
    iapply (Entails.of_eq (bigSep_congr fun c hc => by
      obtain ⟨h0, hc⟩ := Finset.mem_erase.mp hc
      exact (st_next_last d L qT lst tab fo f0 hk195 (Finset.mem_range.mp hc) h0).symm)) $$ Hst
  isplitr
  · rw [if_neg (Nat.succ_ne_zero _)]; iempintro
  iexists _; isplitr
  swap; · iexact HO
  ipureintro; intro p hp
  rcases Finset.mem_insert.mp hp with hp | hp; · exact .inr (hp ▸ rfl)
  exact hW' p hp

/-- Every trip keeps the loop's invariant. -/
theorem trip (hI : IdxHolds L lst fo) (hl : ∀ j, (lst j).toNat < 100000) (v2 : BitVec 32) (k : Fin k0_t1_loop.trips) (u : Unit) :
    Inv d L qT lst tab fo f0 O W k.val u
      ⊢ wp frame (wpE (defs₀ (F := F)) 𝒱₀ (thrV d L) none) Set.univ
          (k0_t1_body L tV (Memref.isWhole_whole _) lV (Memref.isWhole_whole _) oV (Memref.isWhole_whole _)
            iV (Memref.isWhole_whole _) rV (Memref.isWhole_whole _) cc0_scratch2 cc0_scratch3 cc0_scoped0 v2 k u)
          (Inv d L qT lst tab fo f0 O W (k.val + 1)) := by
  rcases Nat.eq_zero_or_pos k.val with h0 | h1
  · exact trip_first d L qT lst tab fo f0 O W hI hl v2 k u h0
  · rcases Nat.lt_or_ge (k.val + 5) 200 with h5 | h5
    · exact trip_mid d L qT lst tab fo f0 O W hI hl v2 k u h1 h5
    · exact trip_last d L qT lst tab fo f0 O W hI v2 k u (by omega)

end Loop
end Cert.Proof.KernelIdealP
end
-- ==== Proof.InvI.lean ====
import proofs.«206364_g2774548873608_retrytranche1_142_25_alg».proof.Proof.LoopDefsI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Separating products over a few named indices -/

/-- Separating conjunction is associative, as an equation. -/
theorem sepA (P Q R : sProp 𝕄) : iprop((P ∗ Q) ∗ R) = iprop(P ∗ Q ∗ R) := by
  have h : (iprop((P ∗ Q) ∗ R) : sProp 𝕄) ⊣⊢ iprop(P ∗ Q ∗ R) := sep_assoc
  exact BI.equiv_iff.mp ⟨h.1, h.2⟩

theorem range5_eq : Finset.range 5 = {0, 1, 2, 3, 4} := by
  ext c; simp only [Finset.mem_range, Finset.mem_insert, Finset.mem_singleton]; omega
theorem tail6_eq : Finset.range 200 \ Finset.range 194 = {194, 195, 196, 197, 198, 199} := by
  ext c; simp only [Finset.mem_sdiff, Finset.mem_range, Finset.mem_insert, Finset.mem_singleton]; omega

theorem bigSep_range5 (Φ : ℕ → sProp 𝕄) :
    bigSep (Finset.range 5) Φ = iprop(Φ 0 ∗ Φ 1 ∗ Φ 2 ∗ Φ 3 ∗ Φ 4) := by
  rw [range5_eq, SparseCore.bigSep_insert' (by decide), SparseCore.bigSep_insert' (by decide),
    SparseCore.bigSep_insert' (by decide), SparseCore.bigSep_insert' (by decide), BI.bigSep_singleton]

theorem bigSep_tail6 (Φ : ℕ → sProp 𝕄) :
    bigSep (Finset.range 200 \ Finset.range 194) Φ = iprop(Φ 194 ∗ Φ 195 ∗ Φ 196 ∗ Φ 197 ∗ Φ 198 ∗ Φ 199) := by
  rw [tail6_eq, SparseCore.bigSep_insert' (by decide), SparseCore.bigSep_insert' (by decide),
    SparseCore.bigSep_insert' (by decide), SparseCore.bigSep_insert' (by decide), SparseCore.bigSep_insert' (by decide),
    BI.bigSep_singleton]

/-- A separating product over the six row buffers, written out. -/
theorem fin6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, SparseCore.bigSep_insert' (by decide),
    SparseCore.bigSep_insert' (by decide), SparseCore.bigSep_insert' (by decide), SparseCore.bigSep_insert' (by decide),
    SparseCore.bigSep_insert' (by decide), BI.bigSep_singleton]

theorem sub5 : Finset.range 5 ⊆ Finset.range 200 := Finset.range_subset_range.mpr (by omega)
theorem sub194 : Finset.range 194 ⊆ Finset.range 200 := Finset.range_subset_range.mpr (by omega)

/-! ## The chunk states' table from one trip to the next, at the start and at the end -/

section Loop

variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)

/-- A middle trip `k` changes the state of chunks `k - 1`, `k` and `k + 5` only. -/
theorem st_step_mid {k c : ℕ} (hk1 : 1 ≤ k) (hk5 : k + 5 < 200) (h0 : c ≠ k) (h1 : c ≠ k - 1) (h2 : c ≠ k + 5) :
    st d L qT lst tab fo f0 (k + 1) c = st d L qT lst tab fo f0 k c := by
  by_cases hA : c + 1 < k
  · rw [st_dn d L qT lst tab fo f0 (k := k + 1) ⟨by omega, by omega⟩, st_dn d L qT lst tab fo f0 (k := k) ⟨hA, by omega⟩]
  · by_cases hB : c < k + 5
    · rw [st_gs d L qT lst tab fo f0 (k := k + 1) (by omega) (by omega), st_gs d L qT lst tab fo f0 (k := k) (by omega) (by omega)]
    · rw [st_fr d L qT lst tab fo f0 (k := k + 1) (by omega), st_fr d L qT lst tab fo f0 (k := k) (by omega)]

/-- The first trip changes the state of chunks `0` and `5` only. -/
theorem st_step_first {c : ℕ} (h0 : c ≠ 0) (h5 : c ≠ 5) :
    st d L qT lst tab fo f0 1 c = st d L qT lst tab fo f0 0 c := by
  by_cases hB : c < 5
  · rw [st_gs d L qT lst tab fo f0 (k := 1) (by omega) (by omega), st_gs d L qT lst tab fo f0 (k := 0) (by omega) (by omega)]
  · rw [st_fr d L qT lst tab fo f0 (k := 1) (by omega), st_fr d L qT lst tab fo f0 (k := 0) (by omega)]

/-- One of the last trips changes the state of chunk `k` only. -/
theorem st_step_last {k c : ℕ} (hk : 195 ≤ k) (hc : c < 200) (h0 : c ≠ k) :
    st d L qT lst tab fo f0 (k + 1) c = st d L qT lst tab fo f0 k c := by
  by_cases hA : c < 194
  · rw [st_dn d L qT lst tab fo f0 (k := k + 1) ⟨by omega, hA⟩, st_dn d L qT lst tab fo f0 (k := k) ⟨by omega, hA⟩]
  · by_cases hB : c < k
    · rw [st_ps d L qT lst tab fo f0 (k := k + 1) (by omega) (by omega), st_ps d L qT lst tab fo f0 (k := k) (by omega) hB]
    · rw [st_gs d L qT lst tab fo f0 (k := k + 1) (by omega) (by omega), st_gs d L qT lst tab fo f0 (k := k) (by omega) (by omega)]

/-! ## The table at trip 0 and at trip 200 -/

theorem fr_first5 :
    bigSep (Finset.range 200) (Fr d L fo f0)
      = iprop(Fr d L fo f0 0 ∗ Fr d L fo f0 1 ∗ Fr d L fo f0 2 ∗ Fr d L fo f0 3 ∗ Fr d L fo f0 4
          ∗ bigSep (Finset.range 200 \ Finset.range 5) (Fr d L fo f0)) := by
  rw [SparseCore.bigSep_sdiff_split' sub5, bigSep_range5]
  simp only [sepA]

theorem inv0_eq :
    bigSep (Finset.range 200) (st d L qT lst tab fo f0 0)
      = iprop(Gs d L qT tab fo f0 0 ∗ Gs d L qT tab fo f0 1 ∗ Gs d L qT tab fo f0 2 ∗ Gs d L qT tab fo f0 3 ∗ Gs d L qT tab fo f0 4
          ∗ bigSep (Finset.range 200 \ Finset.range 5) (Fr d L fo f0)) := by
  have e1 : bigSep (Finset.range 5) (st d L qT lst tab fo f0 0) = bigSep (Finset.range 5) (Gs d L qT tab fo f0) :=
    BI.bigSep_congr fun c hc => st_gs d L qT lst tab fo f0 (Nat.zero_le c) (by have := Finset.mem_range.mp hc; omega)
  have e2 : bigSep (Finset.range 200 \ Finset.range 5) (st d L qT lst tab fo f0 0)
      = bigSep (Finset.range 200 \ Finset.range 5) (Fr d L fo f0) :=
    BI.bigSep_congr fun c hc => st_fr d L qT lst tab fo f0 (by
      have := Finset.mem_sdiff.mp hc; simp only [Finset.mem_range] at this; omega)
  rw [SparseCore.bigSep_sdiff_split' sub5, e1, e2, bigSep_range5]
  simp only [sepA]

theorem fr_all :
    bigSep (Finset.range 200) (Fr d L fo f0)
      = iprop(bigSep (Finset.range 200) (iRowPts d L fo) ∗ bigSep (Finset.range 200) fun c => oChPts d L c f0) :=
  bigSep_sep' (Finset.range 200) (iRowPts d L fo) (fun c => oChPts d L c f0)

theorem inv200_eq :
    bigSep (Finset.range 200) (st d L qT lst tab fo f0 200)
      = iprop(bigSep (Finset.range 194) (Dn d L lst tab fo) ∗ Ps d L qT lst tab fo 194 ∗ Ps d L qT lst tab fo 195
          ∗ Ps d L qT lst tab fo 196 ∗ Ps d L qT lst tab fo 197 ∗ Ps d L qT lst tab fo 198 ∗ Ps d L qT lst tab fo 199) := by
  have e1 : bigSep (Finset.range 194) (st d L qT lst tab fo f0 200) = bigSep (Finset.range 194) (Dn d L lst tab fo) :=
    BI.bigSep_congr fun c hc => st_dn d L qT lst tab fo f0 (by have := Finset.mem_range.mp hc; omega)
  have e2 : bigSep (Finset.range 200 \ Finset.range 194) (st d L qT lst tab fo f0 200)
      = bigSep (Finset.range 200 \ Finset.range 194) (Ps d L qT lst tab fo) :=
    BI.bigSep_congr fun c hc => by
      have := Finset.mem_sdiff.mp hc; simp only [Finset.mem_range] at this
      exact st_ps d L qT lst tab fo f0 (by omega) (by omega)
  rw [SparseCore.bigSep_sdiff_split' sub194, e1, e2, bigSep_tail6]

theorem dn_all :
    iprop(bigSep (Finset.range 194) (Dn d L lst tab fo) ∗ Dn d L lst tab fo 194 ∗ Dn d L lst tab fo 195 ∗ Dn d L lst tab fo 196
        ∗ Dn d L lst tab fo 197 ∗ Dn d L lst tab fo 198 ∗ Dn d L lst tab fo 199)
      = iprop((bigSep (Finset.range 200) fun c => oChPts d L c (Spec.gatherOut lst tab)) ∗ bigSep (Finset.range 200) (iRowPts d L fo)) := by
  rw [← bigSep_tail6 (Dn d L lst tab fo), ← SparseCore.bigSep_sdiff_split' sub194]
  exact bigSep_sep' (Finset.range 200) (fun c => oChPts d L c (Spec.gatherOut lst tab)) (iRowPts d L fo)

/-! ## The six idle row buffers; the table's share in six tokens -/

theorem idle_all :
    (bigSep Finset.univ fun r : Fin 6 => Idle d L qT tab r)
      = iprop((bigSep Finset.univ fun r : Fin 6 =>
            iprop(∃ f : S6x128x128.Idx → Elt F .f32, (slotF r).view.loc (thrV d L) ↦[(slotF r).view.set]{fullShare} f))
          ∗ (bigSep Finset.univ fun r : Fin 6 => semVal ((thrV d L, SemLoc.dma (gsemF r)) : GSem nD τ sig) 0)
          ∗ (bigSep Finset.univ fun r : Fin 6 => semVal ((thrV d L, SemLoc.dma (psemF r)) : GSem nD τ sig) 0)
          ∗ bigSep Finset.univ fun r : Fin 6 => (tAll).view.loc (thrV d L) ↦[(tAll).view.set]{Transfers.shareTok qT 6 r} tab) := by
  rw [← bigSep_sep', ← bigSep_sep', ← bigSep_sep']
  rfl

theorem set_tAll : (tAll).view.set = (Finset.univ : Finset S100000x128.Idx) := by
  ext x
  simp only [Finset.mem_univ, iff_true]
  exact (tAll_emb x) ▸ View.emb_mem_set (tAll).view x

theorem tab_toks :
    (tLoc d ↦{qT} tab : sProp 𝕄)
      ⊣⊢ iprop((tLoc d ↦{Transfers.shareDrop qT 6} tab)
          ∗ bigSep Finset.univ fun r : Fin 6 => (tAll).view.loc (thrV d L) ↦[(tAll).view.set]{Transfers.shareTok qT 6 r} tab) := by
  rw [set_tAll]
  exact Transfers.pointsTo_toks (ℓ := tLoc d) (S := Finset.univ) (f := tab) qT 6

end Loop

end Cert.Proof.KernelIdealP
end
-- ==== Proof.OwnI.lean ====
import proofs.«206364_g2774548873608_retrytranche1_142_25_alg».proof.Proof.StepsI
import proofs.«206364_g2774548873608_retrytranche1_142_25_alg».proof.Proof.SplitI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The row scratch among its six row buffers

Row buffer `r` is the elements of the `[6,128,128]` scratch whose first coordinate is `r`; the six are
pairwise disjoint and cover the scratch. -/

theorem set_slotF (r : Fin 6) :
    (slotF r).view.set = (Finset.univ : Finset S6x128x128.Idx).filter fun i => (i 0).val = r.val := by
  show (((Memref.whole cc0_scratch1 : Memref sig .scVector .vmem S6x128x128 .f32).view.slice
      (Rect.unit (s := S6x128x128) ![r.val, 0, 0] S1x128x128.size (rOff_inb r))).reshape S128x128 squeezes_S1x128x128_S128x128.numel_eq).set = _
  rw [View.set_reshape]
  show ((View.whole (cc0_scratch1 : Ref sig .scVector)).slice _).set = _
  rw [View.set_slice_whole]
  ext i
  rw [Rect.mem_set_unit, Finset.mem_filter]
  constructor
  · intro h
    have h0 := h 0
    simp at h0
    exact ⟨Finset.mem_univ _, by omega⟩
  · rintro ⟨-, h⟩ a
    have ha : (i a).val < S6x128x128.size a := (i a).isLt
    fin_cases a <;> simp at ha ⊢ <;> omega

theorem mem_set_slotF (r : Fin 6) (j : S6x128x128.Idx) : j ∈ (slotF r).view.set ↔ (j 0).val = r.val := by
  rw [set_slotF, Finset.mem_filter]
  exact and_iff_right (Finset.mem_univ _)

/-- The row buffer an element of the row scratch lies in. -/
def rB (j : S6x128x128.Idx) : Fin 6 := ⟨(j 0).val, (j 0).isLt⟩

theorem rFibre_eq (r : Fin 6) :
    ((Finset.univ : Finset S6x128x128.Idx).filter fun j => rB j = r) = (slotF r).view.set := by
  ext j
  refine Iff.trans ?_ (mem_set_slotF r j).symm
  simp only [Finset.mem_filter, Finset.mem_univ, true_and, Fin.ext_iff, rB]

/-- The elements of row buffer `r`, as a set of elements of the row scratch. -/
abbrev slotSet (r : Fin 6) : Finset S6x128x128.Idx := (slotF r).view.set

theorem rslots_disjoint : ∀ r ∈ (Finset.univ : Finset (Fin 6)), ∀ r' ∈ (Finset.univ : Finset (Fin 6)), r ≠ r' →
    Disjoint (slotSet r) (slotSet r') :=
  fun r _ r' _ h => Finset.disjoint_left.mpr fun j hj hj' =>
    h (Fin.ext (((mem_set_slotF r j).mp hj).symm.trans ((mem_set_slotF r' j).mp hj')))

theorem rslots_cover : (Finset.univ : Finset (Fin 6)).biUnion slotSet = Finset.univ :=
  Finset.eq_univ_iff_forall.mpr fun j => Finset.mem_biUnion.mpr ⟨rB j, Finset.mem_univ _, (mem_set_slotF (rB j) j).mpr rfl⟩

theorem rSlots_split (d : Dev nD) (c : Fin τ.nSC) (i : Fin τ.nSub) (f : S6x128x128.Idx → Elt F .f32) :
    ((V d c i).loc cc0_scratch1 ↦{fullShare} f : sProp 𝕄)
      = bigSep Finset.univ fun r : Fin 6 => (slotF r).view.loc (V d c i) ↦[(slotF r).view.set]{fullShare} f := by
  rw [pts_fiber (ℓ := (V d c i).loc cc0_scratch1) Finset.univ (Finset.univ : Finset (Fin 6)) rB (fun _ _ => Finset.mem_univ _) fullShare f]
  refine bigSep_congr fun r _ => ?_
  exact congrArg (fun A => ((V d c i).loc cc0_scratch1 ↦[A]{fullShare} f : sProp 𝕄)) (rFibre_eq r)

set_option maxRecDepth 4096 in
theorem rSlots_join [FloatOps F] (d : Dev nD) (c : Fin τ.nSC) (i : Fin τ.nSub) :
    (bigSep Finset.univ fun r : Fin 6 =>
        iprop(∃ f : S6x128x128.Idx → Elt F .f32, (slotF r).view.loc (V d c i) ↦[(slotF r).view.set]{fullShare} f))
      ⊢ (iprop(∃ f, (V d c i).loc cc0_scratch1 ↦{fullShare} f) : sProp 𝕄) := by
  refine (bigSep_exists_pi Finset.univ (fun (r : Fin 6) (f : Buf (Elt F) ((V d c i).loc cc0_scratch1)) =>
    ((V d c i).loc cc0_scratch1 ↦[slotSet r]{fullShare} f : sProp 𝕄))).trans ?_
  iintro ⟨%fs, H⟩
  have : Nonempty (Buf (Elt F) ((V d c i).loc cc0_scratch1)) := ⟨fs 0⟩
  ihave H' := (pointsTo_biUnion_join (ℓ := (V d c i).loc cc0_scratch1) (q := fullShare) (Val := Elt F) Finset.univ
    slotSet fs (fs 0) rslots_disjoint) $$ H
  icases H' with ⟨%g, -, Hg⟩
  rw [rslots_cover]
  iexists g; iexact Hg

/-! ## The tile's own semaphores

The thirteen transfer semaphores of a tile: pool indices `r` (the gathers' of row buffer `r`), `6 + r` (the
write-outs') and `12` (the index fetch's); all scoped on a vector subcore, pairwise different. -/

theorem gsemF_val : ∀ r : Fin 6, (gsemF r).val = r.val := by decide
theorem psemF_val : ∀ r : Fin 6, (psemF r).val = 6 + r.val := by decide
theorem scoped0_val : (cc0_scoped0.sem : DmaSem sig).val = 12 := by decide
theorem gsemF_scoped : ∀ r : Fin 6, (SemLoc.dma (gsemF r) : SemLoc sig).isScoped .scVector = true := by decide
theorem psemF_scoped : ∀ r : Fin 6, (SemLoc.dma (psemF r) : SemLoc sig).isScoped .scVector = true := by decide

section Own

variable (d : Dev nD) (c : Fin τ.nSC) (i : Fin τ.nSub)

abbrev gCellF (r : Fin 6) : GSem nD τ sig := (V d c i, SemLoc.dma (gsemF r))
abbrev pCellF (r : Fin 6) : GSem nD τ sig := (V d c i, SemLoc.dma (psemF r))
abbrev fCell : GSem nD τ sig := (V d c i, SemLoc.dma cc0_scoped0.sem)
abbrev gCells : Finset (GSem nD τ sig) := Finset.univ.image (gCellF d c i)
abbrev pCells : Finset (GSem nD τ sig) := Finset.univ.image (pCellF d c i)

theorem gCellF_inj : Set.InjOn (gCellF d c i) (↑(Finset.univ : Finset (Fin 6))) := fun r _ r' _ e => by
  have h := congrArg Fin.val (SemLoc.dma.inj (Prod.mk.inj e).2)
  rw [gsemF_val, gsemF_val] at h
  exact Fin.ext h
theorem pCellF_inj : Set.InjOn (pCellF d c i) (↑(Finset.univ : Finset (Fin 6))) := fun r _ r' _ e => by
  have h := congrArg Fin.val (SemLoc.dma.inj (Prod.mk.inj e).2)
  rw [psemF_val, psemF_val] at h
  exact Fin.ext (by omega)

theorem gCells_sub : gCells d c i ⊆ ownCells (V d c i) := fun g hg => by
  obtain ⟨r, -, rfl⟩ := Finset.mem_image.mp hg
  exact mem_ownCells.mpr ⟨rfl, gsemF_scoped r⟩
theorem pCells_sub : pCells d c i ⊆ ownCells (V d c i) \ gCells d c i := fun g hg => by
  obtain ⟨r, -, rfl⟩ := Finset.mem_image.mp hg
  refine Finset.mem_sdiff.mpr ⟨mem_ownCells.mpr ⟨rfl, psemF_scoped r⟩, fun hm => ?_⟩
  obtain ⟨r', -, e⟩ := Finset.mem_image.mp hm
  have h := congrArg Fin.val (SemLoc.dma.inj (Prod.mk.inj e).2)
  rw [gsemF_val, psemF_val] at h
  have := r'.isLt
  omega
theorem fCell_mem : fCell d c i ∈ (ownCells (V d c i) \ gCells d c i) \ pCells d c i := by
  refine Finset.mem_sdiff.mpr ⟨Finset.mem_sdiff.mpr ⟨mem_ownCells.mpr ⟨rfl, ?_⟩, fun hm => ?_⟩, fun hm => ?_⟩
  · show (SemLoc.dma cc0_scoped0.sem : SemLoc sig).isScoped .scVector = true; decide
  · obtain ⟨r', -, e⟩ := Finset.mem_image.mp hm
    have h := congrArg Fin.val (SemLoc.dma.inj (Prod.mk.inj e).2)
    rw [gsemF_val, scoped0_val] at h
    have := r'.isLt
    omega
  · obtain ⟨r', -, e⟩ := Finset.mem_image.mp hm
    have h := congrArg Fin.val (SemLoc.dma.inj (Prod.mk.inj e).2)
    rw [psemF_val, scoped0_val] at h
    omega

/-- The tile's own semaphores at zero: the six gathers', the six write-outs', the index fetch's, and the rest. -/
theorem ownSems0_tile :
    (ownSems0 (V d c i) : sProp 𝕄)
      = iprop((bigSep Finset.univ fun r : Fin 6 => semVal ((V d c i, SemLoc.dma (gsemF r)) : GSem nD τ sig) 0)
          ∗ (bigSep Finset.univ fun r : Fin 6 => semVal ((V d c i, SemLoc.dma (psemF r)) : GSem nD τ sig) 0)
          ∗ semVal ((V d c i, SemLoc.dma cc0_scoped0.sem) : GSem nD τ sig) 0
          ∗ bigSep (((ownCells (V d c i) \ gCells d c i) \ pCells d c i).erase (fCell d c i)) fun g => semVal g 0) := by
  unfold SparseCore.Cfg.ownSems0
  rw [SparseCore.bigSep_sdiff_split' (gCells_sub d c i),
    SparseCore.bigSep_sdiff_split' (pCells_sub d c i),
    SparseCore.bigSep_erase' (fCell_mem d c i),
    SparseCore.bigSep_image_of_injOn (gCellF_inj d c i), SparseCore.bigSep_image_of_injOn (pCellF_inj d c i)]

/-! ## The tile's own buffers -/

/-- The two scratch buffers are among the subcore's own: they are them, at some contents, and the rest. -/
theorem ownBufs_tile :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e)
      (show (cc0_scratch1 : Ref sig .scVector) ≠ cc0_scratch0 by decide),
    SparseCore.Cfg.mem_ownRefs_of_owner (p := Proc.scVector c i) (b := (Proc.scVector c i).devRef cc0_scratch1) rfl⟩)]

end Own

end Cert.Proof.KernelIdealP
end
-- ==== Proof.TileI.lean ====
import proofs.«206364_g2774548873608_retrytranche1_142_25_alg».proof.Proof.TripI
import proofs.«206364_g2774548873608_retrytranche1_142_25_alg».proof.Proof.InvI
import proofs.«206364_g2774548873608_retrytranche1_142_25_alg».proof.Proof.OwnI
import proofs.«206364_g2774548873608_retrytranche1_142_25_alg».proof.Proof.PayI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S6400x128 EltTy.i32)
local notation "oV" => (Memref.whole Cert.KernelIdeal.main_v2_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S6x128x128 EltTy.f32)

/-! ## One tile's task -/

section Tile

variable [FloatOps F]
variable (m : (ℓ : Loc nD τ sig) → Buf (Elt F) ℓ)
variable (d : Dev nD) (c' : Fin (grid0.bound 0)) (i' : Fin (grid0.bound 1))

theorem slots_ex (fr : S6x128x128.Idx → Elt F .f32) :
    (bigSep Finset.univ fun r : Fin 6 => (slotF r).view.loc (thrV d (coordsV c' i')) ↦[(slotF r).view.set]{fullShare} fr : sProp 𝕄)
      ⊢ bigSep Finset.univ fun r : Fin 6 => iprop(∃ f : S6x128x128.Idx → Elt F .f32, (slotF r).view.loc (thrV d (coordsV c' i')) ↦[(slotF r).view.set]{fullShare} f) :=
  bigSep_mono fun r _ => BI.BIClass.exists_intro (Φ := fun f : S6x128x128.Idx → Elt F .f32 => ((slotF r).view.loc (thrV d (coordsV c' i')) ↦[(slotF r).view.set]{fullShare} f : sProp 𝕄)) fr

set_option maxHeartbeats 16000000 in
theorem tile_body (hF : (K (F := F)).Facts) (hl : ∀ j, (lstOf m d j).toNat < 100000)
    (O : CellTallies nD τ sig (HIx 1)) (W : Waits sig (HIx 1)) (hO : ∀ g, O g none = 0) :
    iprop(levAts (K (F := F)).L (K (F := F)).lev ∗ emp
        ∗ (tileArrs m d c' i' (outOf m d) ∗ tileTab m d c' i')
        ∗ scopedBufs (thrV d (coordsV c' i')) ∗ scopedSems0 (thrV d (coordsV c' i')) ∗ owes (thrV d (coordsV c' i')) O W)
      ⊢ wp frame (wpE (defs₀ (F := F)) 𝒱₀ (thrV d (coordsV c' i')) none) Set.univ
          (cc0_gather_kernel (coordsV c' i') tV (Memref.isWhole_whole _) lV (Memref.isWhole_whole _) oV (Memref.isWhole_whole _)
            iV (Memref.isWhole_whole _) rV (Memref.isWhole_whole _) cc0_scratch2 cc0_scratch3 cc0_scoped0)
          fun _ => iprop((tileArrs m d c' i' (Spec.gatherOut (lstOf m d) (tabOf m d)) ∗ tileTab m d c' i')
            ∗ scopedBufs (thrV d (coordsV c' i')) ∗ scopedSems0 (thrV d (coordsV c' i'))
            ∗ ∃ W', ⌜∀ p ∈ W', p ∈ W ∨ p.2 = none⌝ ∗ owes (thrV d (coordsV c' i')) O W') := by
  simp only [cc0_gather_kernel_eq_skeleton]; unfold cc0_gather_kernel_skel
  simp only [k0_part1_eq_skeleton, k0_part2_eq_skeleton, k0_part3_eq_skeleton]
  rw [(K (F := F)).scopedBufs_V hF d _ _, SparseCore.Cfg.scopedSems0_V (Val := Elt F) d _ _, ownSems0_tile, ownBufs_tile]
  iintro ⟨#Hlv, -, ⟨⟨Hl, Hout⟩, Htab⟩, ⟨⟨%fs, Hs⟩, ⟨%fr, Hr⟩, Hbufs⟩, ⟨Hgsems, Hpsems, Hf, Hsems⟩, HO⟩
  ihave Hmw := (show levAts (K (F := F)).L (K (F := F)).lev ⊢ Transfers.MayWaits (thrV d (coordsV c' i')) (default : HIx 1) O from
    (K (F := F)).mayWaits_none (thr := thrV d (coordsV c' i')) hO) $$ Hlv
  ihave Hl' := (Entails.of_eq (show (lLoc d ↦[(lblkM (coordsV c' i')).view.set]{fullShare} lstOf m d : sProp 𝕄)
      = ((lblkM (coordsV c' i')).view.loc (thrV d (coordsV c' i')) ↦[(lblkM (coordsV c' i')).view.set]{fullShare} lstOf m d) from rfl)) $$ Hl
  ihave Hs' := (Entails.of_eq (show ((thrV d (coordsV c' i')).loc cc0_scratch0 ↦{fullShare} fs : sProp 𝕄)
      = ((iV).view.loc (thrV d (coordsV c' i')) ↦{fullShare} fs) from rfl)) $$ Hs
  -- the fetch of the tile's index lists and its wait
  sl_exec
  -- what the lists' scratch holds now
  ihave Hs2 := (show ((iV).view.loc (thrV d (coordsV c' i')) ↦{fullShare}
        View.write (Elt F) (iV).view fs (tile_body.sl.dma0 m d c' i') Finset.univ : sProp 𝕄)
      ⊢ iprop(∃ fo : S200x128.Idx → BitVec 32, ⌜IdxHolds (coordsV c' i') (lstOf m d) fo⌝ ∗ ((thrV d (coordsV c' i')).loc cc0_scratch0 ↦{fullShare} fo)) from by
    iintro H; iexists (View.write (Elt F) (iV).view fs (tile_body.sl.dma0 m d c' i') Finset.univ); isplitr
    · ipureintro; exact idxHolds_of_fetch (F := F) (coordsV c' i') (lstOf m d) fs
    · iexact H) $$ Hs'
  icases Hs2 with ⟨%fo, %hI, Hs⟩
  -- the lists one by one, the row buffers one by one, the table's share one token per row buffer
  ihave Hrows := (Entails.of_eq (iPts_rows d _ _ fo)) $$ Hs
  ihave Hslots := (Entails.of_eq (rSlots_split d _ _ fr)) $$ Hr
  ihave Hslots := (slots_ex d c' i' fr) $$ Hslots
  ihave Ht := (tab_toks d (coordsV c' i') (tileShare c' i') (tabOf m d)).1 $$ Htab
  icases Ht with ⟨Htrest, Htoks⟩
  ihave Hidle := (Entails.of_eq (idle_all d (coordsV c' i') (tileShare c' i') (tabOf m d)).symm) $$ [Hslots Hgsems Hpsems Htoks]
  · isplitl [Hslots]; · iexact Hslots
    isplitl [Hgsems]; · iexact Hgsems
    isplitl [Hpsems]; · iexact Hpsems
    iexact Htoks
  ihave Hidle := (Entails.of_eq (fin6 (fun r => Idle d (coordsV c' i') (tileShare c' i') (tabOf m d) r))) $$ Hidle
  icases Hidle with ⟨Hid0, Hid1, Hid2, Hid3, Hid4, Hid5⟩
  ihave Hfr := (Entails.of_eq (fr_all d (coordsV c' i') fo (outOf m d)).symm) $$ [Hrows Hout]
  · isplitl [Hrows]; · iexact Hrows
    iexact Hout
  ihave Hfr := (Entails.of_eq (fr_first5 d (coordsV c' i') fo (outOf m d))) $$ Hfr
  icases Hfr with ⟨Hfr0, Hfr1, Hfr2, Hfr3, Hfr4, Hfr⟩
  -- the first five gathers
  iapply (wp_gatherIssue d (coordsV c' i') (tileShare c' i') (tabOf m d) fo (outOf m d) 0 (hs := rfl) (hd := rfl) (ho := rfl) (hse := rfl)
      (hin := offs_in_range (coordsV c' i') (lstOf m d) fo hI hl 0) (hF1 := fun fd => slotHolds_of_gather 0 fo (tabOf m d) fd _ _)) $$ [Hfr0 Hid0]
  · isplitl [Hfr0]; · iexact Hfr0
    iexact Hid0
  iintro Hg0
  sl_exec
  iapply (wp_gatherIssue d (coordsV c' i') (tileShare c' i') (tabOf m d) fo (outOf m d) 1 (hs := rfl) (hd := rfl) (ho := rfl) (hse := rfl)
      (hin := offs_in_range (coordsV c' i') (lstOf m d) fo hI hl 1) (hF1 := fun fd => slotHolds_of_gather 1 fo (tabOf m d) fd _ _)) $$ [Hfr1 Hid1]
  · isplitl [Hfr1]; · iexact Hfr1
    iexact Hid1
  iintro Hg1
  sl_exec
  iapply (wp_gatherIssue d (coordsV c' i') (tileShare c' i') (tabOf m d) fo (outOf m d) 2 (hs := rfl) (hd := rfl) (ho := rfl) (hse := rfl)
      (hin := offs_in_range (coordsV c' i') (lstOf m d) fo hI hl 2) (hF1 := fun fd => slotHolds_of_gather 2 fo (tabOf m d) fd _ _)) $$ [Hfr2 Hid2]
  · isplitl [Hfr2]; · iexact Hfr2
    iexact Hid2
  iintro Hg2
  sl_exec
  iapply (wp_gatherIssue d (coordsV c' i') (tileShare c' i') (tabOf m d) fo (outOf m d) 3 (hs := rfl) (hd := rfl) (ho := rfl) (hse := rfl)
      (hin := offs_in_range (coordsV c' i') (lstOf m d) fo hI hl 3) (hF1 := fun fd => slotHolds_of_gather 3 fo (tabOf m d) fd _ _)) $$ [Hfr3 Hid3]
  · isplitl [Hfr3]; · iexact Hfr3
    iexact Hid3
  iintro Hg3
  sl_exec
  iapply (wp_gatherIssue d (coordsV c' i') (tileShare c' i') (tabOf m d) fo (outOf m d) 4 (hs := rfl) (hd := rfl) (ho := rfl) (hse := rfl)
      (hin := offs_in_range (coordsV c' i') (lstOf m d) fo hI hl 4) (hF1 := fun fd => slotHolds_of_gather 4 fo (tabOf m d) fd _ _)) $$ [Hfr4 Hid4]
  · isplitl [Hfr4]; · iexact Hfr4
    iexact Hid4
  iintro Hg4
  sl_exec
  -- the loop
  sl_for (Inv d (coordsV c' i') (tileShare c' i') (lstOf m d) (tabOf m d) fo (outOf m d) O (insert (SemLoc.dma cc0_scoped0.sem, (default : HIx 1)) W)) $$ [Hg0 Hg1 Hg2 Hg3 Hg4 Hfr Hid5 HO]
  case region =>
    intro k u
    exact trip d (coordsV c' i') (tileShare c' i') (lstOf m d) (tabOf m d) fo (outOf m d) O _ hI hl _ k u
  · unfold Inv
    isplitr; · iexact Hmw
    isplitl [Hg0 Hg1 Hg2 Hg3 Hg4 Hfr]
    · iapply (Entails.of_eq (inv0_eq d (coordsV c' i') (tileShare c' i') (lstOf m d) (tabOf m d) fo (outOf m d)).symm)
      isplitl [Hg0]; · iexact Hg0
      isplitl [Hg1]; · iexact Hg1
      isplitl [Hg2]; · iexact Hg2
      isplitl [Hg3]; · iexact Hg3
      isplitl [Hg4]; · iexact Hg4
      iexact Hfr
    isplitl [Hid5]; · rw [if_pos rfl]; iexact Hid5
    iexists _; isplitr
    swap; · iexact HO
    ipureintro; exact fun p hp => .inl hp
  iintro %u HI
  ihave HI := (Entails.of_eq (show Inv d (coordsV c' i') (tileShare c' i') (lstOf m d) (tabOf m d) fo (outOf m d) O (insert (SemLoc.dma cc0_scoped0.sem, (default : HIx 1)) W) k0_t1_loop.trips u
      = Inv d (coordsV c' i') (tileShare c' i') (lstOf m d) (tabOf m d) fo (outOf m d) O (insert (SemLoc.dma cc0_scoped0.sem, (default : HIx 1)) W) 200 u by rw [trips_eq])) $$ HI
  unfold Inv
  icases HI with ⟨-, Hst, -, %W', %hW', HO⟩
  ihave Hst := (Entails.of_eq (inv200_eq d (coordsV c' i') (tileShare c' i') (lstOf m d) (tabOf m d) fo (outOf m d))) $$ Hst
  icases Hst with ⟨Hdn, Hp194, Hp195, Hp196, Hp197, Hp198, Hp199⟩
  -- the last six write-outs are waited for
  sl_exec
  iapply (wp_putWait d (coordsV c' i') (tileShare c' i') (lstOf m d) (tabOf m d) fo 194 O _ (hsem := rfl) (hN := och_credit (coordsV c' i') _ _ _)) $$ [Hp194 HO]
  · isplitr; · iexact Hmw
    isplitl [Hp194]; · iexact Hp194
    iexact HO
  iintro ⟨Hd194, Hi194, HO⟩
  sl_exec
  iapply (wp_putWait d (coordsV c' i') (tileShare c' i') (lstOf m d) (tabOf m d) fo 195 O _ (hsem := rfl) (hN := och_credit (coordsV c' i') _ _ _)) $$ [Hp195 HO]
  · isplitr; · iexact Hmw
    isplitl [Hp195]; · iexact Hp195
    iexact HO
  iintro ⟨Hd195, Hi195, HO⟩
  sl_exec
  iapply (wp_putWait d (coordsV c' i') (tileShare c' i') (lstOf m d) (tabOf m d) fo 196 O _ (hsem := rfl) (hN := och_credit (coordsV c' i') _ _ _)) $$ [Hp196 HO]
  · isplitr; · iexact Hmw
    isplitl [Hp196]; · iexact Hp196
    iexact HO
  iintro ⟨Hd196, Hi196, HO⟩
  sl_exec
  iapply (wp_putWait d (coordsV c' i') (tileShare c' i') (lstOf m d) (tabOf m d) fo 197 O _ (hsem := rfl) (hN := och_credit (coordsV c' i') _ _ _)) $$ [Hp197 HO]
  · isplitr; · iexact Hmw
    isplitl [Hp197]; · iexact Hp197
    iexact HO
  iintro ⟨Hd197, Hi197, HO⟩
  first | sl_exec | skip
  iapply (wp_putWait d (coordsV c' i') (tileShare c' i') (lstOf m d) (tabOf m d) fo 198 O _ (hsem := rfl) (hN := och_credit (coordsV c' i') _ _ _)) $$ [Hp198 HO]
  · isplitr; · iexact Hmw
    isplitl [Hp198]; · iexact Hp198
    iexact HO
  iintro ⟨Hd198, Hi198, HO⟩
  first | sl_exec | skip
  iapply (wp_putWait d (coordsV c' i') (tileShare c' i') (lstOf m d) (tabOf m d) fo 199 O _ (hsem := rfl) (hN := och_credit (coordsV c' i') _ _ _)) $$ [Hp199 HO]
  · isplitr; · iexact Hmw
    isplitl [Hp199]; · iexact Hp199
    iexact HO
  iintro ⟨Hd199, Hi199, HO⟩
  simp only [Prog.bind, Prog.pure_eq_ret]
  sl_step
  -- everything goes back as it came, the output's chunks at the gathered rows
  ihave Hidle := (Entails.of_eq (fin6 (fun r => Idle d (coordsV c' i') (tileShare c' i') (tabOf m d) r)).symm) $$ [Hi198 Hi199 Hi194 Hi195 Hi196 Hi197]
  · isplitl [Hi198]; · iexact Hi198
    isplitl [Hi199]; · iexact Hi199
    isplitl [Hi194]; · iexact Hi194
    isplitl [Hi195]; · iexact Hi195
    isplitl [Hi196]; · iexact Hi196
    iexact Hi197
  ihave Hidle := (Entails.of_eq (idle_all d (coordsV c' i') (tileShare c' i') (tabOf m d))) $$ Hidle
  icases Hidle with ⟨Hslots, Hgsems, Hpsems, Htoks⟩
  ihave Htab := (tab_toks d (coordsV c' i') (tileShare c' i') (tabOf m d)).2 $$ [Htrest Htoks]
  · isplitl [Htrest]; · iexact Htrest
    iexact Htoks
  ihave Hr := (rSlots_join d _ _) $$ Hslots
  ihave Hall := (Entails.of_eq (dn_all d (coordsV c' i') (lstOf m d) (tabOf m d) fo)) $$ [Hdn Hd194 Hd195 Hd196 Hd197 Hd198 Hd199]
  · isplitl [Hdn]; · iexact Hdn
    isplitl [Hd194]; · iexact Hd194
    isplitl [Hd195]; · iexact Hd195
    isplitl [Hd196]; · iexact Hd196
    isplitl [Hd197]; · iexact Hd197
    isplitl [Hd198]; · iexact Hd198
    iexact Hd199
  icases Hall with ⟨Hout, Hrows⟩
  ihave Hs := (Entails.of_eq (iPts_rows d _ _ fo).symm) $$ Hrows
  isplitl [Hl' Hout Htab]
  · isplitl [Hl' Hout]
    · isplitl [Hl']; · iexact Hl'
      iexact Hout
    iexact Htab
  isplitl [Hs Hr Hbufs]
  · isplitl [Hs]; · iexists fo; iexact Hs
    isplitl [Hr]; · iexact Hr
    iexact Hbufs
  isplitl [Hgsems Hpsems Hf Hsems]
  · isplitl [Hgsems]; · iexact Hgsems
    isplitl [Hpsems]; · iexact Hpsems
    isplitl [Hf]; · iexact Hf
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases hW' p hp with h | h
  · rcases Finset.mem_insert.mp h with h | h
    · exact .inr (h ▸ rfl)
    · exact .inl h
  · exact .inr h

/-! ## The obligation the launch asks of every tile -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) lV (Memref.isWhole_whole _) oV (Memref.isWhole_whole _)
          iV (Memref.isWhole_whole _) rV (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hl : ∀ d j, (lstOf m d j).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d ⟨_, hc.1⟩ ⟨_, hc.2⟩ hF (hl d) O W hO).trans (wp_mono frame _ _ fun _ => obl_post)

end Tile
end Cert.Proof.KernelIdealP
end
-- ==== Proof.TileDefsB.lean ====
import proofs.«206364_g2774548873608_retrytranche1_142_25_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206364_g2774548873608_retrytranche1_142_25_alg».proof.Proof.Gen.Kernel
import proofs.«206364_g2774548873608_retrytranche1_142_25_alg».proof.Proof.Gen.Kernel.Skeleton
import proofs.«206364_g2774548873608_retrytranche1_142_25_alg».proof.Proof.Spec

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and one tile's canonical windows -/

variable (m : (ℓ : Loc nD τ sig) → Buf (Elt F) ℓ) (ρ : Dev nD → PrngReg)

abbrev tLoc (d : Dev nD) : Loc nD τ sig := (SparseCore.T d).loc main_arg1
abbrev lLoc (d : Dev nD) : Loc nD τ sig := (SparseCore.T d).loc main_v1
abbrev oLoc (d : Dev nD) : Loc nD τ sig := (SparseCore.T d).loc main_v2

local notation "tV" => (Memref.whole Cert.Kernel.main_arg1_scv : Memref Cert.Kernel.sig Kind.scVector Space.hbm Cert.Kernel.S100000x128 EltTy.f32)
local notation "lV" => (Memref.whole Cert.Kernel.main_v1_scv : Memref Cert.Kernel.sig Kind.scVector Space.hbm Cert.Kernel.S6400x128 EltTy.i32)
local notation "oV" => (Memref.whole Cert.Kernel.main_v2_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S6x128x128 EltTy.f32)

abbrev cV (L : grid0.Coords) : Fin τ.nSC := (L 0).castLE hcore0
abbrev jV (L : grid0.Coords) : Fin τ.nSub := (L 1).castLE hsub0

/-- The first output row of the tile at grid point `L`: tile number `2 * L 1 + L 0` times 25600. -/
def base (L : grid0.Coords) : ℕ := 51200 * (L 1).val + 25600 * (L 0).val

theorem base_le (L : grid0.Coords) : base L + 25600 ≤ 819200 := by
  have h1 : (L 1).val < 16 := (L 1).isLt
  have h0 : (L 0).val < 2 := (L 0).isLt
  unfold base; omega

theorem sOff_inb (s : ℕ) : ∀ a, (![s % 6, 0, 0] : Fin 3 → Nat) a + S1x128x128.size a ≤ S6x128x128.size a := by
  have : s % 6 < 6 := Nat.mod_lt _ (by decide)
  intro a; fin_cases a <;> simp <;> omega
theorem iOff_inb (c : ℕ) : ∀ a, (![c % 200, 0] : Fin 2 → Nat) a + S1x128.size a ≤ S200x128.size a := by
  have : c % 200 < 200 := Nat.mod_lt _ (by decide)
  intro a; fin_cases a <;> simp <;> omega
theorem oOff_inb (L : grid0.Coords) (c : ℕ) : ∀ a, (![base L + 128 * (c % 200), 0] : Fin 2 → Nat) a + S128x128.size a ≤ S819200x128.size a := by
  have : c % 200 < 200 := Nat.mod_lt _ (by decide)
  have := base_le L
  intro a; fin_cases a <;> simp <;> omega
theorem qOff_inb (s : ℕ) : ∀ a, (![s % 6] : Fin 1 → Nat) a + S1.size a ≤ S6.size a := by
  have : s % 6 < 6 := Nat.mod_lt _ (by decide)
  intro a; fin_cases a; simp; omega

/-- The whole table, as every gather names it. -/
abbrev tAll : Memref sig .scVector .hbm S100000x128 .f32 :=
  (tV).slice (Rect.unit (s := S100000x128) ![0, 0] S100000x128.size inb_S100000x128_S100000x128_0_0) (fun _ => rfl)
/-- Row buffer `s % 6` of the six. -/
abbrev slotM (s : ℕ) : Memref sig .scVector .vmem S128x128 .f32 :=
  ((rV).slice (Rect.unit (s := S6x128x128) ![s % 6, 0, 0] S1x128x128.size (sOff_inb s)) (fun _ => rfl)).squeeze S128x128 squeezes_S1x128x128_S128x128
/-- List `c` of the tile's 200 fetched index lists. -/
abbrev irowM (c : ℕ) : Memref sig .scVector .vmem S128 .i32 :=
  ((iV).slice (Rect.unit (s := S200x128) ![c % 200, 0] S1x128.size (iOff_inb c)) (fun _ => rfl)).squeeze S128 squeezes_S1x128_S128
/-- Chunk `c` of the tile's 200 chunks of 128 output rows. -/
abbrev ochM (L : grid0.Coords) (c : ℕ) : Memref sig .scVector .hbm S128x128 .f32 :=
  (oV).slice (Rect.unit (s := S819200x128) ![base L + 128 * (c % 200), 0] S128x128.size (oOff_inb L c)) (fun _ => rfl)
/-- The tile's block of 200 index lists in the list array. -/
abbrev lblkM (L : grid0.Coords) : Memref sig .scVector .hbm S200x128 .i32 :=
  (lV).slice (Rect.unit (s := S6400x128) (k0_off1 L) S200x128.size (k0_off1_inb L)) (fun _ => rfl)
/-- The gathers' and the write-outs' semaphores of row buffer `s % 6`. -/
abbrev gsemM (s : ℕ) : DmaSem sig := ((cc0_scratch2.slice (Rect.unit (s := S6) ![s % 6] S1.size (qOff_inb s))).squeeze S_ squeezes_S1_S_).sem
abbrev psemM (s : ℕ) : DmaSem sig := ((cc0_scratch3.slice (Rect.unit (s := S6) ![s % 6] S1.size (qOff_inb s))).squeeze S_ squeezes_S1_S_).sem

theorem slotM_add6 (s : ℕ) : slotM (s + 6) = slotM s := by
  unfold slotM; rw [Memref.slice_unit_congr (rV) (show (![(s + 6) % 6, 0, 0] : Fin 3 → Nat) = ![s % 6, 0, 0] by rw [Nat.add_mod_right])]
theorem gsemM_add6 (s : ℕ) : gsemM (s + 6) = gsemM s := by
  unfold gsemM; rw [SemArray.slice_unit_congr cc0_scratch2 (show (![(s + 6) % 6] : Fin 1 → Nat) = ![s % 6] by rw [Nat.add_mod_right])]
theorem psemM_add6 (s : ℕ) : psemM (s + 6) = psemM s := by
  unfold psemM; rw [SemArray.slice_unit_congr cc0_scratch3 (show (![(s + 6) % 6] : Fin 1 → Nat) = ![s % 6] by rw [Nat.add_mod_right])]

/-! ## What the tile's scratch and output hold, stated by coordinates -/

/-- The tile's fetched index lists are its block of the list array: list `c`, entry `l` is list
    `400 * L 1 + 200 * L 0 + c`, entry `l` of the array. -/
def IdxHolds (L : grid0.Coords) (lst : S6400x128.Idx → BitVec 32) (fo : S200x128.Idx → BitVec 32) : Prop :=
  ∀ (c : Fin 200) (l : Fin 128),
    fo (ValueIdx.ix2 c l) = lst (ValueIdx.ix2 (⟨400 * (L 1).val + 200 * (L 0).val + c.val, by
      have h1 : (L 1).val < 16 := (L 1).isLt
      have h0 : (L 0).val < 2 := (L 0).isLt
      have := c.isLt; omega⟩ : Fin 6400) l)

/-- Row buffer `c % 6`, read through its window, holds the table's rows named by index list `c % 200`:
    row `r`, column `l` is the table at row `fo (c % 200, r)`, column `l`. -/
def SlotHolds (c : ℕ) (fo : S200x128.Idx → BitVec 32) (tab : S100000x128.Idx → Elt F .f32) (f : S6x128x128.Idx → Elt F .f32) : Prop :=
  ∀ (r l : Fin 128), (slotM c).view.read (Elt F) f (ValueIdx.ix2 r l)
    = tab (ValueIdx.ix2 (Spec.rowOf (fo (ValueIdx.ix2 (⟨c % 200, Nat.mod_lt _ (by decide)⟩ : Fin 200) r))) l)

end Cert.Proof.KernelP
end
-- ==== Proof.PayB.lean ====
import proofs.«206364_g2774548873608_retrytranche1_142_25_alg».proof.Proof.TileDefsB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the launch's handshakes carry -/

section Pay

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

/-- The list array as the kernel finds it: the row numbers transposed to [50, 16384] and cut into 6400 lists of 128. -/
def lstOf (d : Dev nD) : S6400x128.Idx → BitVec 32 :=
  shapeCast S6400x128 (transpose S50x16384 [1, 0] (m ((SparseCore.T d).loc main_arg0)) transposes_S16384x50_S50x16384_1_0) shapeCasts_S50x16384_S6400x128
/-- The table, and the flat output array as the launch memory has it. -/
abbrev tabOf (d : Dev nD) : S100000x128.Idx → Elt F .f32 := m (tLoc d)
abbrev outOf (d : Dev nD) : S819200x128.Idx → Elt F .f32 := m (oLoc d)

/-- The shares of the table: half-way down to a SparseCore, then to one of its sixteen tiles. -/
abbrev coreShare (c : Fin 2) : PosShare TreeShare := Transfers.shareTok fullShare 2 c
abbrev tileShare (c : Fin 2) (i : Fin 16) : PosShare TreeShare := Transfers.shareTok (coreShare c) 16 i

/-- A tile's part of the list array and of the output (at contents `f`), and its share of the table. -/
abbrev tileArrs (d : Dev nD) (c : Fin 2) (i : Fin 16) (f : S819200x128.Idx → Elt F .f32) : sProp 𝕄 :=
  iprop((lLoc d ↦[(lblkM (coordsV c i)).view.set]{fullShare} lstOf m d)
    ∗ bigSep (Finset.range 200) fun k => oLoc d ↦[(ochM (coordsV c i) k).view.set]{fullShare} f)
abbrev tileTab (d : Dev nD) (c : Fin 2) (i : Fin 16) : sProp 𝕄 := tLoc d ↦{tileShare c i} tabOf m d

/-- The one call hands each SparseCore its tiles' parts of the list array and of the output and its share of the
    table, each tile its own; back comes the same with the output's parts at the gathered rows. -/
def P : (K (F := F)).Pay (nD := nD) (Val := Elt F) (Name := ℕ) (U := UU) where
  st := fun q d c => match q with
    | 0 => iprop((bigSep Finset.univ fun i : Fin 16 => tileArrs m d (Fin.cast nCore_zero c) i (outOf m d)) ∗ tLoc d ↦{coreShare (Fin.cast nCore_zero c)} tabOf m d)
  dn := fun q d c => match q with
    | 0 => iprop((bigSep Finset.univ fun i : Fin 16 => tileArrs m d (Fin.cast nCore_zero c) i (Spec.gatherOut (lstOf m d) (tabOf m d))) ∗ tLoc d ↦{coreShare (Fin.cast nCore_zero c)} tabOf m d)
  go := fun q d c i => match q with
    | 0 => iprop(tileArrs m d (Fin.cast nCore_zero c) (Fin.cast nSub_zero i) (outOf m d) ∗ tileTab m d (Fin.cast nCore_zero c) (Fin.cast nSub_zero i))
  td := fun q d c i => match q with
    | 0 => iprop(tileArrs m d (Fin.cast nCore_zero c) (Fin.cast nSub_zero i) (Spec.gatherOut (lstOf m d) (tabOf m d)) ∗ tileTab m d (Fin.cast nCore_zero c) (Fin.cast nSub_zero i))
  x := fun _ _ => iprop(emp)

end Pay

end Cert.Proof.KernelP
end
-- ==== Proof.SplitB.lean ====
import proofs.«206364_g2774548873608_retrytranche1_142_25_alg».proof.Proof.PayB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Cutting a points-to along the fibres of a map

The elements `S` of a location are the disjoint union, over the values `t` a map `g` takes on
them, of the fibres `{i ∈ S | g i = t}`; so a points-to on `S` is the separating product of the
points-tos on the fibres. -/

theorem pts_fiber {X : Type} [DecidableEq X] {ℓ : Loc nD τ sig} (A : Finset (Idx ℓ)) (B : Finset X) (g : Idx ℓ → X)
    (hg : ∀ i ∈ A, g i ∈ B) (q : PosShare TreeShare) (f : Buf (Elt F) ℓ) :
    (ℓ ↦[A]{q} f : sProp 𝕄) = bigSep B fun t => ℓ ↦[A.filter fun i => g i = t]{q} f := by
  have hd : ∀ t ∈ B, ∀ t' ∈ B, t ≠ t' → Disjoint (A.filter fun i => g i = t) (A.filter fun i => g i = t') :=
    fun t _ t' _ h => Finset.disjoint_filter.mpr fun i _ h1 h2 => h (h1.symm.trans h2)
  rw [← pointsTo_biUnion B (ℓ := ℓ) (fun t => A.filter fun i => g i = t) hd, Finset.biUnion_filter_eq_of_maps_to hg]

/-! ## Inside a tile: the index scratch by lists, the row scratch by buffers -/

/-- The elements of list `k % 200` of the `[200,128]` index scratch: first coordinate `k % 200`. -/
theorem set_irowM (k : ℕ) :
    (irowM k).view.set = (Finset.univ : Finset S200x128.Idx).filter fun i => (i 0).val = k % 200 := by
  show (((Memref.whole cc0_scratch0 : Memref sig .scVector .vmem S200x128 .i32).view.slice
      (Rect.unit (s := S200x128) ![k % 200, 0] S1x128.size (iOff_inb k))).reshape S128 squeezes_S1x128_S128.numel_eq).set = _
  rw [View.set_reshape]
  show ((View.whole (cc0_scratch0 : Ref sig .scVector)).slice _).set = _
  rw [View.set_slice_whole]
  ext i
  rw [Rect.mem_set_unit, Finset.mem_filter]
  constructor
  · intro h
    have h0 := h 0
    simp at h0
    exact ⟨Finset.mem_univ _, by omega⟩
  · rintro ⟨-, h⟩ a
    have ha : (i a).val < S200x128.size a := (i a).isLt
    fin_cases a <;> simp at ha ⊢ <;> omega

/-- The elements of row buffer `s % 6` of the `[6,128,128]` row scratch: first coordinate `s % 6`. -/
theorem set_slotM (s : ℕ) :
    (slotM s).view.set = (Finset.univ : Finset S6x128x128.Idx).filter fun i => (i 0).val = s % 6 := by
  show (((Memref.whole cc0_scratch1 : Memref sig .scVector .vmem S6x128x128 .f32).view.slice
      (Rect.unit (s := S6x128x128) ![s % 6, 0, 0] S1x128x128.size (sOff_inb s))).reshape S128x128 squeezes_S1x128x128_S128x128.numel_eq).set = _
  rw [View.set_reshape]
  show ((View.whole (cc0_scratch1 : Ref sig .scVector)).slice _).set = _
  rw [View.set_slice_whole]
  ext i
  rw [Rect.mem_set_unit, Finset.mem_filter]
  constructor
  · intro h
    have h0 := h 0
    simp at h0
    exact ⟨Finset.mem_univ _, by omega⟩
  · rintro ⟨-, h⟩ a
    have ha : (i a).val < S6x128x128.size a := (i a).isLt
    fin_cases a <;> simp at ha ⊢ <;> omega

theorem iPts_rows (d : Dev nD) (c : Fin τ.nSC) (i : Fin τ.nSub) (f : Buf (Elt F) ((V d c i).loc cc0_scratch0)) :
    ((V d c i).loc cc0_scratch0 ↦{fullShare} f : sProp 𝕄)
      = bigSep (Finset.range 200) fun k => (V d c i).loc cc0_scratch0 ↦[(irowM k).view.set]{fullShare} f := by
  rw [pts_fiber (ℓ := (V d c i).loc cc0_scratch0) Finset.univ (Finset.range 200) (fun j : S200x128.Idx => (j 0).val)
    (fun j _ => Finset.mem_range.mpr (j 0).isLt) fullShare f]
  refine bigSep_congr fun k hk => ?_
  rw [set_irowM, Nat.mod_eq_of_lt (Finset.mem_range.mp hk)]
  rfl

theorem rPts_slots (d : Dev nD) (c : Fin τ.nSC) (i : Fin τ.nSub) (f : Buf (Elt F) ((V d c i).loc cc0_scratch1)) :
    ((V d c i).loc cc0_scratch1 ↦{fullShare} f : sProp 𝕄)
      = bigSep (Finset.range 6) fun s => (V d c i).loc cc0_scratch1 ↦[(slotM s).view.set]{fullShare} f := by
  rw [pts_fiber (ℓ := (V d c i).loc cc0_scratch1) Finset.univ (Finset.range 6) (fun j : S6x128x128.Idx => (j 0).val)
    (fun j _ => Finset.mem_range.mpr (j 0).isLt) fullShare f]
  refine bigSep_congr fun s hs => ?_
  rw [set_slotM, Nat.mod_eq_of_lt (Finset.mem_range.mp hs)]
  rfl

/-! ## The output among the tiles and, in a tile, among its chunks

Row `r` of the `[819200,128]` output lies in the tile of SparseCore `r / 25600 % 2` and vector subcore
`r / 51200`, in that tile's chunk `r / 128 % 200`: the tile at `(c, s)` owns the 25600 rows from
`51200 * s + 25600 * c`, its chunk `k` the 128 rows from there plus `128 * k`. -/

theorem coordsV_zero (c : Fin 2) (s : Fin 16) : ((coordsV c s) 0).val = c.val := rfl
theorem coordsV_one (c : Fin 2) (s : Fin 16) : ((coordsV c s) 1).val = s.val := rfl

/-- The elements of chunk `k % 200` of the tile at `L`: the 128 rows from `base L + 128 * (k % 200)`. -/
theorem set_ochM (L : grid0.Coords) (k : ℕ) :
    (ochM L k).view.set = (Finset.univ : Finset S819200x128.Idx).filter fun i =>
      base L + 128 * (k % 200) ≤ (i 0).val ∧ (i 0).val < base L + 128 * (k % 200) + 128 := by
  show ((View.whole (main_v2_scv : Ref sig .scVector)).slice _).set = _
  rw [View.set_slice_whole]
  ext i
  rw [Rect.mem_set_unit, Finset.mem_filter]
  constructor
  · intro h
    have h0 := h 0
    simp at h0
    exact ⟨Finset.mem_univ _, by omega⟩
  · rintro ⟨-, h⟩ a
    have ha : (i a).val < S819200x128.size a := (i a).isLt
    fin_cases a <;> simp at ha ⊢ <;> omega

theorem mem_set_ochM (L : grid0.Coords) (k : ℕ) (i : S819200x128.Idx) :
    i ∈ (ochM L k).view.set ↔ base L + 128 * (k % 200) ≤ (i 0).val ∧ (i 0).val < base L + 128 * (k % 200) + 128 := by
  rw [set_ochM, Finset.mem_filter]
  exact and_iff_right (Finset.mem_univ _)

/-- The SparseCore, the vector subcore and the chunk that own an output element. -/
def oC (i : S819200x128.Idx) : Fin 2 := ⟨(i 0).val / 25600 % 2, Nat.mod_lt _ (by decide)⟩
def oS (i : S819200x128.Idx) : Fin 16 := ⟨(i 0).val / 51200, by have h : (i 0).val < 819200 := (i 0).isLt; omega⟩
def oK (i : S819200x128.Idx) : ℕ := (i 0).val / 128 % 200

theorem oFibre_eq (c : Fin 2) (s : Fin 16) (k : ℕ) (hk : k < 200) :
    ((((Finset.univ : Finset S819200x128.Idx).filter fun i => oC i = c).filter fun i => oS i = s).filter fun i => oK i = k)
      = (ochM (coordsV c s) k).view.set := by
  ext i
  refine Iff.trans ?_ (mem_set_ochM (coordsV c s) k i).symm
  have hr : (i 0).val < 819200 := (i 0).isLt
  have hc : c.val < 2 := c.isLt
  have hs : s.val < 16 := s.isLt
  simp only [Finset.mem_filter, Finset.mem_univ, true_and, Fin.ext_iff, oC, oS, oK, base, coordsV_zero, coordsV_one]
  omega

theorem oPts_split (d : Dev nD) (f : Buf (Elt F) (oLoc d)) :
    (oLoc d ↦{fullShare} f : sProp 𝕄) = bigSep Finset.univ fun c : Fin 2 => bigSep Finset.univ fun s : Fin 16 =>
      bigSep (Finset.range 200) fun k => oLoc d ↦[(ochM (coordsV c s) k).view.set]{fullShare} f := by
  rw [pts_fiber (ℓ := oLoc d) Finset.univ (Finset.univ : Finset (Fin 2)) oC (fun _ _ => Finset.mem_univ _) fullShare f]
  refine bigSep_congr fun c _ => ?_
  rw [pts_fiber (ℓ := oLoc d) _ (Finset.univ : Finset (Fin 16)) oS (fun _ _ => Finset.mem_univ _) fullShare f]
  refine bigSep_congr fun s _ => ?_
  rw [pts_fiber (ℓ := oLoc d) _ (Finset.range 200) oK (fun _ _ => Finset.mem_range.mpr (Nat.mod_lt _ (by decide))) fullShare f]
  refine bigSep_congr fun k hk => ?_
  exact congrArg (fun A => (oLoc d ↦[A]{fullShare} f : sProp 𝕄)) (oFibre_eq c s k (Finset.mem_range.mp hk))

/-! ## The list array among the tiles

List `r` of the `[6400,128]` list array lies in the block of SparseCore `r / 200 % 2` and vector subcore
`r / 400`: the tile at `(c, s)` owns the 200 lists from `400 * s + 200 * c`. -/

/-- The elements of the tile's block of the list array: the 200 lists from `400 * L 1 + 200 * L 0`. -/
theorem set_lblkM (L : grid0.Coords) :
    (lblkM L).view.set = (Finset.univ : Finset S6400x128.Idx).filter fun i =>
      400 * (L 1).val + 200 * (L 0).val ≤ (i 0).val ∧ (i 0).val < 400 * (L 1).val + 200 * (L 0).val + 200 := by
  show ((View.whole (main_v1_scv : Ref sig .scVector)).slice _).set = _
  rw [View.set_slice_whole]
  ext i
  rw [Rect.mem_set_unit, Finset.mem_filter, k0_off1_eq]
  constructor
  · intro h
    have h0 := h 0
    simp at h0
    exact ⟨Finset.mem_univ _, by omega⟩
  · rintro ⟨-, h⟩ a
    have ha : (i a).val < S6400x128.size a := (i a).isLt
    fin_cases a <;> simp at ha ⊢ <;> omega

theorem mem_set_lblkM (L : grid0.Coords) (i : S6400x128.Idx) :
    i ∈ (lblkM L).view.set ↔ 400 * (L 1).val + 200 * (L 0).val ≤ (i 0).val ∧ (i 0).val < 400 * (L 1).val + 200 * (L 0).val + 200 := by
  rw [set_lblkM, Finset.mem_filter]
  exact and_iff_right (Finset.mem_univ _)

/-- The SparseCore and the vector subcore that own an element of the list array. -/
def lC (i : S6400x128.Idx) : Fin 2 := ⟨(i 0).val / 200 % 2, Nat.mod_lt _ (by decide)⟩
def lS (i : S6400x128.Idx) : Fin 16 := ⟨(i 0).val / 400, by have h : (i 0).val < 6400 := (i 0).isLt; omega⟩

theorem lFibre_eq (c : Fin 2) (s : Fin 16) :
    (((Finset.univ : Finset S6400x128.Idx).filter fun i => lC i = c).filter fun i => lS i = s)
      = (lblkM (coordsV c s)).view.set := by
  ext i
  refine Iff.trans ?_ (mem_set_lblkM (coordsV c s) i).symm
  have hr : (i 0).val < 6400 := (i 0).isLt
  have hc : c.val < 2 := c.isLt
  have hs : s.val < 16 := s.isLt
  simp only [Finset.mem_filter, Finset.mem_univ, true_and, Fin.ext_iff, lC, lS, coordsV_zero, coordsV_one]
  omega

theorem lPts_split (d : Dev nD) (f : Buf (Elt F) (lLoc d)) :
    (lLoc d ↦{fullShare} f : sProp 𝕄) = bigSep Finset.univ fun c : Fin 2 => bigSep Finset.univ fun s : Fin 16 =>
      lLoc d ↦[(lblkM (coordsV c s)).view.set]{fullShare} f := by
  rw [pts_fiber (ℓ := lLoc d) Finset.univ (Finset.univ : Finset (Fin 2)) lC (fun _ _ => Finset.mem_univ _) fullShare f]
  refine bigSep_congr fun c _ => ?_
  rw [pts_fiber (ℓ := lLoc d) _ (Finset.univ : Finset (Fin 16)) lS (fun _ _ => Finset.mem_univ _) fullShare f]
  refine bigSep_congr fun s _ => ?_
  exact congrArg (fun A => (lLoc d ↦[A]{fullShare} f : sProp 𝕄)) (lFibre_eq c s)

end Cert.Proof.KernelP
end
-- ==== Proof.LaunchB.lean ====
/-
  The launch: from one tile's obligation to the run of the whole program.

  @main on the TensorCore re-lays the row numbers (a transpose, then a cut into lists of 128), calls the two
  SparseCores, and re-lays the flat output (a cut into [50, 16384, 128], then an exchange of the first two axes).
  Around the call the arrays are dealt out and gathered back:

  * the list array and the output are handed over whole, as the disjoint union of the thirty-two tiles' parts (a
    tile's block of 200 lists; its 200 chunks of 128 output rows);
  * the table is only read, by every tile at once, so it goes out in read shares: the full share is halved for the
    two SparseCores, each half is divided again among that SparseCore's sixteen tiles, and at each level the
    remainder of the division stays behind and is joined with the returning shares into the share that was divided.

  What comes back is the same with the output's parts holding the gathered rows; joined, the output is the flat
  gathered array, and the two host operations after the call turn it into the result. The arguments are never
  written: the row numbers are held whole by @main throughout, the table's share is whole again after the call.
  The final memory therefore has the result array at the re-laid gather and both arguments at their launch contents.
-/
import proofs.«206364_g2774548873608_retrytranche1_142_25_alg».proof.Proof.SplitB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The handshakes' payloads can be stored -/

instance P_storable : (P (F := F) m).IsStorable where
  st q d c := match q with
    | 0 => (inferInstance : BI.Storable (upEmb : UEmb _ 𝕄)
        iprop((bigSep Finset.univ fun i : Fin 16 => tileArrs m d (Fin.cast nCore_zero c) i (outOf m d)) ∗ tLoc d ↦{coreShare (Fin.cast nCore_zero c)} tabOf m d))
  dn q d c := match q with
    | 0 => (inferInstance : BI.Storable (upEmb : UEmb _ 𝕄)
        iprop((bigSep Finset.univ fun i : Fin 16 => tileArrs m d (Fin.cast nCore_zero c) i (Spec.gatherOut (lstOf m d) (tabOf m d))) ∗ tLoc d ↦{coreShare (Fin.cast nCore_zero c)} tabOf m d))
  go q d c i := match q with
    | 0 => (inferInstance : BI.Storable (upEmb : UEmb _ 𝕄)
        iprop(tileArrs m d (Fin.cast nCore_zero c) (Fin.cast nSub_zero i) (outOf m d) ∗ tileTab m d (Fin.cast nCore_zero c) (Fin.cast nSub_zero i)))
  td q d c i := match q with
    | 0 => (inferInstance : BI.Storable (upEmb : UEmb _ 𝕄)
        iprop(tileArrs m d (Fin.cast nCore_zero c) (Fin.cast nSub_zero i) (Spec.gatherOut (lstOf m d) (tabOf m d)) ∗ tileTab m d (Fin.cast nCore_zero c) (Fin.cast nSub_zero i)))

/-! ## A SparseCore's operands split among its sixteen tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The arrays' parts are already one per tile; the SparseCore's share of the table splits into sixteen tile shares
    and a remainder, which stays behind and is joined back when the tiles' shares return. -/
theorem vecSplit : (K (F := F)).VecSplit' (P m) 0 := by
  intro d c
  show iprop((bigSep Finset.univ fun i : Fin 16 => tileArrs m d (Fin.cast nCore_zero c) i (outOf m d)) ∗ tLoc d ↦{coreShare (Fin.cast nCore_zero c)} tabOf m d)
    ⊢ |={Set.univ}=> iprop(
      (bigSep Finset.univ fun i : Fin ((K (F := F)).nSub 0) =>
        iprop(tileArrs m d (Fin.cast nCore_zero c) (Fin.cast nSub_zero i) (outOf m d) ∗ tileTab m d (Fin.cast nCore_zero c) (Fin.cast nSub_zero i)))
      ∗ ((bigSep Finset.univ fun i : Fin ((K (F := F)).nSub 0) =>
          iprop(tileArrs m d (Fin.cast nCore_zero c) (Fin.cast nSub_zero i) (Spec.gatherOut (lstOf m d) (tabOf m d)) ∗ tileTab m d (Fin.cast nCore_zero c) (Fin.cast nSub_zero i)))
          -∗ iprop((bigSep Finset.univ fun i : Fin 16 => tileArrs m d (Fin.cast nCore_zero c) i (Spec.gatherOut (lstOf m d) (tabOf m d))) ∗ tLoc d ↦{coreShare (Fin.cast nCore_zero c)} tabOf m d)))
  rw [bigSep_tasks (F := F) (fun i => iprop(tileArrs m d (Fin.cast nCore_zero c) i (outOf m d) ∗ tileTab m d (Fin.cast nCore_zero c) i)),
    bigSep_tasks (F := F) (fun i => iprop(tileArrs m d (Fin.cast nCore_zero c) i (Spec.gatherOut (lstOf m d) (tabOf m d)) ∗ tileTab m d (Fin.cast nCore_zero c) i)),
    bigSep_sep' (Finset.univ : Finset (Fin 16)) (fun i => tileArrs m d (Fin.cast nCore_zero c) i (outOf m d)) (fun i => tileTab m d (Fin.cast nCore_zero c) i),
    bigSep_sep' (Finset.univ : Finset (Fin 16)) (fun i => tileArrs m d (Fin.cast nCore_zero c) i (Spec.gatherOut (lstOf m d) (tabOf m d))) (fun i => tileTab m d (Fin.cast nCore_zero c) i)]
  iintro ⟨Ha, Ht⟩
  ihave Ht' := (Transfers.pointsTo_toks_split (ℓ := tLoc d) (S := Finset.univ) (f := tabOf m d) (coreShare (Fin.cast nCore_zero c)) 16) $$ Ht
  icases Ht' with ⟨Hrest, Htoks⟩
  imodintro
  isplitl [Ha Htoks]
  · isplitl [Ha]; · iexact Ha
    iexact Htoks
  iintro ⟨Ha, Htoks⟩
  isplitl [Ha]; · iexact Ha
  iapply (Transfers.pointsTo_toks_join (ℓ := tLoc d) (S := Finset.univ) (f := tabOf m d) (coreShare (Fin.cast nCore_zero c)) 16)
  isplitl [Hrest]; · iexact Hrest
  iexact Htoks

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main's arrays and host operations -/

abbrev aLoc (d : Dev nD) : Loc nD τ sig := (SparseCore.T d).loc main_arg0
abbrev rLoc (d : Dev nD) : Loc nD τ sig := (SparseCore.T d).loc main_v4

abbrev a0' : DevRef τ sig := Proc.devRef .tc (main_arg0 : Ref sig .tc)
abbrev a1' : DevRef τ sig := Proc.devRef .tc (main_arg1 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev w3' : DevRef τ sig := Proc.devRef .tc (main_v3 : Ref sig .tc)
abbrev w4' : DevRef τ sig := Proc.devRef .tc (main_v4 : Ref sig .tc)

/-- The TensorCore's arrays, all unscoped: the two arguments and the five intermediate and result arrays. -/
abbrev S7 : Finset (DevRef τ sig) := {a0', a1', w0', w1', w2', w3', w4'}

omit [FloatOps F] in
theorem held_S7 (d : Dev nD) (W : Valuation τ sig (Elt F)) :
    (held (T d) S7 W : sProp 𝕄) = iprop((aLoc d ↦{fullShare} W a0') ∗ (tLoc d ↦{fullShare} W a1')
      ∗ ((SparseCore.T d).loc main_v0 ↦{fullShare} W w0') ∗ (lLoc d ↦{fullShare} W w1') ∗ (oLoc d ↦{fullShare} W w2')
      ∗ ((SparseCore.T d).loc main_v3 ↦{fullShare} W w3') ∗ (rLoc d ↦{fullShare} W w4')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1)
      ∗ ((SparseCore.T d).loc main_v0 ↦{fullShare} W main_v0) ∗ (lLoc d ↦{fullShare} W main_v1) ∗ (oLoc d ↦{fullShare} W main_v2)
      ∗ ((SparseCore.T d).loc main_v3 ↦{fullShare} W main_v3) ∗ (rLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The four host operations of @main, as the program writes them. -/
abbrev opT1 : HloOp τ sig (Elt F) :=
  StableHlo.unary main_arg0 main_v0 ((transpose S50x16384 [1, 0] · transposes_S16384x50_S50x16384_1_0) : (⟨S16384x50, .i32⟩ : BufTy).Contents (Elt F) → (⟨S50x16384, .i32⟩ : BufTy).Contents (Elt F))
abbrev opR1 : HloOp τ sig (Elt F) := StableHlo.reshape main_v0 main_v1 rfl shapeCasts_S50x16384_S6400x128
abbrev opR2 : HloOp τ sig (Elt F) := StableHlo.reshape main_v2 main_v3 rfl shapeCasts_S819200x128_S50x16384x128
abbrev opT2 : HloOp τ sig (Elt F) :=
  StableHlo.unary main_v3 main_v4 ((transpose S16384x50x128 [1, 0, 2] · transposes_S50x16384x128_S16384x50x128_1_0_2) : (⟨S50x16384x128, .f32⟩ : BufTy).Contents (Elt F) → (⟨S16384x50x128, .f32⟩ : BufTy).Contents (Elt F))

theorem hT1 : (opT1 (F := F)).bufs ⊆ S7 := show ({a0', w0'} : Finset (DevRef τ sig)) ⊆ S7 by decide
theorem hR1 : (opR1 (F := F)).bufs ⊆ S7 := show ({w0', w1'} : Finset (DevRef τ sig)) ⊆ S7 by decide
theorem hR2 : (opR2 (F := F)).bufs ⊆ S7 := show ({w2', w3'} : Finset (DevRef τ sig)) ⊆ S7 by decide
theorem hT2 : (opT2 (F := F)).bufs ⊆ S7 := show ({w3', w4'} : Finset (DevRef τ sig)) ⊆ S7 by decide

/-- The flat gathered array, and the result it is re-laid into. -/
abbrev GO (d : Dev nD) : S819200x128.Idx → Elt F .f32 := Spec.gatherOut (lstOf m d) (tabOf m d)
abbrev RES (d : Dev nD) : S16384x50x128.Idx → Elt F .f32 :=
  transpose S16384x50x128 [1, 0, 2] (shapeCast S50x16384x128 (GO m d) shapeCasts_S819200x128_S50x16384x128) transposes_S50x16384x128_S16384x50x128_1_0_2

/-- The launch valuation; before the call, after the two re-layings of the row numbers; after the call, the output at
    the gathered rows; at the end, after the two re-layings of the output. -/
def V0 (d : Dev nD) : Valuation τ sig (Elt F) := fun b => m (d, b)
def VA (d : Dev nD) : Valuation τ sig (Elt F) := (opR1 (F := F)).result ((opT1 (F := F)).result (V0 m d))
def VB (d : Dev nD) : Valuation τ sig (Elt F) := Function.update (VA m d) w2' (GO m d)
def VC (d : Dev nD) : Valuation τ sig (Elt F) := (opT2 (F := F)).result ((opR2 (F := F)).result (VB m d))

theorem unscoped_held (d : Dev nD) : (unscopedBufs d (fun b => m ((SparseCore.T d).loc b)) : sProp 𝕄) = held (T d) S7 (V0 m d) := by
  rw [unscopedBufs_eq, held_S7]; rfl

theorem VA_l (d : Dev nD) : VA m d w1' = lstOf m d := by
  unfold VA
  rw [StableHlo.reshape_result', StableHlo.unary_result']
  rfl
theorem VA_a0 (d : Dev nD) : VA m d a0' = m (aLoc d) := by
  unfold VA
  rw [(opR1 (F := F)).result_of_not_mem _ (b := a0') (show a0' ∉ ({w1'} : Finset (DevRef τ sig)) by decide),
    (opT1 (F := F)).result_of_not_mem _ (b := a0') (show a0' ∉ ({w0'} : Finset (DevRef τ sig)) by decide)]
  rfl
theorem VA_a1 (d : Dev nD) : VA m d a1' = m (tLoc d) := by
  unfold VA
  rw [(opR1 (F := F)).result_of_not_mem _ (b := a1') (show a1' ∉ ({w1'} : Finset (DevRef τ sig)) by decide),
    (opT1 (F := F)).result_of_not_mem _ (b := a1') (show a1' ∉ ({w0'} : Finset (DevRef τ sig)) by decide)]
  rfl
theorem VA_o (d : Dev nD) : VA m d w2' = m (oLoc d) := by
  unfold VA
  rw [(opR1 (F := F)).result_of_not_mem _ (b := w2') (show w2' ∉ ({w1'} : Finset (DevRef τ sig)) by decide),
    (opT1 (F := F)).result_of_not_mem _ (b := w2') (show w2' ∉ ({w0'} : Finset (DevRef τ sig)) by decide)]
  rfl

theorem VB_o (d : Dev nD) : VB m d w2' = GO m d := Function.update_self _ _ _
theorem VB_ne (d : Dev nD) {b : DevRef τ sig} (h : b ≠ w2') : VB m d b = VA m d b := Function.update_of_ne h _ _

theorem VC_r (d : Dev nD) : VC m d w4' = RES m d := by
  unfold VC
  rw [StableHlo.unary_result', StableHlo.reshape_result', VB_o]
  rfl
theorem VC_a0 (d : Dev nD) : VC m d a0' = m (aLoc d) := by
  unfold VC
  rw [(opT2 (F := F)).result_of_not_mem _ (b := a0') (show a0' ∉ ({w4'} : Finset (DevRef τ sig)) by decide),
    (opR2 (F := F)).result_of_not_mem _ (b := a0') (show a0' ∉ ({w3'} : Finset (DevRef τ sig)) by decide),
    VB_ne m d (show a0' ≠ w2' by decide), VA_a0]
theorem VC_a1 (d : Dev nD) : VC m d a1' = m (tLoc d) := by
  unfold VC
  rw [(opT2 (F := F)).result_of_not_mem _ (b := a1') (show a1' ∉ ({w4'} : Finset (DevRef τ sig)) by decide),
    (opR2 (F := F)).result_of_not_mem _ (b := a1') (show a1' ∉ ({w3'} : Finset (DevRef τ sig)) by decide),
    VB_ne m d (show a1' ≠ w2' by decide), VA_a1]

/-! ## What @main leaves the claim -/

abbrev FIN (d : Dev nD) : sProp 𝕄 :=
  iprop((rLoc d ↦{fullShare} RES m d) ∗ (aLoc d ↦{fullShare} m (aLoc d)) ∗ (tLoc d ↦{fullShare} m (tLoc d)))

def fq (d : Dev nD) (s' : Phys nD τ sig (Elt F)) : Prop :=
  s'.mem.mem (rLoc d) = RES m d ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha, Ht⟩, HSI⟩
  ihave H := (persistent_entails_right (SI_pointsTo_agree (st := s') (ℓ := rLoc d) (I := Finset.univ) (q := fullShare) (f := RES m d))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := tLoc d) (I := Finset.univ) (q := fullShare) (f := m (tLoc d))) $$ [HSI Ht]
  · isplitl [HSI] <;> iassumption
  icases H with %h3
  ipureintro
  exact ⟨funext fun i => h1 i (Finset.mem_univ i), funext fun i => h2 i (Finset.mem_univ i), funext fun i => h3 i (Finset.mem_univ i)⟩

/-! ## What the call takes and hands back -/

/-- The list array whole is its thirty-two tiles' blocks. -/
def LSplit : Prop := ∀ (d : Dev nD) (f : Buf (Elt F) (lLoc d)),
  (lLoc d ↦{fullShare} f : sProp 𝕄) = bigSep Finset.univ fun c : Fin 2 => bigSep Finset.univ fun s : Fin 16 =>
    lLoc d ↦[(lblkM (coordsV c s)).view.set]{fullShare} f
/-- The output whole is its thirty-two tiles' two hundred chunks each. -/
def OSplit : Prop := ∀ (d : Dev nD) (f : Buf (Elt F) (oLoc d)),
  (oLoc d ↦{fullShare} f : sProp 𝕄) = bigSep Finset.univ fun c : Fin 2 => bigSep Finset.univ fun s : Fin 16 =>
    bigSep (Finset.range 200) fun k => oLoc d ↦[(ochM (coordsV c s) k).view.set]{fullShare} f

omit [FloatOps F] in
/-- All the tiles' parts of the list array and of the output are the two arrays whole. -/
theorem arrs_eq (hL : LSplit (F := F)) (hO : OSplit (F := F)) (d : Dev nD) (f : S819200x128.Idx → Elt F .f32) :
    (bigSep Finset.univ fun c : Fin 2 => bigSep Finset.univ fun i : Fin 16 => tileArrs m d c i f)
      = iprop((lLoc d ↦{fullShare} lstOf m d) ∗ (oLoc d ↦{fullShare} f)) := by
  rw [hL d (lstOf m d), hO d f, ← bigSep_sep']
  refine bigSep_congr fun c _ => ?_
  rw [← bigSep_sep']

omit [FloatOps F] in
/-- What the two SparseCores take: the list array and the output whole, and the two halves of the table's share. -/
theorem cores_eq (hL : LSplit (F := F)) (hO : OSplit (F := F)) (d : Dev nD) (f : S819200x128.Idx → Elt F .f32) :
    (bigSep Finset.univ fun c : Fin 2 =>
        iprop((bigSep Finset.univ fun i : Fin 16 => tileArrs m d c i f) ∗ tLoc d ↦{coreShare c} tabOf m d))
      = iprop(((lLoc d ↦{fullShare} lstOf m d) ∗ (oLoc d ↦{fullShare} f)) ∗ bigSep Finset.univ fun c : Fin 2 => tLoc d ↦{coreShare c} tabOf m d) := by
  rw [bigSep_sep' (Finset.univ : Finset (Fin 2)) (fun c => bigSep Finset.univ fun i : Fin 16 => tileArrs m d c i f) (fun c => tLoc d ↦{coreShare c} tabOf m d),
    arrs_eq m hL hO d f]

theorem st0_eq (hL : LSplit (F := F)) (hO : OSplit (F := F)) (d : Dev nD) :
    (bigSep Finset.univ fun c : Fin ((K (F := F)).nCore 0) => (P m).st 0 d c)
    = iprop(((lLoc d ↦{fullShare} lstOf m d) ∗ (oLoc d ↦{fullShare} outOf m d)) ∗ bigSep Finset.univ fun c : Fin 2 => tLoc d ↦{coreShare c} tabOf m d) :=
  cores_eq m hL hO d (outOf m d)
theorem dn0_eq (hL : LSplit (F := F)) (hO : OSplit (F := F)) (d : Dev nD) :
    (bigSep Finset.univ fun c : Fin ((K (F := F)).nCore 0) => (P m).dn 0 d c)
    = iprop(((lLoc d ↦{fullShare} lstOf m d) ∗ (oLoc d ↦{fullShare} GO m d)) ∗ bigSep Finset.univ fun c : Fin 2 => tLoc d ↦{coreShare c} tabOf m d) :=
  cores_eq m hL hO d (GO m d)

/-! ## @main on the TensorCore -/

abbrev w0Loc (d : Dev nD) : Loc nD τ sig := (SparseCore.T d).loc main_v0
abbrev w3Loc (d : Dev nD) : Loc nD τ sig := (SparseCore.T d).loc main_v3

theorem held_VA (d : Dev nD) : (held (T d) S7 (VA m d) : sProp 𝕄) = iprop((aLoc d ↦{fullShare} m (aLoc d)) ∗ (tLoc d ↦{fullShare} tabOf m d)
    ∗ (w0Loc d ↦{fullShare} VA m d w0') ∗ (lLoc d ↦{fullShare} lstOf m d) ∗ (oLoc d ↦{fullShare} outOf m d)
    ∗ (w3Loc d ↦{fullShare} VA m d w3') ∗ (rLoc d ↦{fullShare} VA m d w4')) := by
  rw [held_S7, VA_a0, VA_a1, VA_l, VA_o]

theorem held_VB (d : Dev nD) : (held (T d) S7 (VB m d) : sProp 𝕄) = iprop((aLoc d ↦{fullShare} m (aLoc d)) ∗ (tLoc d ↦{fullShare} tabOf m d)
    ∗ (w0Loc d ↦{fullShare} VA m d w0') ∗ (lLoc d ↦{fullShare} lstOf m d) ∗ (oLoc d ↦{fullShare} GO m d)
    ∗ (w3Loc d ↦{fullShare} VA m d w3') ∗ (rLoc d ↦{fullShare} VA m d w4')) := by
  rw [held_S7, VB_o, VB_ne m d (show a0' ≠ w2' by decide), VB_ne m d (show a1' ≠ w2' by decide), VB_ne m d (show w0' ≠ w2' by decide),
    VB_ne m d (show w1' ≠ w2' by decide), VB_ne m d (show w3' ≠ w2' by decide), VB_ne m d (show w4' ≠ w2' by decide), VA_a0, VA_a1, VA_l]

theorem held_VC (d : Dev nD) : (held (T d) S7 (VC m d) : sProp 𝕄) = iprop((aLoc d ↦{fullShare} m (aLoc d)) ∗ (tLoc d ↦{fullShare} m (tLoc d))
    ∗ (w0Loc d ↦{fullShare} VC m d w0') ∗ (lLoc d ↦{fullShare} VC m d w1') ∗ (oLoc d ↦{fullShare} VC m d w2')
    ∗ (w3Loc d ↦{fullShare} VC m d w3') ∗ (rLoc d ↦{fullShare} RES m d)) := by
  rw [held_S7, VC_a0, VC_a1, VC_r]

theorem held_VA' (d : Dev nD) : (held (T d) S7 ((opR1 (F := F)).result ((opT1 (F := F)).result (V0 m d))) : sProp 𝕄)
    = iprop((aLoc d ↦{fullShare} m (aLoc d)) ∗ (tLoc d ↦{fullShare} tabOf m d)
    ∗ (w0Loc d ↦{fullShare} VA m d w0') ∗ (lLoc d ↦{fullShare} lstOf m d) ∗ (oLoc d ↦{fullShare} outOf m d)
    ∗ (w3Loc d ↦{fullShare} VA m d w3') ∗ (rLoc d ↦{fullShare} VA m d w4')) := held_VA m d
theorem held_VC' (d : Dev nD) : (held (T d) S7 ((opT2 (F := F)).result ((opR2 (F := F)).result (VB m d))) : sProp 𝕄)
    = iprop((aLoc d ↦{fullShare} m (aLoc d)) ∗ (tLoc d ↦{fullShare} m (tLoc d))
    ∗ (w0Loc d ↦{fullShare} VC m d w0') ∗ (lLoc d ↦{fullShare} VC m d w1') ∗ (oLoc d ↦{fullShare} VC m d w2')
    ∗ (w3Loc d ↦{fullShare} VC m d w3') ∗ (rLoc d ↦{fullShare} RES m d)) := held_VC m d

/-- @main on device `d`'s TensorCore: the row numbers re-laid into the list array; the call, which takes the list array and
    the output whole and the table's share in two halves, the remainder kept here; the output re-laid into the result. -/
theorem hmain (hL : LSplit (F := F)) (hO : OSplit (F := F)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the row numbers transposed, then cut into lists
  iapply (wp_hlo_within 𝒱 (SparseCore.T d) none Set.univ (op := opT1) (S := S7) hT1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S7) hR1 (V := (opT1 (F := F)).result (V0 m d))) $$ [Hb Hheld]
  · isplitl [Hb]; · iexact Hb
    iexact Hheld
  iintro ⟨Hb, Hheld⟩
  rw [wp_ret]; imodintro
  ihave Hh := (Entails.of_eq (held_VA' m d)) $$ Hheld
  icases Hh with ⟨Ha, Ht, H0, Hl, Ho, H3, Hr⟩
  -- the table's share halved for the two SparseCores, the remainder kept
  ihave Ht' := (Transfers.pointsTo_toks_split (ℓ := tLoc d) (S := Finset.univ) (f := tabOf m d) fullShare 2) $$ Ht
  icases Ht' with ⟨Hrest, Htoks⟩
  -- the call
  iapply ((K (F := F)).wp_run (D (F := F)) 𝒱 (EH := EH) (P := P m) κ d 0) $$ [Hst Hl Ho Htoks Hb Ha H0 H3 Hr Hrest]
  isplitr; · iexact Hctx
  isplitl [Hst]; · iexact Hst
  isplitl [Hl Ho Htoks]
  · rw [st0_eq m hL hO]
    isplitl [Hl Ho]
    · isplitl [Hl]; · iexact Hl
      iexact Ho
    iexact Htoks
  iintro ⟨Hst, Hdn⟩
  ihave Hdn' := (Entails.of_eq (dn0_eq m hL hO d)) $$ Hdn
  icases Hdn' with ⟨⟨Hl, Ho⟩, Htoks⟩
  ihave Ht := (Transfers.pointsTo_toks_join (ℓ := tLoc d) (S := Finset.univ) (f := tabOf m d) fullShare 2) $$ [Hrest Htoks]
  · isplitl [Hrest]; · iexact Hrest
    iexact Htoks
  -- the output cut into [50, 16384, 128], then its first two axes exchanged
  iapply (wp_hlo_within 𝒱 (SparseCore.T d) none Set.univ (op := opR2) (S := S7) hR2 (V := VB m d)) $$ [Hb Ha Ht H0 Hl Ho H3 Hr]
  · isplitl [Hb]; · iexact Hb
    rw [held_VB]
    isplitl [Ha]; · iexact Ha
    isplitl [Ht]; · iexact Ht
    isplitl [H0]; · iexact H0
    isplitl [Hl]; · iexact Hl
    isplitl [Ho]; · iexact Ho
    isplitl [H3]; · iexact H3
    iexact Hr
  iintro ⟨Hb, Hheld⟩
  rw [wp_ret]; imodintro
  iapply (wp_hlo_within 𝒱 (SparseCore.T d) none Set.univ (op := opT2) (S := S7) hT2 (V := (opR2 (F := F)).result (VB m d))) $$ [Hb Hheld]
  · isplitl [Hb]; · iexact Hb
    iexact Hheld
  iintro ⟨Hb, Hheld⟩
  ihave Hh := (Entails.of_eq (held_VC' m d)) $$ Hheld
  icases Hh with ⟨Ha, Ht, -, -, -, -, Hr⟩
  rw [wp_ret]; imodintro; imodintro
  isplitl [Hst]; · iexact Hst
  isplitl [Hr]; · iexact Hr
  isplitl [Ha]; · iexact Ha
  iexact Ht

/-! ## The program's run -/

/-- Every device ends with the result array at the re-laid gather and its two arguments unchanged. -/
def QC : PUnit × MemSt nD τ sig (Elt F) → Prop := fun r => ∀ c : Dev nD,
  r.2.mem ((SparseCore.T c).loc main_v4) = transpose S16384x50x128 [1, 0, 2] (shapeCast S50x16384x128 (Spec.gatherOut (lstOf m c) (tabOf m c)) shapeCasts_S819200x128_S50x16384x128) transposes_S50x16384x128_S16384x50x128_1_0_2
  ∧ r.2.mem ((SparseCore.T c).loc main_arg0) = m ((SparseCore.T c).loc main_arg0)
  ∧ r.2.mem ((SparseCore.T c).loc main_arg1) = m ((SparseCore.T c).loc main_arg1)

/-- The run, given the tile's obligation and the two arrays' splits into the tiles' parts. -/
theorem run_main_of_splits [∀ e, Nonempty (Elt F e)] (hL : LSplit (F := F)) (hO : OSplit (F := F))
    (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ hL hO) (fq m) (hfin m) (QC m) (fun _ h => h)

/-- The run, given the tile's obligation: every device ends with the result array at the re-laid gather and its two
    arguments unchanged. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩
      (fun r => ∀ c : Dev nD,
        r.2.mem ((SparseCore.T c).loc main_v4) = transpose S16384x50x128 [1, 0, 2] (shapeCast S50x16384x128 (Spec.gatherOut (lstOf m c) (tabOf m c)) shapeCasts_S819200x128_S50x16384x128) transposes_S50x16384x128_S16384x50x128_1_0_2
        ∧ r.2.mem ((SparseCore.T c).loc main_arg0) = m ((SparseCore.T c).loc main_arg0)
        ∧ r.2.mem ((SparseCore.T c).loc main_arg1) = m ((SparseCore.T c).loc main_arg1)) :=
  run_main_of_splits m ρ (fun d f => lPts_split d f) (fun d f => oPts_split d f) htile

end Cert.Proof.KernelP
end
-- ==== Proof.StepsB.lean ====
import proofs.«206364_g2774548873608_retrytranche1_142_25_alg».proof.Proof.TileDefsB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The states of one chunk of 128 rows -/

section Chunk

variable [FloatOps F]
variable (d : Dev nD) (L : grid0.Coords) (qT : PosShare TreeShare)

abbrev thrV (d : Dev nD) (L : grid0.Coords) : Thread nD τ := V d (cV L) (jV L)

local notation "rV" => (Memref.whole Cert.Kernel.cc0_scratch1 : Memref Cert.Kernel.sig Kind.scVector Space.vmem Cert.Kernel.S6x128x128 EltTy.f32)

/-- The row buffer of chunk c. -/
abbrev sl (c : ℕ) : Fin 6 := ⟨c % 6, Nat.mod_lt _ (by decide)⟩
theorem rOff_inb (r : Fin 6) : ∀ a, (![r.val, 0, 0] : Fin 3 → Nat) a + S1x128x128.size a ≤ S6x128x128.size a := by
  have := r.isLt
  intro a; fin_cases a <;> simp <;> omega
theorem qrOff_inb (r : Fin 6) : ∀ a, (![r.val] : Fin 1 → Nat) a + S1.size a ≤ S6.size a := by
  have := r.isLt
  intro a; fin_cases a; simp; try omega
/-- Row buffer r and its two semaphores, by the buffer's number. -/
abbrev slotF (r : Fin 6) : Memref sig .scVector .vmem S128x128 .f32 :=
  ((rV).slice (Rect.unit (s := S6x128x128) ![r.val, 0, 0] S1x128x128.size (rOff_inb r)) (fun _ => rfl)).squeeze S128x128 squeezes_S1x128x128_S128x128
abbrev gsemF (r : Fin 6) : DmaSem sig := ((cc0_scratch2.slice (Rect.unit (s := S6) ![r.val] S1.size (qrOff_inb r))).squeeze S_ squeezes_S1_S_).sem
abbrev psemF (r : Fin 6) : DmaSem sig := ((cc0_scratch3.slice (Rect.unit (s := S6) ![r.val] S1.size (qrOff_inb r))).squeeze S_ squeezes_S1_S_).sem
theorem slotM_eq_slotF (c : ℕ) : slotM c = slotF (sl c) := rfl
theorem gsemM_eq_gsemF (c : ℕ) : gsemM c = gsemF (sl c) := rfl
theorem psemM_eq_psemF (c : ℕ) : psemM c = psemF (sl c) := rfl

variable (lst : S6400x128.Idx → BitVec 32) (tab : S100000x128.Idx → Elt F .f32)
variable (fo : S200x128.Idx → BitVec 32) (f0 : S819200x128.Idx → Elt F .f32)

/-- The share of the table a gather into row buffer `s % 6` reads. -/
abbrev tq (qT : PosShare TreeShare) (s : ℕ) : PosShare TreeShare := Transfers.shareTok qT 6 ⟨s % 6, Nat.mod_lt _ (by decide)⟩

abbrev gN : ℕ := (slotM 0).view.dmaCredit
abbrev pN (L : grid0.Coords) : ℕ := (ochM L 0).view.dmaCredit

abbrev tTok (s : ℕ) : sProp 𝕄 := (tAll).view.loc (thrV d L) ↦[(tAll).view.set]{tq qT s} tab
abbrev iRowPts (c : ℕ) : sProp 𝕄 := (irowM c).view.loc (thrV d L) ↦[(irowM c).view.set]{fullShare} fo
abbrev oChPts (c : ℕ) (f : S819200x128.Idx → Elt F .f32) : sProp 𝕄 := (ochM L c).view.loc (thrV d L) ↦[(ochM L c).view.set]{fullShare} f
abbrev slotPts (s : ℕ) (f : S6x128x128.Idx → Elt F .f32) : sProp 𝕄 := (slotM s).view.loc (thrV d L) ↦[(slotM s).view.set]{fullShare} f
abbrev gCell (s : ℕ) : GSem nD τ sig := (thrV d L, .dma (gsemM s))
abbrev pCell (s : ℕ) : GSem nD τ sig := (thrV d L, .dma (psemM s))

/-- What the gather of chunk `c` delivers: its row buffer holding the rows the chunk's list names, the share of
    the table and the list back. -/
def Dg (c : ℕ) : sProp 𝕄 :=
  iprop((∃ f, ⌜SlotHolds c fo tab f⌝ ∗ slotPts d L c f) ∗ tTok d L qT tab c ∗ iRowPts d L fo c)

/-- What the write-out of chunk `c` delivers: the chunk of the output at its final contents, the row buffer back. -/
def Dp (c : ℕ) : sProp 𝕄 :=
  iprop(oChPts d L c (Spec.gatherOut lst tab) ∗ ∃ f, slotPts d L c f)

/-- Chunk `c` not yet begun: its list, its output rows at the launch contents. -/
def Fr (c : ℕ) : sProp 𝕄 := iprop(iRowPts d L fo c ∗ oChPts d L c f0)
/-- Row buffer r idle: the buffer, its two semaphores at zero, its share of the table. -/
def Idle (r : Fin 6) : sProp 𝕄 :=
  iprop((∃ f : S6x128x128.Idx → Elt F .f32, (slotF r).view.loc (thrV d L) ↦[(slotF r).view.set]{fullShare} f)
    ∗ semVal ((thrV d L, .dma (gsemF r)) : GSem nD τ sig) 0 ∗ semVal ((thrV d L, .dma (psemF r)) : GSem nD τ sig) 0
    ∗ ((tAll).view.loc (thrV d L) ↦[(tAll).view.set]{Transfers.shareTok qT 6 r} tab))
/-- Chunk `c` being gathered. -/
def Gs (c : ℕ) : sProp 𝕄 :=
  iprop(Transfers.Flight countersEmb (thrV d L) (.dma (gsemM c)) (default : HIx 1) gN (Dg d L qT tab fo c)
    ∗ semVal (pCell d L c) 0 ∗ oChPts d L c f0)
/-- Chunk `c` gathered, not yet written out. -/
def Gd (c : ℕ) : sProp 𝕄 :=
  iprop(Dg d L qT tab fo c ∗ semVal (gCell d L c) 0 ∗ semVal (pCell d L c) 0 ∗ oChPts d L c f0)
/-- Chunk `c` being written out. -/
def Ps (c : ℕ) : sProp 𝕄 :=
  iprop(Transfers.Flight countersEmb (thrV d L) (.dma (psemM c)) (default : HIx 1) (pN L) (Dp d L lst tab c)
    ∗ semVal (gCell d L c) 0 ∗ tTok d L qT tab c ∗ iRowPts d L fo c)
/-- Chunk `c` done. -/
def Dn (c : ℕ) : sProp 𝕄 := iprop(oChPts d L c (Spec.gatherOut lst tab) ∗ iRowPts d L fo c)

end Chunk

/-! ## The four steps of a chunk -/

section Steps

variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)

/-- The wait for chunk `c`'s gather: the chunk is gathered. -/
theorem wp_gatherWait (c : ℕ) (O : CellTallies nD τ sig (HIx 1)) (W : Waits sig (HIx 1)) {sem : DmaSem sig}
    {sp' : Space} {s' : Shape} {e' : EltTy} {κ' : Kind} {sp : Space} {s : Shape} {e : EltTy}
    {srcw : Memref sig (thrV d L).2.kind sp' s' e'} {dstw : Memref sig κ' sp s e}
    {hsrc : srcw.view.WordExact} {hdst : dstw.view.WordExact}
    {α : Type} {Qp : α → sProp 𝕄} {k : PUnit → Prog (TpuEff nD τ sig (Elt F) Λ₀ (thrV d L).2) α}
    (hsem : sem = gsemM c) (hN : dstw.view.dmaCredit = gN) :
    iprop(Transfers.MayWaits (thrV d L) (default : HIx 1) O ∗ Gs d L qT tab fo f0 c ∗ owes (thrV d L) O W)
      ⊢ iprop((iprop(Gd d L qT tab fo f0 c ∗ owes (thrV d L) O (insert (SemLoc.dma (gsemM c), (default : HIx 1)) W))
            -∗ wp frame (wpE (defs₀ (F := F)) 𝒱₀ (thrV d L) none) Set.univ (k ⟨⟩) Qp)
          -∗ wp frame (wpE (defs₀ (F := F)) 𝒱₀ (thrV d L) none) Set.univ (.op (.waitDma2 sem srcw dstw hsrc hdst) k) Qp) := by
  subst hsem
  unfold Gs Gd
  iintro ⟨#Hmw, ⟨Hf, Hp, Ho⟩, HO⟩ Hk
  iapply (Transfers.wp_waitLocalO countersEmb 𝒱₀ (thrV d L) none (default : HIx 1) hN) $$ [Hf HO]
  · isplitl [Hf]; · iexact Hf
    isplitl [HO]; · iexact HO
    iapply (Transfers.MayWaits.elim (SemLoc.dma (gsemM c))) $$ Hmw
  iintro ⟨HD, Hv, HO⟩
  iapply Hk
  isplitr [HO]
  · isplitl [HD]; · iexact HD
    isplitl [Hv]; · iexact Hv
    isplitl [Hp]; · iexact Hp
    iexact Ho
  · iexact HO

/-- The wait for chunk `c`'s write-out: the chunk is done and its row buffer idle. -/
theorem wp_putWait (c : ℕ) (O : CellTallies nD τ sig (HIx 1)) (W : Waits sig (HIx 1)) {sem : DmaSem sig}
    {sp' : Space} {s' : Shape} {e' : EltTy} {κ' : Kind} {sp : Space} {s : Shape} {e : EltTy}
    {srcw : Memref sig (thrV d L).2.kind sp' s' e'} {dstw : Memref sig κ' sp s e}
    {hsrc : srcw.view.WordExact} {hdst : dstw.view.WordExact}
    {α : Type} {Qp : α → sProp 𝕄} {k : PUnit → Prog (TpuEff nD τ sig (Elt F) Λ₀ (thrV d L).2) α}
    (hsem : sem = psemM c) (hN : dstw.view.dmaCredit = pN L) :
    iprop(Transfers.MayWaits (thrV d L) (default : HIx 1) O ∗ Ps d L qT lst tab fo c ∗ owes (thrV d L) O W)
      ⊢ iprop((iprop(Dn d L lst tab fo c ∗ Idle d L qT tab (sl c) ∗ owes (thrV d L) O (insert (SemLoc.dma (psemM c), (default : HIx 1)) W))
            -∗ wp frame (wpE (defs₀ (F := F)) 𝒱₀ (thrV d L) none) Set.univ (k ⟨⟩) Qp)
          -∗ wp frame (wpE (defs₀ (F := F)) 𝒱₀ (thrV d L) none) Set.univ (.op (.waitDma2 sem srcw dstw hsrc hdst) k) Qp) := by
  subst hsem
  unfold Ps Dn Idle Dp
  iintro ⟨#Hmw, ⟨Hf, Hg, Ht, Hi⟩, HO⟩ Hk
  iapply (Transfers.wp_waitLocalO countersEmb 𝒱₀ (thrV d L) none (default : HIx 1) hN) $$ [Hf HO]
  · isplitl [Hf]; · iexact Hf
    isplitl [HO]; · iexact HO
    iapply (Transfers.MayWaits.elim (SemLoc.dma (psemM c))) $$ Hmw
  iintro ⟨⟨Hout, Hslot⟩, Hv, HO⟩
  iapply Hk
  isplitl [Hout Hi]
  · isplitl [Hout]; · iexact Hout
    iexact Hi
  isplitr [HO]
  · isplitl [Hslot]; · iexact Hslot
    isplitl [Hg]; · iexact Hg
    isplitl [Hv]; · iexact Hv
    iexact Ht
  · iexact HO

end Steps

section Issue

variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)

theorem pN_pos (L : grid0.Coords) : 0 < pN L := View.dmaCredit_pos _ (by decide)

/-- The issue of chunk `c`'s write-out, from the chunk gathered. -/
theorem wp_putIssue (c : ℕ) {sem : DmaSem sig}
    {src : Memref sig (thrV d L).2.kind .vmem S128x128 .f32} {dst : Memref sig (thrV d L).2.kind .hbm S128x128 .f32}
    {hsrc : src.view.WordExact} {hdst : dst.view.WordExact} {hsem : DmaTarget.Typed (nD := nD) .vmem (SemLoc.dma sem) (.here dst)}
    {α : Type} {Qp : α → sProp 𝕄} {k : PUnit → Prog (TpuEff nD τ sig (Elt F) Λ₀ (thrV d L).2) α}
    (hs : src = slotM c) (hd : dst = ochM L c) (hse : sem = psemM c)
    (hF2 : ∀ f, SlotHolds c fo tab f → ∀ x ∈ (ochM L c).view.set,
      (ochM L c).view.write (Elt F) f0 ((slotM c).view.read (Elt F) f) Finset.univ x = Spec.gatherOut lst tab x) :
    Gd d L qT tab fo f0 c
      ⊢ iprop((Ps d L qT lst tab fo c -∗ wp frame (wpE (defs₀ (F := F)) 𝒱₀ (thrV d L) none) Set.univ (k ⟨⟩) Qp)
          -∗ wp frame (wpE (defs₀ (F := F)) 𝒱₀ (thrV d L) none) Set.univ (.op (.enqueueDma src (.here dst) (.dma sem) hsrc hdst hsem) k) Qp) := by
  subst hs hd hse
  unfold Gd Ps Dg
  iintro ⟨⟨⟨%f, %hf, Hslot⟩, Ht, Hi⟩, Hg, Hp, Ho⟩ Hk
  iapply (Transfers.wp_dmaLocal countersEmb 𝒱₀ (thrV d L) none (default : HIx 1) (pN L) rfl (pN_pos L) (Finset.Subset.refl _)) $$ [Hslot Ho Hp]
  · isplitl [Hslot]; · iexact Hslot
    isplitl [Ho]; · iexact Ho
    iexact Hp
  iintro Hf
  iapply Hk
  isplitl [Hf]
  · iapply (Transfers.Flight_mono countersEmb (thrV d L) (D' := Dp d L lst tab c) ?_) $$ Hf
    unfold Dp
    iintro ⟨Hout, Hslot⟩
    isplitl [Hout]
    · iapply (Entails.of_eq (pointsTo_congr (hF2 f hf))) $$ Hout
    · iexists f; iexact Hslot
  isplitl [Hg]; · iexact Hg
  isplitl [Ht]; · iexact Ht
  iexact Hi

/-- The issue of chunk `c`'s gather into an idle row buffer. -/
theorem wp_gatherIssue (c : ℕ) {sem : DmaSem sig}
    {src : Memref sig (thrV d L).2.kind .hbm S100000x128 .f32} {dst : Memref sig (thrV d L).2.kind .vmem S128x128 .f32}
    {offs : Memref sig (thrV d L).2.kind .vmem S128 .i32} {hg : S100000x128.Gathers 0 S128x128} {hn : S128.numel = S128x128.size hg.axis'}
    {hp : (thrV d L).2.kind = .scVector} {hsrc : src.view.WordExact} {he : EltTy.f32.bits = 32} {hsp : Space.hbm = .hbm ∨ Space.hbm = .shared} {hr : S100000x128.StreamRows 0}
    {α : Type} {Qp : α → sProp 𝕄} {k : PUnit → Prog (TpuEff nD τ sig (Elt F) Λ₀ (thrV d L).2) α}
    (hs : src = tAll) (hd : dst = slotM c) (ho : offs = irowM c) (hse : sem = gsemM c)
    (hin : ∀ x, ((irowM c).view.read (Elt F) fo x).toNat < S100000x128.size hg.axis)
    (hF1 : ∀ fd, SlotHolds c fo tab ((slotM c).view.write (Elt F) fd
      (SparseCore.gatherPayload hg ((tAll).view.read (Elt F) tab) (SparseCore.rows ((irowM c).view.read (Elt F) fo) hn hin)) Finset.univ)) :
    iprop(Fr d L fo f0 c ∗ Idle d L qT tab (sl c))
      ⊢ iprop((Gs d L qT tab fo f0 c -∗ wp frame (wpE (defs₀ (F := F)) 𝒱₀ (thrV d L) none) Set.univ (k ⟨⟩) Qp)
          -∗ wp frame (wpE (defs₀ (F := F)) 𝒱₀ (thrV d L) none) Set.univ
              (SparseCore.enqueueIndirectGather hp src dst hg offs hn sem hsrc he hsp hr >>= k) Qp) := by
  subst hs hd ho hse
  unfold Fr Idle Gs
  iintro ⟨⟨Hi, Ho⟩, ⟨%fd, Hslot⟩, Hg, Hp, Ht⟩ Hk
  have hN : ∑ j, ((slotM c).slice (S128x128.rowRect hg.axis' j) (S128x128.stride_rowRect hg.axis' j)).view.dmaCredit = gN := by
    exact SparseCore.sum_rowCredit_eq_dmaCredit (slotM c) hg.axis' (fun s' => rfl)
  iapply (SparseCore.wp_indirectGatherLocal countersEmb 𝒱₀ (thrV d L) none (default : HIx 1) gN hN (by decide) hin) $$ [Ht Hslot Hi Hg]
  · isplitl [Ht]; · iexact Ht
    isplitl [Hslot]; · iexact Hslot
    isplitl [Hi]; · iexact Hi
    iexact Hg
  iintro Hf
  iapply Hk
  isplitl [Hf]
  · iapply (Transfers.Flight_mono countersEmb (thrV d L) (D' := Dg d L qT tab fo c) ?_) $$ Hf
    unfold Dg
    iintro ⟨Hslot, Ht, Hi⟩
    isplitl [Hslot]
    · iexists _; isplitr
      · ipureintro; exact hF1 fd
      · iexact Hslot
    isplitl [Ht]; · iexact Ht
    iexact Hi
  isplitl [Hp]; · iexact Hp
  iexact Ho

end Issue

end Cert.Proof.KernelP
end
-- ==== Proof.PayloadB.lean ====
/-
  What the tile's windows read and write, by coordinates.

  Each window of the tile is a unit-stride rectangle of an array, some with a leading axis of extent one dropped.
  Dropping such an axis keeps the row-major order, so a window's index sits in the array at the rectangle's offset
  plus the index itself: row buffer s % 6 at (r, l) is the scratch array's (s % 6, r, l); fetched list c % 200 at
  entry r is the scratch array's (c % 200, r); output chunk c % 200 at (r, l) is the output's row
  base + 128 (c % 200) + r, column l; the tile's block of the list array at (c, l) is list
  400 L1 + 200 L0 + c, entry l; the table's window is the whole table.

  From these: the fetch copies the tile's block of the list array into the scratch lists; if every entry of the list
  array is a row of the table, so is every fetched entry; the gather puts into row r of a row buffer the table's row
  named by entry r of its list (on the indexed axis the source coordinate is the named row, on the other axis the
  destination's own column); and the write-out of a row buffer puts those rows at output rows
  base + 128 (c % 200) + r, which the flat gathered array defines through list entry number
  base + 128 (c % 200) + r — list (base + 128 (c % 200) + r) / 128 = 400 L1 + 200 L0 + c % 200, entry
  (base + 128 (c % 200) + r) % 128 = r, because base = 128 (400 L1 + 200 L0) and r is below 128.
-/
import proofs.«206364_g2774548873608_retrytranche1_142_25_alg».proof.Proof.TileDefsB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## Where a window's index sits in its array -/

/-- Row buffer `s % 6` at (r, l) sits at (s % 6, r, l) of the scratch array. -/
theorem slotM_emb (s : ℕ) (r l : Fin 128) :
    (slotM s).view.emb (ix2 r l) = ix3 (⟨s % 6, Nat.mod_lt _ (by decide)⟩ : Fin 6) r l := by
  show (Rect.unit (s := S6x128x128) ![s % 6, 0, 0] S1x128x128.size (sOff_inb s)).emb
      (Shape.reshapeEquiv squeezes_S1x128x128_S128x128.numel_eq (ix2 r l)) = _
  rw [Shape.reshapeEquiv_eq_of_rowMajor _ (y := ix3 (0 : Fin 1) r l) (by
    rw [Shape.rowMajor_val_three, Shape.rowMajor_val_two]
    show (0 * 128 + r.val) * 128 + l.val = r.val * 128 + l.val
    omega)]
  funext a; apply Fin.ext
  rw [Rect.emb_apply]
  match a with
  | ⟨0, _⟩ => show s % 6 + 1 * 0 = s % 6; omega
  | ⟨1, _⟩ => show 0 + 1 * r.val = r.val; omega
  | ⟨2, _⟩ => show 0 + 1 * l.val = l.val; omega

/-- Fetched list `c % 200` at entry r sits at (c % 200, r) of the scratch array. -/
theorem irowM_emb (c : ℕ) (r : Fin 128) :
    (irowM c).view.emb (ix1 r) = ix2 (⟨c % 200, Nat.mod_lt _ (by decide)⟩ : Fin 200) r := by
  show (Rect.unit (s := S200x128) ![c % 200, 0] S1x128.size (iOff_inb c)).emb
      (Shape.reshapeEquiv squeezes_S1x128_S128.numel_eq (ix1 r)) = _
  rw [Shape.reshapeEquiv_eq_of_rowMajor _ (y := ix2 (0 : Fin 1) r) (by
    rw [Shape.rowMajor_val_two, Shape.rowMajor_val_one]
    show 0 * 128 + r.val = r.val
    omega)]
  funext a; apply Fin.ext
  rw [Rect.emb_apply]
  match a with
  | ⟨0, _⟩ => show c % 200 + 1 * 0 = c % 200; omega
  | ⟨1, _⟩ => show 0 + 1 * r.val = r.val; omega

/-- Output chunk `c % 200` of the tile at (r, l) sits at row base + 128 (c % 200) + r, column l. -/
theorem ochM_emb (L : grid0.Coords) (c : ℕ) (r l : Fin 128) :
    (ochM L c).view.emb (ix2 r l) = ix2 (⟨base L + 128 * (c % 200) + r.val, by
      have := base_le L; have : c % 200 < 200 := Nat.mod_lt _ (by decide); have := r.isLt; omega⟩ : Fin 819200) l := by
  show (Rect.unit (s := S819200x128) ![base L + 128 * (c % 200), 0] S128x128.size (oOff_inb L c)).emb (ix2 r l) = _
  funext a; apply Fin.ext
  rw [Rect.emb_apply]
  match a with
  | ⟨0, _⟩ => show base L + 128 * (c % 200) + 1 * r.val = base L + 128 * (c % 200) + r.val; omega
  | ⟨1, _⟩ => show 0 + 1 * l.val = l.val; omega

/-- The tile's block of the list array at (c, l) sits at list 400 L1 + 200 L0 + c, entry l. -/
theorem lblkM_emb (L : grid0.Coords) (c : Fin 200) (l : Fin 128) :
    (lblkM L).view.emb (ix2 c l) = ix2 (⟨400 * (L 1).val + 200 * (L 0).val + c.val, by
      have h1 : (L 1).val < 16 := (L 1).isLt
      have h0 : (L 0).val < 2 := (L 0).isLt
      have := c.isLt; omega⟩ : Fin 6400) l := by
  show (Rect.unit (s := S6400x128) (k0_off1 L) S200x128.size (k0_off1_inb L)).emb (ix2 c l) = _
  funext a; apply Fin.ext
  rw [Rect.emb_apply]
  show (k0_off1 L) a + 1 * ((ix2 c l) a).val = _
  rw [k0_off1_eq]
  match a with
  | ⟨0, _⟩ => show 400 * (L 1).val + 200 * (L 0).val + 1 * c.val = 400 * (L 1).val + 200 * (L 0).val + c.val; omega
  | ⟨1, _⟩ => show 0 + 1 * l.val = l.val; omega

/-- The table's window is the whole table. -/
theorem tAll_emb (x : S100000x128.Idx) : (tAll).view.emb x = x := by
  show (Rect.unit (s := S100000x128) ![0, 0] S100000x128.size inb_S100000x128_S100000x128_0_0).emb x = x
  funext a; apply Fin.ext
  rw [Rect.emb_apply]
  match a with
  | ⟨0, _⟩ => show 0 + 1 * (x 0).val = (x 0).val; omega
  | ⟨1, _⟩ => show 0 + 1 * (x 1).val = (x 1).val; omega

/-! ## Reading a window -/

/-- Fetched list `c % 200`, read through its window at entry r, is the scratch array at (c % 200, r). -/
theorem irowM_read (c : ℕ) (fo : S200x128.Idx → BitVec 32) (r : Fin 128) :
    (irowM c).view.read (Elt F) fo (ix1 r) = fo (ix2 (⟨c % 200, Nat.mod_lt _ (by decide)⟩ : Fin 200) r) := by
  rw [View.read_apply, irowM_emb, cast_eq]

/-- Position k of a list of 128 in row-major order is its entry k. -/
theorem rowMajor_symm_S128 (k : Fin S128.numel) :
    S128.rowMajor.symm k = ix1 (⟨k.val, k.isLt⟩ : Fin 128) := by
  rw [Equiv.symm_apply_eq]
  apply Fin.ext
  rw [Shape.rowMajor_val_one]

/-! ## The four facts -/

/-- After the tile's fetch, its index lists are its block of the list array. -/
theorem idxHolds_of_fetch (L : grid0.Coords) (lst : S6400x128.Idx → BitVec 32) (fs : S200x128.Idx → BitVec 32) :
    IdxHolds L lst
      ((Memref.whole cc0_scratch0 : Memref sig .scVector .vmem S200x128 .i32).view.write (Elt F) fs
        ((ReadAs.same : ReadAs (Elt F) S200x128 .i32 S200x128 .i32).apply ((lblkM L).view.read (Elt F) lst)) Finset.univ) := by
  intro c l
  show (View.whole cc0_scratch0).write (Elt F) fs ((lblkM L).view.read (Elt F) lst) Finset.univ (ix2 c l) = _
  rw [View.write_whole_univ, View.read_apply, lblkM_emb, cast_eq]

/-- Every fetched row number is in the table's range when every entry of the list array is. -/
theorem offs_in_range (L : grid0.Coords) (lst : S6400x128.Idx → BitVec 32) (fo : S200x128.Idx → BitVec 32)
    (h : IdxHolds L lst fo) (hl : ∀ j, (lst j).toNat < 100000) (c : ℕ) :
    ∀ x, ((irowM c).view.read (Elt F) fo x).toNat < S100000x128.size gathers_S100000x128_S128x128.axis := by
  intro x
  obtain ⟨r, rfl⟩ : ∃ r : Fin 128, x = ix1 r := ⟨x 0, eq_ix1 x⟩
  rw [irowM_read, h]
  exact hl _

/-- After the gather, row buffer `c % 6` holds the table's rows named by list `c % 200`. -/
theorem slotHolds_of_gather (c : ℕ) (fo : S200x128.Idx → BitVec 32) (tab : S100000x128.Idx → Elt F .f32)
    (fd : S6x128x128.Idx → Elt F .f32)
    (hn : S128.numel = S128x128.size gathers_S100000x128_S128x128.axis')
    (hin : ∀ x, ((irowM c).view.read (Elt F) fo x).toNat < S100000x128.size gathers_S100000x128_S128x128.axis) :
    SlotHolds c fo tab
      ((slotM c).view.write (Elt F) fd
        (SparseCore.gatherPayload gathers_S100000x128_S128x128 ((tAll).view.read (Elt F) tab)
          (SparseCore.rows ((irowM c).view.read (Elt F) fo) hn hin)) Finset.univ) := by
  intro r l
  rw [View.read_write_univ]
  unfold SparseCore.gatherPayload
  rw [View.read_apply, tAll_emb, cast_eq]
  congr 1
  funext a; apply Fin.ext
  match a with
  | ⟨0, _⟩ =>
    -- the indexed axis: the row the list names for destination row r
    show (gathers_S100000x128_S128x128.idx _ (ix2 r l) gathers_S100000x128_S128x128.axis).val = _
    rw [Shape.Gathers.idx_axis]
    unfold SparseCore.rows
    show ((irowM c).view.read (Elt F) fo (S128.rowMajor.symm _)).toNat = _
    rw [rowMajor_symm_S128]
    show ((irowM c).view.read (Elt F) fo (ix1 r)).toNat = _
    have hr := hin (ix1 r)
    rw [irowM_read] at hr ⊢
    exact (Spec.rowOf_val hr).symm
  | ⟨1, _⟩ =>
    -- the other axis: the destination's own column
    exact Shape.Gathers.idx_of_ne gathers_S100000x128_S128x128 _ (ix2 r l) ⟨1, by decide⟩ (by decide)

/-- After the write-out of row buffer `c % 6`, chunk `c % 200` of the tile's output rows is the gather. -/
theorem out_of_slot (L : grid0.Coords) (c : ℕ) (hc : c < 200) (lst : S6400x128.Idx → BitVec 32)
    (fo : S200x128.Idx → BitVec 32) (tab : S100000x128.Idx → Elt F .f32)
    (f : S6x128x128.Idx → Elt F .f32) (f0 : S819200x128.Idx → Elt F .f32)
    (hI : IdxHolds L lst fo) (hS : SlotHolds c fo tab f) :
    ∀ x ∈ (ochM L c).view.set,
      (ochM L c).view.write (Elt F) f0
        ((ReadAs.same : ReadAs (Elt F) S128x128 .f32 S128x128 .f32).apply ((slotM c).view.read (Elt F) f)) Finset.univ x
        = Spec.gatherOut lst tab x := by
  intro x hx
  obtain ⟨y, -, rfl⟩ := Finset.mem_map.mp hx
  obtain ⟨r, l, rfl⟩ : ∃ (r l : Fin 128), y = ix2 r l := ⟨y 0, y 1, eq_ix2 y⟩
  have h1 : (L 1).val < 16 := (L 1).isLt
  have h0 : (L 0).val < 2 := (L 0).isLt
  have hc' : c % 200 < 200 := Nat.mod_lt _ (by decide)
  have hr : r.val < 128 := r.isLt
  rw [View.write_emb_of_mem _ _ (Finset.mem_univ _)]
  show cast _ ((slotM c).view.read (Elt F) f (ix2 r l)) = _
  rw [cast_eq, hS r l, ochM_emb, hI]
  unfold Spec.gatherOut Spec.listAt
  -- row base + 128 (c % 200) + r of the output is list 400 L1 + 200 L0 + c % 200, entry r
  show tab (ix2 (Spec.rowOf (lst (ix2 (⟨400 * (L 1).val + 200 * (L 0).val + c % 200, _⟩ : Fin 6400) r))) l)
     = tab (ix2 (Spec.rowOf (lst (ix2 (⟨(base L + 128 * (c % 200) + r.val) / 128, _⟩ : Fin 6400)
                                      (⟨(base L + 128 * (c % 200) + r.val) % 128, _⟩ : Fin 128)))) l)
  have e1 : (⟨(base L + 128 * (c % 200) + r.val) / 128, by have := base_le L; omega⟩ : Fin 6400)
      = ⟨400 * (L 1).val + 200 * (L 0).val + c % 200, by omega⟩ :=
    Fin.ext (by show (base L + 128 * (c % 200) + r.val) / 128 = 400 * (L 1).val + 200 * (L 0).val + c % 200; unfold base; omega)
  have e2 : (⟨(base L + 128 * (c % 200) + r.val) % 128, Nat.mod_lt _ (by decide)⟩ : Fin 128) = r :=
    Fin.ext (by show (base L + 128 * (c % 200) + r.val) % 128 = r.val; unfold base; omega)
  rw [e1, e2]

end Cert.Proof.KernelP
end
-- ==== Proof.LoopDefsB.lean ====
import proofs.«206364_g2774548873608_retrytranche1_142_25_alg».proof.Proof.StepsB
import proofs.«206364_g2774548873608_retrytranche1_142_25_alg».proof.Proof.PayloadB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The loop: every chunk's state before trip `k` -/

section Loop

variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)
variable (O : CellTallies nD τ sig (HIx 1)) (W : Waits sig (HIx 1))

/-- Before trip `k`: chunks up to `k - 2` (and below 194) are done, chunk `k - 1` (and those from 194 on) is being
    written out, chunks `k … k + 4` are being gathered, the rest are not begun. -/
def st (k c : ℕ) : sProp 𝕄 :=
  if c + 1 < k ∧ c < 194 then Dn d L lst tab fo c
  else if c < k then Ps d L qT lst tab fo c
  else if c < k + 5 then Gs d L qT tab fo f0 c
  else Fr d L fo f0 c

theorem st_dn {k c : ℕ} (h : c + 1 < k ∧ c < 194) : st d L qT lst tab fo f0 k c = Dn d L lst tab fo c := if_pos h
theorem st_ps {k c : ℕ} (h : ¬(c + 1 < k ∧ c < 194)) (h' : c < k) : st d L qT lst tab fo f0 k c = Ps d L qT lst tab fo c :=
  (if_neg h).trans (if_pos h')
theorem st_gs {k c : ℕ} (h : k ≤ c) (h' : c < k + 5) : st d L qT lst tab fo f0 k c = Gs d L qT tab fo f0 c :=
  (if_neg (by omega)).trans ((if_neg (by omega)).trans (if_pos h'))
theorem st_fr {k c : ℕ} (h : k + 5 ≤ c) : st d L qT lst tab fo f0 k c = Fr d L fo f0 c :=
  (if_neg (by omega)).trans ((if_neg (by omega)).trans (if_neg (by omega)))

def Inv (k : ℕ) (_ : Unit) : sProp 𝕄 :=
  iprop(Transfers.MayWaits (thrV d L) (default : HIx 1) O
    ∗ bigSep (Finset.range 200) (st d L qT lst tab fo f0 k)
    ∗ (if k = 0 then Idle d L qT tab 5 else emp)
    ∗ ∃ W', ⌜∀ p ∈ W', p ∈ W ∨ p.2 = none⌝ ∗ owes (thrV d L) O W')

theorem trips_eq : k0_t1_loop.trips = 200 := by decide
theorem cond1_iff : ∀ k : Fin k0_t1_loop.trips, k0_cond1 k = 1#1 ↔ k.val + 5 < 200 := by decide +kernel
theorem cond2_iff : ∀ k : Fin k0_t1_loop.trips, k0_cond2 k = 1#1 ↔ 1 ≤ k.val := by decide +kernel

local notation "tV" => (Memref.whole Cert.Kernel.main_arg1_scv : Memref Cert.Kernel.sig Kind.scVector Space.hbm Cert.Kernel.S100000x128 EltTy.f32)
local notation "lV" => (Memref.whole Cert.Kernel.main_v1_scv : Memref Cert.Kernel.sig Kind.scVector Space.hbm Cert.Kernel.S6400x128 EltTy.i32)
local notation "oV" => (Memref.whole Cert.Kernel.main_v2_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S6x128x128 EltTy.f32)

/-! The trip's windows and semaphores are the canonical ones. -/

theorem gsem_off4 (k : Fin k0_t1_loop.trips) (p) :
    ((SemArray.slice cc0_scratch2 (Rect.unit (s := S6) (k0_off4 k) S1.size p)).squeeze S_ squeezes_S1_S_).sem = gsemM k.val := by
  unfold gsemM; rw [SemArray.slice_unit_congr cc0_scratch2 (k0_off4_eq k)]
theorem psem_off4 (k : Fin k0_t1_loop.trips) (p) :
    ((SemArray.slice cc0_scratch3 (Rect.unit (s := S6) (k0_off4 k) S1.size p)).squeeze S_ squeezes_S1_S_).sem = psemM k.val := by
  unfold psemM; rw [SemArray.slice_unit_congr cc0_scratch3 (k0_off4_eq k)]
theorem slot_off2 (k : Fin k0_t1_loop.trips) (p) (q) :
    ((rV).slice (Rect.unit (s := S6x128x128) (k0_off2 k) S1x128x128.size p) q).squeeze S128x128 squeezes_S1x128x128_S128x128 = slotM k.val := by
  unfold slotM; rw [Memref.slice_unit_congr (rV) (k0_off2_eq k)]
theorem och_off5 (k : Fin k0_t1_loop.trips) (p) (q) :
    (oV).slice (Rect.unit (s := S819200x128) (k0_off5 L k) S128x128.size p) q = ochM L k.val := by
  have hk : k.val < 200 := trips_eq ▸ k.isLt
  unfold ochM; rw [Memref.slice_unit_congr (oV) (show k0_off5 L k = ![base L + 128 * (k.val % 200), 0] by
    rw [k0_off5_eq, Nat.mod_eq_of_lt hk]; rfl)]
theorem psem_off8 (k : Fin k0_t1_loop.trips) (hk1 : 1 ≤ k.val) (p) :
    ((SemArray.slice cc0_scratch3 (Rect.unit (s := S6) (k0_off8 k) S1.size p)).squeeze S_ squeezes_S1_S_).sem = psemM (k.val - 1) := by
  unfold psemM; rw [SemArray.slice_unit_congr cc0_scratch3 (show k0_off8 k = ![(k.val - 1) % 6] by
    rw [k0_off8_eq, show (k.val + 5) % 6 = (k.val - 1) % 6 by omega])]
theorem slot_off9 (k : Fin k0_t1_loop.trips) (p) (q) :
    ((rV).slice (Rect.unit (s := S6x128x128) (k0_off9 k) S1x128x128.size p) q).squeeze S128x128 squeezes_S1x128x128_S128x128 = slotM (k.val + 5) := by
  unfold slotM; rw [Memref.slice_unit_congr (rV) (k0_off9_eq k)]
theorem irow_off10 (k : Fin k0_t1_loop.trips) (hk5 : k.val + 5 < 200) (p) (q) :
    ((iV).slice (Rect.unit (s := S200x128) (k0_off10 k) S1x128.size p) q).squeeze S128 squeezes_S1x128_S128 = irowM (k.val + 5) := by
  unfold irowM; rw [Memref.slice_unit_congr (iV) (show k0_off10 k = ![(k.val + 5) % 200, 0] by rw [k0_off10_eq, Nat.mod_eq_of_lt hk5])]
theorem gsem_off11 (k : Fin k0_t1_loop.trips) (p) :
    ((SemArray.slice cc0_scratch2 (Rect.unit (s := S6) (k0_off11 k) S1.size p)).squeeze S_ squeezes_S1_S_).sem = gsemM (k.val + 5) := by
  unfold gsemM; rw [SemArray.slice_unit_congr cc0_scratch2 (k0_off11_eq k)]

theorem slot_credit (off : Fin 3 → Nat) (p) (q) :
    (((rV).slice (Rect.unit (s := S6x128x128) off S1x128x128.size p) q).squeeze S128x128 squeezes_S1x128x128_S128x128).view.dmaCredit = gN := rfl
theorem och_credit (off : Fin 2 → Nat) (p) (q) :
    ((oV).slice (Rect.unit (s := S819200x128) off S128x128.size p) q).view.dmaCredit = pN L := rfl

theorem sl_pred (k : ℕ) (hk1 : 1 ≤ k) : sl (k - 1) = sl (k + 5) := Fin.ext (by show (k - 1) % 6 = (k + 5) % 6; omega)

end Loop

end Cert.Proof.KernelP
end
-- ==== Proof.TripB.lean ====
import proofs.«206364_g2774548873608_retrytranche1_142_25_alg».proof.Proof.LoopDefsB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One trip of the loop keeps every chunk's state in step -/

section Loop
variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)
variable (O : CellTallies nD τ sig (HIx 1)) (W : Waits sig (HIx 1))
local notation "tV" => (Memref.whole Cert.Kernel.main_arg1_scv : Memref Cert.Kernel.sig Kind.scVector Space.hbm Cert.Kernel.S100000x128 EltTy.f32)
local notation "lV" => (Memref.whole Cert.Kernel.main_v1_scv : Memref Cert.Kernel.sig Kind.scVector Space.hbm Cert.Kernel.S6400x128 EltTy.i32)
local notation "oV" => (Memref.whole Cert.Kernel.main_v2_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S6x128x128 EltTy.f32)

/-! A chunk the trip does not touch keeps its state. -/

theorem st_next_mid {k c : ℕ} (hk1 : 1 ≤ k) (hk5 : k + 5 < 200) (h0 : c ≠ k) (h1 : c ≠ k - 1) (h2 : c ≠ k + 5) :
    st d L qT lst tab fo f0 (k + 1) c = st d L qT lst tab fo f0 k c := by
  rcases Nat.lt_or_ge c k with h | h
  · rw [st_dn d L qT lst tab fo f0 (k := k + 1) (c := c) ⟨by omega, by omega⟩, st_dn d L qT lst tab fo f0 (k := k) (c := c) ⟨by omega, by omega⟩]
  · rcases Nat.lt_or_ge c (k + 5) with h' | h'
    · rw [st_gs d L qT lst tab fo f0 (k := k + 1) (c := c) (by omega) (by omega), st_gs d L qT lst tab fo f0 (k := k) (c := c) h h']
    · rw [st_fr d L qT lst tab fo f0 (k := k + 1) (c := c) (by omega), st_fr d L qT lst tab fo f0 (k := k) (c := c) h']

theorem st_next_first {c : ℕ} (h0 : c ≠ 0) (h5 : c ≠ 5) :
    st d L qT lst tab fo f0 1 c = st d L qT lst tab fo f0 0 c := by
  rcases Nat.lt_or_ge c 5 with h | h
  · rw [st_gs d L qT lst tab fo f0 (k := 1) (c := c) (by omega) (by omega), st_gs d L qT lst tab fo f0 (k := 0) (c := c) (by omega) (by omega)]
  · rw [st_fr d L qT lst tab fo f0 (k := 1) (c := c) (by omega), st_fr d L qT lst tab fo f0 (k := 0) (c := c) (by omega)]

theorem st_next_last {k c : ℕ} (hk : 195 ≤ k) (hc : c < 200) (h0 : c ≠ k) :
    st d L qT lst tab fo f0 (k + 1) c = st d L qT lst tab fo f0 k c := by
  rcases Nat.lt_or_ge c k with h | h
  · rcases Nat.lt_or_ge c 194 with h' | h'
    · rw [st_dn d L qT lst tab fo f0 (k := k + 1) (c := c) ⟨by omega, h'⟩, st_dn d L qT lst tab fo f0 (k := k) (c := c) ⟨by omega, h'⟩]
    · rw [st_ps d L qT lst tab fo f0 (k := k + 1) (c := c) (by omega) (by omega), st_ps d L qT lst tab fo f0 (k := k) (c := c) (by omega) h]
  · rw [st_gs d L qT lst tab fo f0 (k := k + 1) (c := c) (by omega) (by omega), st_gs d L qT lst tab fo f0 (k := k) (c := c) h (by omega)]

set_option maxHeartbeats 4000000 in
/-- The first trip: chunk 0's gather is waited for and its write-out issued; chunk 5's gather goes into the one
    row buffer still idle. -/
theorem trip_first (hI : IdxHolds L lst fo) (hl : ∀ j, (lst j).toNat < 100000) (v2 : BitVec 32) (k : Fin k0_t1_loop.trips) (u : Unit)
    (hk0 : k.val = 0) :
    Inv d L qT lst tab fo f0 O W k.val u
      ⊢ wp frame (wpE (defs₀ (F := F)) 𝒱₀ (thrV d L) none) Set.univ
          (k0_t1_body L tV (Memref.isWhole_whole _) lV (Memref.isWhole_whole _) oV (Memref.isWhole_whole _)
            iV (Memref.isWhole_whole _) rV (Memref.isWhole_whole _) cc0_scratch2 cc0_scratch3 cc0_scoped0 v2 k u)
          (Inv d L qT lst tab fo f0 O W (k.val + 1)) := by
  have hk : k.val < 200 := trips_eq ▸ k.isLt
  have hk5 : k.val + 5 < 200 := by omega
  have k0_h1 : k0_cond1 k = 1#1 := (cond1_iff k).mpr hk5
  have k0_h2 : ¬ k0_cond2 k = 1#1 := fun h => by have := (cond2_iff k).mp h; omega
  have m0 : k.val ∈ Finset.range 200 := Finset.mem_range.mpr hk
  have m2 : k.val + 5 ∈ (Finset.range 200).erase k.val := Finset.mem_erase.mpr ⟨by omega, Finset.mem_range.mpr hk5⟩
  unfold k0_t1_body Inv
  rw [if_pos hk0]
  iintro ⟨#Hmw, Hst, Hidle, %W', %hW', HO⟩
  ihave H := (Entails.of_eq (SparseCore.bigSep_erase' m0)) $$ Hst
  icases H with ⟨Hc0, Hst⟩
  ihave H := (Entails.of_eq (SparseCore.bigSep_erase' m2)) $$ Hst
  icases H with ⟨Hc2, Hst⟩
  ihave Hc0 := (Entails.of_eq (st_gs d L qT lst tab fo f0 (k := k.val) (c := k.val) (le_refl _) (by omega))) $$ Hc0
  ihave Hc2 := (Entails.of_eq (st_fr d L qT lst tab fo f0 (k := k.val) (c := k.val + 5) (le_refl _))) $$ Hc2
  ihave Hidle := (Entails.of_eq (congrArg (Idle d L qT tab) (show (5 : Fin 6) = sl (k.val + 5) from Fin.ext (by show 5 = (k.val + 5) % 6; omega)))) $$ Hidle
  sl_exec
  iapply (wp_gatherWait d L qT tab fo f0 k.val O W' (hsem := gsem_off4 k _) (hN := slot_credit _ _ _)) $$ [Hc0 HO]
  · isplitr; · iexact Hmw
    isplitl [Hc0]; · iexact Hc0
    iexact HO
  iintro ⟨Hgd, HO⟩
  sl_exec
  iapply (wp_putIssue d L qT lst tab fo f0 k.val (hs := slot_off2 k _ _) (hd := och_off5 L k _ _) (hse := psem_off4 k _)
      (hF2 := fun f hf => out_of_slot L k.val hk lst fo tab f f0 hI hf)) $$ Hgd
  iintro Hps
  sl_exec
  iapply (wp_gatherIssue d L qT tab fo f0 (k.val + 5) (hs := rfl) (hd := slot_off9 k _ _) (ho := irow_off10 k hk5 _ _) (hse := gsem_off11 k _)
      (hin := offs_in_range L lst fo hI hl (k.val + 5)) (hF1 := fun fd => slotHolds_of_gather (k.val + 5) fo tab fd _ _)) $$ [Hc2 Hidle]
  · isplitl [Hc2]; · iexact Hc2
    iexact Hidle
  iintro Hgs
  sl_exec
  sl_step
  isplitr; · iexact Hmw
  isplitl [Hst Hps Hgs]
  · iapply (Entails.of_eq (SparseCore.bigSep_erase' m0).symm)
    isplitl [Hps]
    · iapply (Entails.of_eq (st_ps d L qT lst tab fo f0 (k := k.val + 1) (c := k.val) (by omega) (by omega)).symm); iexact Hps
    iapply (Entails.of_eq (SparseCore.bigSep_erase' m2).symm)
    isplitl [Hgs]
    · iapply (Entails.of_eq (st_gs d L qT lst tab fo f0 (k := k.val + 1) (c := k.val + 5) (by omega) (by omega)).symm); iexact Hgs
    iapply (Entails.of_eq (bigSep_congr fun c hc => by
      obtain ⟨h2, hc⟩ := Finset.mem_erase.mp hc
      obtain ⟨h0, -⟩ := Finset.mem_erase.mp hc
      rw [hk0] at h0 h2 ⊢
      exact (st_next_first d L qT lst tab fo f0 h0 h2).symm)) $$ Hst
  isplitr
  · rw [if_neg (Nat.succ_ne_zero _)]; iempintro
  iexists _; isplitr
  swap; · iexact HO
  ipureintro; intro p hp
  rcases Finset.mem_insert.mp hp with hp | hp; · exact .inr (hp ▸ rfl)
  exact hW' p hp
set_option maxHeartbeats 4000000 in
/-- A trip in the middle of the loop: chunk k's gather is waited for and its write-out issued, chunk k - 1's
    write-out is waited for, and chunk k + 5's gather issued into the row buffer that frees. -/
theorem trip_mid (hI : IdxHolds L lst fo) (hl : ∀ j, (lst j).toNat < 100000) (v2 : BitVec 32) (k : Fin k0_t1_loop.trips) (u : Unit)
    (hk1 : 1 ≤ k.val) (hk5 : k.val + 5 < 200) :
    Inv d L qT lst tab fo f0 O W k.val u
      ⊢ wp frame (wpE (defs₀ (F := F)) 𝒱₀ (thrV d L) none) Set.univ
          (k0_t1_body L tV (Memref.isWhole_whole _) lV (Memref.isWhole_whole _) oV (Memref.isWhole_whole _)
            iV (Memref.isWhole_whole _) rV (Memref.isWhole_whole _) cc0_scratch2 cc0_scratch3 cc0_scoped0 v2 k u)
          (Inv d L qT lst tab fo f0 O W (k.val + 1)) := by
  have hk : k.val < 200 := trips_eq ▸ k.isLt
  have k0_h1 : k0_cond1 k = 1#1 := (cond1_iff k).mpr hk5
  have k0_h2 : k0_cond2 k = 1#1 := (cond2_iff k).mpr hk1
  have m0 : k.val ∈ Finset.range 200 := Finset.mem_range.mpr hk
  have m1 : k.val - 1 ∈ (Finset.range 200).erase k.val := Finset.mem_erase.mpr ⟨by omega, Finset.mem_range.mpr (by omega)⟩
  have m2 : k.val + 5 ∈ ((Finset.range 200).erase k.val).erase (k.val - 1) :=
    Finset.mem_erase.mpr ⟨by omega, Finset.mem_erase.mpr ⟨by omega, Finset.mem_range.mpr hk5⟩⟩
  unfold k0_t1_body Inv
  iintro ⟨#Hmw, Hst, -, %W', %hW', HO⟩
  ihave H := (Entails.of_eq (SparseCore.bigSep_erase' m0)) $$ Hst
  icases H with ⟨Hc0, Hst⟩
  ihave H := (Entails.of_eq (SparseCore.bigSep_erase' m1)) $$ Hst
  icases H with ⟨Hc1, Hst⟩
  ihave H := (Entails.of_eq (SparseCore.bigSep_erase' m2)) $$ Hst
  icases H with ⟨Hc2, Hst⟩
  ihave Hc0 := (Entails.of_eq (st_gs d L qT lst tab fo f0 (k := k.val) (c := k.val) (le_refl _) (by omega))) $$ Hc0
  ihave Hc1 := (Entails.of_eq (st_ps d L qT lst tab fo f0 (k := k.val) (c := k.val - 1) (by omega) (by omega))) $$ Hc1
  ihave Hc2 := (Entails.of_eq (st_fr d L qT lst tab fo f0 (k := k.val) (c := k.val + 5) (le_refl _))) $$ Hc2
  sl_exec
  iapply (wp_gatherWait d L qT tab fo f0 k.val O W' (hsem := gsem_off4 k _) (hN := slot_credit _ _ _)) $$ [Hc0 HO]
  · isplitr; · iexact Hmw
    isplitl [Hc0]; · iexact Hc0
    iexact HO
  iintro ⟨Hgd, HO⟩
  sl_exec
  iapply (wp_putIssue d L qT lst tab fo f0 k.val (hs := slot_off2 k _ _) (hd := och_off5 L k _ _) (hse := psem_off4 k _)
      (hF2 := fun f hf => out_of_slot L k.val hk lst fo tab f f0 hI hf)) $$ Hgd
  iintro Hps
  sl_exec
  iapply (wp_putWait d L qT lst tab fo (k.val - 1) O _ (hsem := psem_off8 k hk1 _) (hN := och_credit L _ _ _)) $$ [Hc1 HO]
  · isplitr; · iexact Hmw
    isplitl [Hc1]; · iexact Hc1
    iexact HO
  iintro ⟨Hdn, Hidle, HO⟩
  ihave Hidle := (Entails.of_eq (congrArg (Idle d L qT tab) (sl_pred k.val hk1))) $$ Hidle
  sl_exec
  iapply (wp_gatherIssue d L qT tab fo f0 (k.val + 5) (hs := rfl) (hd := slot_off9 k _ _) (ho := irow_off10 k hk5 _ _) (hse := gsem_off11 k _)
      (hin := offs_in_range L lst fo hI hl (k.val + 5)) (hF1 := fun fd => slotHolds_of_gather (k.val + 5) fo tab fd _ _)) $$ [Hc2 Hidle]
  · isplitl [Hc2]; · iexact Hc2
    iexact Hidle
  iintro Hgs
  sl_exec
  sl_step
  isplitr; · iexact Hmw
  isplitl [Hst Hps Hdn Hgs]
  · iapply (Entails.of_eq (SparseCore.bigSep_erase' m0).symm)
    isplitl [Hps]
    · iapply (Entails.of_eq (st_ps d L qT lst tab fo f0 (k := k.val + 1) (c := k.val) (by omega) (by omega)).symm); iexact Hps
    iapply (Entails.of_eq (SparseCore.bigSep_erase' m1).symm)
    isplitl [Hdn]
    · iapply (Entails.of_eq (st_dn d L qT lst tab fo f0 (k := k.val + 1) (c := k.val - 1) ⟨by omega, by omega⟩).symm); iexact Hdn
    iapply (Entails.of_eq (SparseCore.bigSep_erase' m2).symm)
    isplitl [Hgs]
    · iapply (Entails.of_eq (st_gs d L qT lst tab fo f0 (k := k.val + 1) (c := k.val + 5) (by omega) (by omega)).symm); iexact Hgs
    iapply (Entails.of_eq (bigSep_congr fun c hc => by
      obtain ⟨h2, hc⟩ := Finset.mem_erase.mp hc
      obtain ⟨h1, hc⟩ := Finset.mem_erase.mp hc
      obtain ⟨h0, -⟩ := Finset.mem_erase.mp hc
      exact (st_next_mid d L qT lst tab fo f0 hk1 hk5 h0 h1 h2).symm)) $$ Hst
  isplitr
  · rw [if_neg (Nat.succ_ne_zero _)]; iempintro
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
/-- One of the last five trips: chunk k's gather is waited for and its write-out issued; nothing is left to gather. -/
theorem trip_last (hI : IdxHolds L lst fo) (v2 : BitVec 32) (k : Fin k0_t1_loop.trips) (u : Unit) (hk195 : 195 ≤ k.val) :
    Inv d L qT lst tab fo f0 O W k.val u
      ⊢ wp frame (wpE (defs₀ (F := F)) 𝒱₀ (thrV d L) none) Set.univ
          (k0_t1_body L tV (Memref.isWhole_whole _) lV (Memref.isWhole_whole _) oV (Memref.isWhole_whole _)
            iV (Memref.isWhole_whole _) rV (Memref.isWhole_whole _) cc0_scratch2 cc0_scratch3 cc0_scoped0 v2 k u)
          (Inv d L qT lst tab fo f0 O W (k.val + 1)) := by
  have hk : k.val < 200 := trips_eq ▸ k.isLt
  have k0_h1 : ¬ k0_cond1 k = 1#1 := fun h => by have := (cond1_iff k).mp h; omega
  have m0 : k.val ∈ Finset.range 200 := Finset.mem_range.mpr hk
  unfold k0_t1_body Inv
  iintro ⟨#Hmw, Hst, -, %W', %hW', HO⟩
  ihave H := (Entails.of_eq (SparseCore.bigSep_erase' m0)) $$ Hst
  icases H with ⟨Hc0, Hst⟩
  ihave Hc0 := (Entails.of_eq (st_gs d L qT lst tab fo f0 (k := k.val) (c := k.val) (le_refl _) (by omega))) $$ Hc0
  sl_exec
  iapply (wp_gatherWait d L qT tab fo f0 k.val O W' (hsem := gsem_off4 k _) (hN := slot_credit _ _ _)) $$ [Hc0 HO]
  · isplitr; · iexact Hmw
    isplitl [Hc0]; · iexact Hc0
    iexact HO
  iintro ⟨Hgd, HO⟩
  sl_exec
  iapply (wp_putIssue d L qT lst tab fo f0 k.val (hs := slot_off2 k _ _) (hd := och_off5 L k _ _) (hse := psem_off4 k _)
      (hF2 := fun f hf => out_of_slot L k.val hk lst fo tab f f0 hI hf)) $$ Hgd
  iintro Hps
  sl_exec
  sl_step
  isplitr; · iexact Hmw
  isplitl [Hst Hps]
  · iapply (Entails.of_eq (SparseCore.bigSep_erase' m0).symm)
    isplitl [Hps]
    · iapply (Entails.of_eq (st_ps d L qT lst tab fo f0 (k := k.val + 1) (c := k.val) (by omega) (by omega)).symm); iexact Hps
    iapply (Entails.of_eq (bigSep_congr fun c hc => by
      obtain ⟨h0, hc⟩ := Finset.mem_erase.mp hc
      exact (st_next_last d L qT lst tab fo f0 hk195 (Finset.mem_range.mp hc) h0).symm)) $$ Hst
  isplitr
  · rw [if_neg (Nat.succ_ne_zero _)]; iempintro
  iexists _; isplitr
  swap; · iexact HO
  ipureintro; intro p hp
  rcases Finset.mem_insert.mp hp with hp | hp; · exact .inr (hp ▸ rfl)
  exact hW' p hp

/-- Every trip keeps the loop's invariant. -/
theorem trip (hI : IdxHolds L lst fo) (hl : ∀ j, (lst j).toNat < 100000) (v2 : BitVec 32) (k : Fin k0_t1_loop.trips) (u : Unit) :
    Inv d L qT lst tab fo f0 O W k.val u
      ⊢ wp frame (wpE (defs₀ (F := F)) 𝒱₀ (thrV d L) none) Set.univ
          (k0_t1_body L tV (Memref.isWhole_whole _) lV (Memref.isWhole_whole _) oV (Memref.isWhole_whole _)
            iV (Memref.isWhole_whole _) rV (Memref.isWhole_whole _) cc0_scratch2 cc0_scratch3 cc0_scoped0 v2 k u)
          (Inv d L qT lst tab fo f0 O W (k.val + 1)) := by
  rcases Nat.eq_zero_or_pos k.val with h0 | h1
  · exact trip_first d L qT lst tab fo f0 O W hI hl v2 k u h0
  · rcases Nat.lt_or_ge (k.val + 5) 200 with h5 | h5
    · exact trip_mid d L qT lst tab fo f0 O W hI hl v2 k u h1 h5
    · exact trip_last d L qT lst tab fo f0 O W hI v2 k u (by omega)

end Loop
end Cert.Proof.KernelP
end
-- ==== Proof.InvB.lean ====
import proofs.«206364_g2774548873608_retrytranche1_142_25_alg».proof.Proof.LoopDefsB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Separating products over a few named indices -/

/-- Separating conjunction is associative, as an equation. -/
theorem sepA (P Q R : sProp 𝕄) : iprop((P ∗ Q) ∗ R) = iprop(P ∗ Q ∗ R) := by
  have h : (iprop((P ∗ Q) ∗ R) : sProp 𝕄) ⊣⊢ iprop(P ∗ Q ∗ R) := sep_assoc
  exact BI.equiv_iff.mp ⟨h.1, h.2⟩

theorem range5_eq : Finset.range 5 = {0, 1, 2, 3, 4} := by
  ext c; simp only [Finset.mem_range, Finset.mem_insert, Finset.mem_singleton]; omega
theorem tail6_eq : Finset.range 200 \ Finset.range 194 = {194, 195, 196, 197, 198, 199} := by
  ext c; simp only [Finset.mem_sdiff, Finset.mem_range, Finset.mem_insert, Finset.mem_singleton]; omega

theorem bigSep_range5 (Φ : ℕ → sProp 𝕄) :
    bigSep (Finset.range 5) Φ = iprop(Φ 0 ∗ Φ 1 ∗ Φ 2 ∗ Φ 3 ∗ Φ 4) := by
  rw [range5_eq, SparseCore.bigSep_insert' (by decide), SparseCore.bigSep_insert' (by decide),
    SparseCore.bigSep_insert' (by decide), SparseCore.bigSep_insert' (by decide), BI.bigSep_singleton]

theorem bigSep_tail6 (Φ : ℕ → sProp 𝕄) :
    bigSep (Finset.range 200 \ Finset.range 194) Φ = iprop(Φ 194 ∗ Φ 195 ∗ Φ 196 ∗ Φ 197 ∗ Φ 198 ∗ Φ 199) := by
  rw [tail6_eq, SparseCore.bigSep_insert' (by decide), SparseCore.bigSep_insert' (by decide),
    SparseCore.bigSep_insert' (by decide), SparseCore.bigSep_insert' (by decide), SparseCore.bigSep_insert' (by decide),
    BI.bigSep_singleton]

/-- A separating product over the six row buffers, written out. -/
theorem fin6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, SparseCore.bigSep_insert' (by decide),
    SparseCore.bigSep_insert' (by decide), SparseCore.bigSep_insert' (by decide), SparseCore.bigSep_insert' (by decide),
    SparseCore.bigSep_insert' (by decide), BI.bigSep_singleton]

theorem sub5 : Finset.range 5 ⊆ Finset.range 200 := Finset.range_subset_range.mpr (by omega)
theorem sub194 : Finset.range 194 ⊆ Finset.range 200 := Finset.range_subset_range.mpr (by omega)

/-! ## The chunk states' table from one trip to the next, at the start and at the end -/

section Loop

variable [FloatOps F]
variable (d : Dev nD) (L : grid0.Coords) (qT : PosShare TreeShare)
variable (lst : S6400x128.Idx → BitVec 32) (tab : S100000x128.Idx → Elt F .f32)
variable (fo : S200x128.Idx → BitVec 32) (f0 : S819200x128.Idx → Elt F .f32)

/-- A middle trip `k` changes the state of chunks `k - 1`, `k` and `k + 5` only. -/
theorem st_step_mid {k c : ℕ} (hk1 : 1 ≤ k) (hk5 : k + 5 < 200) (h0 : c ≠ k) (h1 : c ≠ k - 1) (h2 : c ≠ k + 5) :
    st d L qT lst tab fo f0 (k + 1) c = st d L qT lst tab fo f0 k c := by
  by_cases hA : c + 1 < k
  · rw [st_dn d L qT lst tab fo f0 (k := k + 1) ⟨by omega, by omega⟩, st_dn d L qT lst tab fo f0 (k := k) ⟨hA, by omega⟩]
  · by_cases hB : c < k + 5
    · rw [st_gs d L qT lst tab fo f0 (k := k + 1) (by omega) (by omega), st_gs d L qT lst tab fo f0 (k := k) (by omega) (by omega)]
    · rw [st_fr d L qT lst tab fo f0 (k := k + 1) (by omega), st_fr d L qT lst tab fo f0 (k := k) (by omega)]

/-- The first trip changes the state of chunks `0` and `5` only. -/
theorem st_step_first {c : ℕ} (h0 : c ≠ 0) (h5 : c ≠ 5) :
    st d L qT lst tab fo f0 1 c = st d L qT lst tab fo f0 0 c := by
  by_cases hB : c < 5
  · rw [st_gs d L qT lst tab fo f0 (k := 1) (by omega) (by omega), st_gs d L qT lst tab fo f0 (k := 0) (by omega) (by omega)]
  · rw [st_fr d L qT lst tab fo f0 (k := 1) (by omega), st_fr d L qT lst tab fo f0 (k := 0) (by omega)]

/-- One of the last trips changes the state of chunk `k` only. -/
theorem st_step_last {k c : ℕ} (hk : 195 ≤ k) (hc : c < 200) (h0 : c ≠ k) :
    st d L qT lst tab fo f0 (k + 1) c = st d L qT lst tab fo f0 k c := by
  by_cases hA : c < 194
  · rw [st_dn d L qT lst tab fo f0 (k := k + 1) ⟨by omega, hA⟩, st_dn d L qT lst tab fo f0 (k := k) ⟨by omega, hA⟩]
  · by_cases hB : c < k
    · rw [st_ps d L qT lst tab fo f0 (k := k + 1) (by omega) (by omega), st_ps d L qT lst tab fo f0 (k := k) (by omega) hB]
    · rw [st_gs d L qT lst tab fo f0 (k := k + 1) (by omega) (by omega), st_gs d L qT lst tab fo f0 (k := k) (by omega) (by omega)]

/-! ## The table at trip 0 and at trip 200 -/

theorem fr_first5 :
    bigSep (Finset.range 200) (Fr d L fo f0)
      = iprop(Fr d L fo f0 0 ∗ Fr d L fo f0 1 ∗ Fr d L fo f0 2 ∗ Fr d L fo f0 3 ∗ Fr d L fo f0 4
          ∗ bigSep (Finset.range 200 \ Finset.range 5) (Fr d L fo f0)) := by
  rw [SparseCore.bigSep_sdiff_split' sub5, bigSep_range5]
  simp only [sepA]

theorem inv0_eq :
    bigSep (Finset.range 200) (st d L qT lst tab fo f0 0)
      = iprop(Gs d L qT tab fo f0 0 ∗ Gs d L qT tab fo f0 1 ∗ Gs d L qT tab fo f0 2 ∗ Gs d L qT tab fo f0 3 ∗ Gs d L qT tab fo f0 4
          ∗ bigSep (Finset.range 200 \ Finset.range 5) (Fr d L fo f0)) := by
  have e1 : bigSep (Finset.range 5) (st d L qT lst tab fo f0 0) = bigSep (Finset.range 5) (Gs d L qT tab fo f0) :=
    BI.bigSep_congr fun c hc => st_gs d L qT lst tab fo f0 (Nat.zero_le c) (by have := Finset.mem_range.mp hc; omega)
  have e2 : bigSep (Finset.range 200 \ Finset.range 5) (st d L qT lst tab fo f0 0)
      = bigSep (Finset.range 200 \ Finset.range 5) (Fr d L fo f0) :=
    BI.bigSep_congr fun c hc => st_fr d L qT lst tab fo f0 (by
      have := Finset.mem_sdiff.mp hc; simp only [Finset.mem_range] at this; omega)
  rw [SparseCore.bigSep_sdiff_split' sub5, e1, e2, bigSep_range5]
  simp only [sepA]

theorem fr_all :
    bigSep (Finset.range 200) (Fr d L fo f0)
      = iprop(bigSep (Finset.range 200) (iRowPts d L fo) ∗ bigSep (Finset.range 200) fun c => oChPts d L c f0) :=
  bigSep_sep' (Finset.range 200) (iRowPts d L fo) (fun c => oChPts d L c f0)

theorem inv200_eq :
    bigSep (Finset.range 200) (st d L qT lst tab fo f0 200)
      = iprop(bigSep (Finset.range 194) (Dn d L lst tab fo) ∗ Ps d L qT lst tab fo 194 ∗ Ps d L qT lst tab fo 195
          ∗ Ps d L qT lst tab fo 196 ∗ Ps d L qT lst tab fo 197 ∗ Ps d L qT lst tab fo 198 ∗ Ps d L qT lst tab fo 199) := by
  have e1 : bigSep (Finset.range 194) (st d L qT lst tab fo f0 200) = bigSep (Finset.range 194) (Dn d L lst tab fo) :=
    BI.bigSep_congr fun c hc => st_dn d L qT lst tab fo f0 (by have := Finset.mem_range.mp hc; omega)
  have e2 : bigSep (Finset.range 200 \ Finset.range 194) (st d L qT lst tab fo f0 200)
      = bigSep (Finset.range 200 \ Finset.range 194) (Ps d L qT lst tab fo) :=
    BI.bigSep_congr fun c hc => by
      have := Finset.mem_sdiff.mp hc; simp only [Finset.mem_range] at this
      exact st_ps d L qT lst tab fo f0 (by omega) (by omega)
  rw [SparseCore.bigSep_sdiff_split' sub194, e1, e2, bigSep_tail6]

theorem dn_all :
    iprop(bigSep (Finset.range 194) (Dn d L lst tab fo) ∗ Dn d L lst tab fo 194 ∗ Dn d L lst tab fo 195 ∗ Dn d L lst tab fo 196
        ∗ Dn d L lst tab fo 197 ∗ Dn d L lst tab fo 198 ∗ Dn d L lst tab fo 199)
      = iprop((bigSep (Finset.range 200) fun c => oChPts d L c (Spec.gatherOut lst tab)) ∗ bigSep (Finset.range 200) (iRowPts d L fo)) := by
  rw [← bigSep_tail6 (Dn d L lst tab fo), ← SparseCore.bigSep_sdiff_split' sub194]
  exact bigSep_sep' (Finset.range 200) (fun c => oChPts d L c (Spec.gatherOut lst tab)) (iRowPts d L fo)

/-! ## The six idle row buffers; the table's share in six tokens -/

theorem idle_all :
    (bigSep Finset.univ fun r : Fin 6 => Idle d L qT tab r)
      = iprop((bigSep Finset.univ fun r : Fin 6 =>
            iprop(∃ f : S6x128x128.Idx → Elt F .f32, (slotF r).view.loc (thrV d L) ↦[(slotF r).view.set]{fullShare} f))
          ∗ (bigSep Finset.univ fun r : Fin 6 => semVal ((thrV d L, SemLoc.dma (gsemF r)) : GSem nD τ sig) 0)
          ∗ (bigSep Finset.univ fun r : Fin 6 => semVal ((thrV d L, SemLoc.dma (psemF r)) : GSem nD τ sig) 0)
          ∗ bigSep Finset.univ fun r : Fin 6 => (tAll).view.loc (thrV d L) ↦[(tAll).view.set]{Transfers.shareTok qT 6 r} tab) := by
  rw [← bigSep_sep', ← bigSep_sep', ← bigSep_sep']
  rfl

theorem set_tAll : (tAll).view.set = (Finset.univ : Finset S100000x128.Idx) := by
  ext x
  simp only [Finset.mem_univ, iff_true]
  exact (tAll_emb x) ▸ View.emb_mem_set (tAll).view x

theorem tab_toks :
    (tLoc d ↦{qT} tab : sProp 𝕄)
      ⊣⊢ iprop((tLoc d ↦{Transfers.shareDrop qT 6} tab)
          ∗ bigSep Finset.univ fun r : Fin 6 => (tAll).view.loc (thrV d L) ↦[(tAll).view.set]{Transfers.shareTok qT 6 r} tab) := by
  rw [set_tAll]
  exact Transfers.pointsTo_toks (ℓ := tLoc d) (S := Finset.univ) (f := tab) qT 6

end Loop

end Cert.Proof.KernelP
end
-- ==== Proof.OwnB.lean ====
import proofs.«206364_g2774548873608_retrytranche1_142_25_alg».proof.Proof.StepsB
import proofs.«206364_g2774548873608_retrytranche1_142_25_alg».proof.Proof.SplitB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The row scratch among its six row buffers

Row buffer `r` is the elements of the `[6,128,128]` scratch whose first coordinate is `r`; the six are
pairwise disjoint and cover the scratch. -/

theorem set_slotF (r : Fin 6) :
    (slotF r).view.set = (Finset.univ : Finset S6x128x128.Idx).filter fun i => (i 0).val = r.val := by
  show (((Memref.whole cc0_scratch1 : Memref sig .scVector .vmem S6x128x128 .f32).view.slice
      (Rect.unit (s := S6x128x128) ![r.val, 0, 0] S1x128x128.size (rOff_inb r))).reshape S128x128 squeezes_S1x128x128_S128x128.numel_eq).set = _
  rw [View.set_reshape]
  show ((View.whole (cc0_scratch1 : Ref sig .scVector)).slice _).set = _
  rw [View.set_slice_whole]
  ext i
  rw [Rect.mem_set_unit, Finset.mem_filter]
  constructor
  · intro h
    have h0 := h 0
    simp at h0
    exact ⟨Finset.mem_univ _, by omega⟩
  · rintro ⟨-, h⟩ a
    have ha : (i a).val < S6x128x128.size a := (i a).isLt
    fin_cases a <;> simp at ha ⊢ <;> omega

theorem mem_set_slotF (r : Fin 6) (j : S6x128x128.Idx) : j ∈ (slotF r).view.set ↔ (j 0).val = r.val := by
  rw [set_slotF, Finset.mem_filter]
  exact and_iff_right (Finset.mem_univ _)

/-- The row buffer an element of the row scratch lies in. -/
def rB (j : S6x128x128.Idx) : Fin 6 := ⟨(j 0).val, (j 0).isLt⟩

theorem rFibre_eq (r : Fin 6) :
    ((Finset.univ : Finset S6x128x128.Idx).filter fun j => rB j = r) = (slotF r).view.set := by
  ext j
  refine Iff.trans ?_ (mem_set_slotF r j).symm
  simp only [Finset.mem_filter, Finset.mem_univ, true_and, Fin.ext_iff, rB]

/-- The elements of row buffer `r`, as a set of elements of the row scratch. -/
abbrev slotSet (r : Fin 6) : Finset S6x128x128.Idx := (slotF r).view.set

theorem rslots_disjoint : ∀ r ∈ (Finset.univ : Finset (Fin 6)), ∀ r' ∈ (Finset.univ : Finset (Fin 6)), r ≠ r' →
    Disjoint (slotSet r) (slotSet r') :=
  fun r _ r' _ h => Finset.disjoint_left.mpr fun j hj hj' =>
    h (Fin.ext (((mem_set_slotF r j).mp hj).symm.trans ((mem_set_slotF r' j).mp hj')))

theorem rslots_cover : (Finset.univ : Finset (Fin 6)).biUnion slotSet = Finset.univ :=
  Finset.eq_univ_iff_forall.mpr fun j => Finset.mem_biUnion.mpr ⟨rB j, Finset.mem_univ _, (mem_set_slotF (rB j) j).mpr rfl⟩

theorem rSlots_split (d : Dev nD) (c : Fin τ.nSC) (i : Fin τ.nSub) (f : S6x128x128.Idx → Elt F .f32) :
    ((V d c i).loc cc0_scratch1 ↦{fullShare} f : sProp 𝕄)
      = bigSep Finset.univ fun r : Fin 6 => (slotF r).view.loc (V d c i) ↦[(slotF r).view.set]{fullShare} f := by
  rw [pts_fiber (ℓ := (V d c i).loc cc0_scratch1) Finset.univ (Finset.univ : Finset (Fin 6)) rB (fun _ _ => Finset.mem_univ _) fullShare f]
  refine bigSep_congr fun r _ => ?_
  exact congrArg (fun A => ((V d c i).loc cc0_scratch1 ↦[A]{fullShare} f : sProp 𝕄)) (rFibre_eq r)

set_option maxRecDepth 4096 in
theorem rSlots_join [FloatOps F] (d : Dev nD) (c : Fin τ.nSC) (i : Fin τ.nSub) :
    (bigSep Finset.univ fun r : Fin 6 =>
        iprop(∃ f : S6x128x128.Idx → Elt F .f32, (slotF r).view.loc (V d c i) ↦[(slotF r).view.set]{fullShare} f))
      ⊢ (iprop(∃ f, (V d c i).loc cc0_scratch1 ↦{fullShare} f) : sProp 𝕄) := by
  refine (bigSep_exists_pi Finset.univ (fun (r : Fin 6) (f : Buf (Elt F) ((V d c i).loc cc0_scratch1)) =>
    ((V d c i).loc cc0_scratch1 ↦[slotSet r]{fullShare} f : sProp 𝕄))).trans ?_
  iintro ⟨%fs, H⟩
  have : Nonempty (Buf (Elt F) ((V d c i).loc cc0_scratch1)) := ⟨fs 0⟩
  ihave H' := (pointsTo_biUnion_join (ℓ := (V d c i).loc cc0_scratch1) (q := fullShare) (Val := Elt F) Finset.univ
    slotSet fs (fs 0) rslots_disjoint) $$ H
  icases H' with ⟨%g, -, Hg⟩
  rw [rslots_cover]
  iexists g; iexact Hg

/-! ## The tile's own semaphores

The thirteen transfer semaphores of a tile: pool indices `r` (the gathers' of row buffer `r`), `6 + r` (the
write-outs') and `12` (the index fetch's); all scoped on a vector subcore, pairwise different. -/

theorem gsemF_val : ∀ r : Fin 6, (gsemF r).val = r.val := by decide
theorem psemF_val : ∀ r : Fin 6, (psemF r).val = 6 + r.val := by decide
theorem scoped0_val : (cc0_scoped0.sem : DmaSem sig).val = 12 := by decide
theorem gsemF_scoped : ∀ r : Fin 6, (SemLoc.dma (gsemF r) : SemLoc sig).isScoped .scVector = true := by decide
theorem psemF_scoped : ∀ r : Fin 6, (SemLoc.dma (psemF r) : SemLoc sig).isScoped .scVector = true := by decide

section Own

variable (d : Dev nD) (c : Fin τ.nSC) (i : Fin τ.nSub)

abbrev gCellF (r : Fin 6) : GSem nD τ sig := (V d c i, SemLoc.dma (gsemF r))
abbrev pCellF (r : Fin 6) : GSem nD τ sig := (V d c i, SemLoc.dma (psemF r))
abbrev fCell : GSem nD τ sig := (V d c i, SemLoc.dma cc0_scoped0.sem)
abbrev gCells : Finset (GSem nD τ sig) := Finset.univ.image (gCellF d c i)
abbrev pCells : Finset (GSem nD τ sig) := Finset.univ.image (pCellF d c i)

theorem gCellF_inj : Set.InjOn (gCellF d c i) (↑(Finset.univ : Finset (Fin 6))) := fun r _ r' _ e => by
  have h := congrArg Fin.val (SemLoc.dma.inj (Prod.mk.inj e).2)
  rw [gsemF_val, gsemF_val] at h
  exact Fin.ext h
theorem pCellF_inj : Set.InjOn (pCellF d c i) (↑(Finset.univ : Finset (Fin 6))) := fun r _ r' _ e => by
  have h := congrArg Fin.val (SemLoc.dma.inj (Prod.mk.inj e).2)
  rw [psemF_val, psemF_val] at h
  exact Fin.ext (by omega)

theorem gCells_sub : gCells d c i ⊆ ownCells (V d c i) := fun g hg => by
  obtain ⟨r, -, rfl⟩ := Finset.mem_image.mp hg
  exact mem_ownCells.mpr ⟨rfl, gsemF_scoped r⟩
theorem pCells_sub : pCells d c i ⊆ ownCells (V d c i) \ gCells d c i := fun g hg => by
  obtain ⟨r, -, rfl⟩ := Finset.mem_image.mp hg
  refine Finset.mem_sdiff.mpr ⟨mem_ownCells.mpr ⟨rfl, psemF_scoped r⟩, fun hm => ?_⟩
  obtain ⟨r', -, e⟩ := Finset.mem_image.mp hm
  have h := congrArg Fin.val (SemLoc.dma.inj (Prod.mk.inj e).2)
  rw [gsemF_val, psemF_val] at h
  have := r'.isLt
  omega
theorem fCell_mem : fCell d c i ∈ (ownCells (V d c i) \ gCells d c i) \ pCells d c i := by
  refine Finset.mem_sdiff.mpr ⟨Finset.mem_sdiff.mpr ⟨mem_ownCells.mpr ⟨rfl, ?_⟩, fun hm => ?_⟩, fun hm => ?_⟩
  · show (SemLoc.dma cc0_scoped0.sem : SemLoc sig).isScoped .scVector = true; decide
  · obtain ⟨r', -, e⟩ := Finset.mem_image.mp hm
    have h := congrArg Fin.val (SemLoc.dma.inj (Prod.mk.inj e).2)
    rw [gsemF_val, scoped0_val] at h
    have := r'.isLt
    omega
  · obtain ⟨r', -, e⟩ := Finset.mem_image.mp hm
    have h := congrArg Fin.val (SemLoc.dma.inj (Prod.mk.inj e).2)
    rw [psemF_val, scoped0_val] at h
    omega

/-- The tile's own semaphores at zero: the six gathers', the six write-outs', the index fetch's, and the rest. -/
theorem ownSems0_tile :
    (ownSems0 (V d c i) : sProp 𝕄)
      = iprop((bigSep Finset.univ fun r : Fin 6 => semVal ((V d c i, SemLoc.dma (gsemF r)) : GSem nD τ sig) 0)
          ∗ (bigSep Finset.univ fun r : Fin 6 => semVal ((V d c i, SemLoc.dma (psemF r)) : GSem nD τ sig) 0)
          ∗ semVal ((V d c i, SemLoc.dma cc0_scoped0.sem) : GSem nD τ sig) 0
          ∗ bigSep (((ownCells (V d c i) \ gCells d c i) \ pCells d c i).erase (fCell d c i)) fun g => semVal g 0) := by
  unfold SparseCore.Cfg.ownSems0
  rw [SparseCore.bigSep_sdiff_split' (gCells_sub d c i),
    SparseCore.bigSep_sdiff_split' (pCells_sub d c i),
    SparseCore.bigSep_erase' (fCell_mem d c i),
    SparseCore.bigSep_image_of_injOn (gCellF_inj d c i), SparseCore.bigSep_image_of_injOn (pCellF_inj d c i)]

/-! ## The tile's own buffers -/

/-- The two scratch buffers are among the subcore's own: they are them, at some contents, and the rest. -/
theorem ownBufs_tile :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e)
      (show (cc0_scratch1 : Ref sig .scVector) ≠ cc0_scratch0 by decide),
    SparseCore.Cfg.mem_ownRefs_of_owner (p := Proc.scVector c i) (b := (Proc.scVector c i).devRef cc0_scratch1) rfl⟩)]

end Own

end Cert.Proof.KernelP
end
-- ==== Proof.TileB.lean ====
import proofs.«206364_g2774548873608_retrytranche1_142_25_alg».proof.Proof.TripB
import proofs.«206364_g2774548873608_retrytranche1_142_25_alg».proof.Proof.InvB
import proofs.«206364_g2774548873608_retrytranche1_142_25_alg».proof.Proof.OwnB
import proofs.«206364_g2774548873608_retrytranche1_142_25_alg».proof.Proof.PayB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S100000x128 EltTy.f32)
local notation "lV" => (Memref.whole Cert.Kernel.main_v1_scv : Memref Cert.Kernel.sig Kind.scVector Space.hbm Cert.Kernel.S6400x128 EltTy.i32)
local notation "oV" => (Memref.whole Cert.Kernel.main_v2_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S6x128x128 EltTy.f32)

/-! ## One tile's task -/

section Tile

variable [FloatOps F]
variable (m : (ℓ : Loc nD τ sig) → Buf (Elt F) ℓ)
variable (d : Dev nD) (c' : Fin (grid0.bound 0)) (i' : Fin (grid0.bound 1))

theorem slots_ex (fr : S6x128x128.Idx → Elt F .f32) :
    (bigSep Finset.univ fun r : Fin 6 => (slotF r).view.loc (thrV d (coordsV c' i')) ↦[(slotF r).view.set]{fullShare} fr : sProp 𝕄)
      ⊢ bigSep Finset.univ fun r : Fin 6 => iprop(∃ f : S6x128x128.Idx → Elt F .f32, (slotF r).view.loc (thrV d (coordsV c' i')) ↦[(slotF r).view.set]{fullShare} f) :=
  bigSep_mono fun r _ => BI.BIClass.exists_intro (Φ := fun f : S6x128x128.Idx → Elt F .f32 => ((slotF r).view.loc (thrV d (coordsV c' i')) ↦[(slotF r).view.set]{fullShare} f : sProp 𝕄)) fr

set_option maxHeartbeats 16000000 in
theorem tile_body (hF : (K (F := F)).Facts) (hl : ∀ j, (lstOf m d j).toNat < 100000)
    (O : CellTallies nD τ sig (HIx 1)) (W : Waits sig (HIx 1)) (hO : ∀ g, O g none = 0) :
    iprop(levAts (K (F := F)).L (K (F := F)).lev ∗ emp
        ∗ (tileArrs m d c' i' (outOf m d) ∗ tileTab m d c' i')
        ∗ scopedBufs (thrV d (coordsV c' i')) ∗ scopedSems0 (thrV d (coordsV c' i')) ∗ owes (thrV d (coordsV c' i')) O W)
      ⊢ wp frame (wpE (defs₀ (F := F)) 𝒱₀ (thrV d (coordsV c' i')) none) Set.univ
          (cc0_gather_kernel (coordsV c' i') tV (Memref.isWhole_whole _) lV (Memref.isWhole_whole _) oV (Memref.isWhole_whole _)
            iV (Memref.isWhole_whole _) rV (Memref.isWhole_whole _) cc0_scratch2 cc0_scratch3 cc0_scoped0)
          fun _ => iprop((tileArrs m d c' i' (Spec.gatherOut (lstOf m d) (tabOf m d)) ∗ tileTab m d c' i')
            ∗ scopedBufs (thrV d (coordsV c' i')) ∗ scopedSems0 (thrV d (coordsV c' i'))
            ∗ ∃ W', ⌜∀ p ∈ W', p ∈ W ∨ p.2 = none⌝ ∗ owes (thrV d (coordsV c' i')) O W') := by
  simp only [cc0_gather_kernel_eq_skeleton]; unfold cc0_gather_kernel_skel
  simp only [k0_part1_eq_skeleton, k0_part2_eq_skeleton, k0_part3_eq_skeleton]
  rw [(K (F := F)).scopedBufs_V hF d _ _, SparseCore.Cfg.scopedSems0_V (Val := Elt F) d _ _, ownSems0_tile, ownBufs_tile]
  iintro ⟨#Hlv, -, ⟨⟨Hl, Hout⟩, Htab⟩, ⟨⟨%fs, Hs⟩, ⟨%fr, Hr⟩, Hbufs⟩, ⟨Hgsems, Hpsems, Hf, Hsems⟩, HO⟩
  ihave Hmw := (show levAts (K (F := F)).L (K (F := F)).lev ⊢ Transfers.MayWaits (thrV d (coordsV c' i')) (default : HIx 1) O from
    (K (F := F)).mayWaits_none (thr := thrV d (coordsV c' i')) hO) $$ Hlv
  ihave Hl' := (Entails.of_eq (show (lLoc d ↦[(lblkM (coordsV c' i')).view.set]{fullShare} lstOf m d : sProp 𝕄)
      = ((lblkM (coordsV c' i')).view.loc (thrV d (coordsV c' i')) ↦[(lblkM (coordsV c' i')).view.set]{fullShare} lstOf m d) from rfl)) $$ Hl
  ihave Hs' := (Entails.of_eq (show ((thrV d (coordsV c' i')).loc cc0_scratch0 ↦{fullShare} fs : sProp 𝕄)
      = ((iV).view.loc (thrV d (coordsV c' i')) ↦{fullShare} fs) from rfl)) $$ Hs
  -- the fetch of the tile's index lists and its wait
  sl_exec
  -- what the lists' scratch holds now
  ihave Hs2 := (show ((iV).view.loc (thrV d (coordsV c' i')) ↦{fullShare}
        View.write (Elt F) (iV).view fs (tile_body.sl.dma0 m d c' i') Finset.univ : sProp 𝕄)
      ⊢ iprop(∃ fo : S200x128.Idx → BitVec 32, ⌜IdxHolds (coordsV c' i') (lstOf m d) fo⌝ ∗ ((thrV d (coordsV c' i')).loc cc0_scratch0 ↦{fullShare} fo)) from by
    iintro H; iexists (View.write (Elt F) (iV).view fs (tile_body.sl.dma0 m d c' i') Finset.univ); isplitr
    · ipureintro; exact idxHolds_of_fetch (F := F) (coordsV c' i') (lstOf m d) fs
    · iexact H) $$ Hs'
  icases Hs2 with ⟨%fo, %hI, Hs⟩
  -- the lists one by one, the row buffers one by one, the table's share one token per row buffer
  ihave Hrows := (Entails.of_eq (iPts_rows d _ _ fo)) $$ Hs
  ihave Hslots := (Entails.of_eq (rSlots_split d _ _ fr)) $$ Hr
  ihave Hslots := (slots_ex d c' i' fr) $$ Hslots
  ihave Ht := (tab_toks d (coordsV c' i') (tileShare c' i') (tabOf m d)).1 $$ Htab
  icases Ht with ⟨Htrest, Htoks⟩
  ihave Hidle := (Entails.of_eq (idle_all d (coordsV c' i') (tileShare c' i') (tabOf m d)).symm) $$ [Hslots Hgsems Hpsems Htoks]
  · isplitl [Hslots]; · iexact Hslots
    isplitl [Hgsems]; · iexact Hgsems
    isplitl [Hpsems]; · iexact Hpsems
    iexact Htoks
  ihave Hidle := (Entails.of_eq (fin6 (fun r => Idle d (coordsV c' i') (tileShare c' i') (tabOf m d) r))) $$ Hidle
  icases Hidle with ⟨Hid0, Hid1, Hid2, Hid3, Hid4, Hid5⟩
  ihave Hfr := (Entails.of_eq (fr_all d (coordsV c' i') fo (outOf m d)).symm) $$ [Hrows Hout]
  · isplitl [Hrows]; · iexact Hrows
    iexact Hout
  ihave Hfr := (Entails.of_eq (fr_first5 d (coordsV c' i') fo (outOf m d))) $$ Hfr
  icases Hfr with ⟨Hfr0, Hfr1, Hfr2, Hfr3, Hfr4, Hfr⟩
  -- the first five gathers
  iapply (wp_gatherIssue d (coordsV c' i') (tileShare c' i') (tabOf m d) fo (outOf m d) 0 (hs := rfl) (hd := rfl) (ho := rfl) (hse := rfl)
      (hin := offs_in_range (coordsV c' i') (lstOf m d) fo hI hl 0) (hF1 := fun fd => slotHolds_of_gather 0 fo (tabOf m d) fd _ _)) $$ [Hfr0 Hid0]
  · isplitl [Hfr0]; · iexact Hfr0
    iexact Hid0
  iintro Hg0
  sl_exec
  iapply (wp_gatherIssue d (coordsV c' i') (tileShare c' i') (tabOf m d) fo (outOf m d) 1 (hs := rfl) (hd := rfl) (ho := rfl) (hse := rfl)
      (hin := offs_in_range (coordsV c' i') (lstOf m d) fo hI hl 1) (hF1 := fun fd => slotHolds_of_gather 1 fo (tabOf m d) fd _ _)) $$ [Hfr1 Hid1]
  · isplitl [Hfr1]; · iexact Hfr1
    iexact Hid1
  iintro Hg1
  sl_exec
  iapply (wp_gatherIssue d (coordsV c' i') (tileShare c' i') (tabOf m d) fo (outOf m d) 2 (hs := rfl) (hd := rfl) (ho := rfl) (hse := rfl)
      (hin := offs_in_range (coordsV c' i') (lstOf m d) fo hI hl 2) (hF1 := fun fd => slotHolds_of_gather 2 fo (tabOf m d) fd _ _)) $$ [Hfr2 Hid2]
  · isplitl [Hfr2]; · iexact Hfr2
    iexact Hid2
  iintro Hg2
  sl_exec
  iapply (wp_gatherIssue d (coordsV c' i') (tileShare c' i') (tabOf m d) fo (outOf m d) 3 (hs := rfl) (hd := rfl) (ho := rfl) (hse := rfl)
      (hin := offs_in_range (coordsV c' i') (lstOf m d) fo hI hl 3) (hF1 := fun fd => slotHolds_of_gather 3 fo (tabOf m d) fd _ _)) $$ [Hfr3 Hid3]
  · isplitl [Hfr3]; · iexact Hfr3
    iexact Hid3
  iintro Hg3
  sl_exec
  iapply (wp_gatherIssue d (coordsV c' i') (tileShare c' i') (tabOf m d) fo (outOf m d) 4 (hs := rfl) (hd := rfl) (ho := rfl) (hse := rfl)
      (hin := offs_in_range (coordsV c' i') (lstOf m d) fo hI hl 4) (hF1 := fun fd => slotHolds_of_gather 4 fo (tabOf m d) fd _ _)) $$ [Hfr4 Hid4]
  · isplitl [Hfr4]; · iexact Hfr4
    iexact Hid4
  iintro Hg4
  sl_exec
  -- the loop
  sl_for (Inv d (coordsV c' i') (tileShare c' i') (lstOf m d) (tabOf m d) fo (outOf m d) O (insert (SemLoc.dma cc0_scoped0.sem, (default : HIx 1)) W)) $$ [Hg0 Hg1 Hg2 Hg3 Hg4 Hfr Hid5 HO]
  case region =>
    intro k u
    exact trip d (coordsV c' i') (tileShare c' i') (lstOf m d) (tabOf m d) fo (outOf m d) O _ hI hl _ k u
  · unfold Inv
    isplitr; · iexact Hmw
    isplitl [Hg0 Hg1 Hg2 Hg3 Hg4 Hfr]
    · iapply (Entails.of_eq (inv0_eq d (coordsV c' i') (tileShare c' i') (lstOf m d) (tabOf m d) fo (outOf m d)).symm)
      isplitl [Hg0]; · iexact Hg0
      isplitl [Hg1]; · iexact Hg1
      isplitl [Hg2]; · iexact Hg2
      isplitl [Hg3]; · iexact Hg3
      isplitl [Hg4]; · iexact Hg4
      iexact Hfr
    isplitl [Hid5]; · rw [if_pos rfl]; iexact Hid5
    iexists _; isplitr
    swap; · iexact HO
    ipureintro; exact fun p hp => .inl hp
  iintro %u HI
  ihave HI := (Entails.of_eq (show Inv d (coordsV c' i') (tileShare c' i') (lstOf m d) (tabOf m d) fo (outOf m d) O (insert (SemLoc.dma cc0_scoped0.sem, (default : HIx 1)) W) k0_t1_loop.trips u
      = Inv d (coordsV c' i') (tileShare c' i') (lstOf m d) (tabOf m d) fo (outOf m d) O (insert (SemLoc.dma cc0_scoped0.sem, (default : HIx 1)) W) 200 u by rw [trips_eq])) $$ HI
  unfold Inv
  icases HI with ⟨-, Hst, -, %W', %hW', HO⟩
  ihave Hst := (Entails.of_eq (inv200_eq d (coordsV c' i') (tileShare c' i') (lstOf m d) (tabOf m d) fo (outOf m d))) $$ Hst
  icases Hst with ⟨Hdn, Hp194, Hp195, Hp196, Hp197, Hp198, Hp199⟩
  -- the last six write-outs are waited for
  sl_exec
  iapply (wp_putWait d (coordsV c' i') (tileShare c' i') (lstOf m d) (tabOf m d) fo 194 O _ (hsem := rfl) (hN := och_credit (coordsV c' i') _ _ _)) $$ [Hp194 HO]
  · isplitr; · iexact Hmw
    isplitl [Hp194]; · iexact Hp194
    iexact HO
  iintro ⟨Hd194, Hi194, HO⟩
  sl_exec
  iapply (wp_putWait d (coordsV c' i') (tileShare c' i') (lstOf m d) (tabOf m d) fo 195 O _ (hsem := rfl) (hN := och_credit (coordsV c' i') _ _ _)) $$ [Hp195 HO]
  · isplitr; · iexact Hmw
    isplitl [Hp195]; · iexact Hp195
    iexact HO
  iintro ⟨Hd195, Hi195, HO⟩
  sl_exec
  iapply (wp_putWait d (coordsV c' i') (tileShare c' i') (lstOf m d) (tabOf m d) fo 196 O _ (hsem := rfl) (hN := och_credit (coordsV c' i') _ _ _)) $$ [Hp196 HO]
  · isplitr; · iexact Hmw
    isplitl [Hp196]; · iexact Hp196
    iexact HO
  iintro ⟨Hd196, Hi196, HO⟩
  sl_exec
  iapply (wp_putWait d (coordsV c' i') (tileShare c' i') (lstOf m d) (tabOf m d) fo 197 O _ (hsem := rfl) (hN := och_credit (coordsV c' i') _ _ _)) $$ [Hp197 HO]
  · isplitr; · iexact Hmw
    isplitl [Hp197]; · iexact Hp197
    iexact HO
  iintro ⟨Hd197, Hi197, HO⟩
  first | sl_exec | skip
  iapply (wp_putWait d (coordsV c' i') (tileShare c' i') (lstOf m d) (tabOf m d) fo 198 O _ (hsem := rfl) (hN := och_credit (coordsV c' i') _ _ _)) $$ [Hp198 HO]
  · isplitr; · iexact Hmw
    isplitl [Hp198]; · iexact Hp198
    iexact HO
  iintro ⟨Hd198, Hi198, HO⟩
  first | sl_exec | skip
  iapply (wp_putWait d (coordsV c' i') (tileShare c' i') (lstOf m d) (tabOf m d) fo 199 O _ (hsem := rfl) (hN := och_credit (coordsV c' i') _ _ _)) $$ [Hp199 HO]
  · isplitr; · iexact Hmw
    isplitl [Hp199]; · iexact Hp199
    iexact HO
  iintro ⟨Hd199, Hi199, HO⟩
  simp only [Prog.bind, Prog.pure_eq_ret]
  sl_step
  -- everything goes back as it came, the output's chunks at the gathered rows
  ihave Hidle := (Entails.of_eq (fin6 (fun r => Idle d (coordsV c' i') (tileShare c' i') (tabOf m d) r)).symm) $$ [Hi198 Hi199 Hi194 Hi195 Hi196 Hi197]
  · isplitl [Hi198]; · iexact Hi198
    isplitl [Hi199]; · iexact Hi199
    isplitl [Hi194]; · iexact Hi194
    isplitl [Hi195]; · iexact Hi195
    isplitl [Hi196]; · iexact Hi196
    iexact Hi197
  ihave Hidle := (Entails.of_eq (idle_all d (coordsV c' i') (tileShare c' i') (tabOf m d))) $$ Hidle
  icases Hidle with ⟨Hslots, Hgsems, Hpsems, Htoks⟩
  ihave Htab := (tab_toks d (coordsV c' i') (tileShare c' i') (tabOf m d)).2 $$ [Htrest Htoks]
  · isplitl [Htrest]; · iexact Htrest
    iexact Htoks
  ihave Hr := (rSlots_join d _ _) $$ Hslots
  ihave Hall := (Entails.of_eq (dn_all d (coordsV c' i') (lstOf m d) (tabOf m d) fo)) $$ [Hdn Hd194 Hd195 Hd196 Hd197 Hd198 Hd199]
  · isplitl [Hdn]; · iexact Hdn
    isplitl [Hd194]; · iexact Hd194
    isplitl [Hd195]; · iexact Hd195
    isplitl [Hd196]; · iexact Hd196
    isplitl [Hd197]; · iexact Hd197
    isplitl [Hd198]; · iexact Hd198
    iexact Hd199
  icases Hall with ⟨Hout, Hrows⟩
  ihave Hs := (Entails.of_eq (iPts_rows d _ _ fo).symm) $$ Hrows
  isplitl [Hl' Hout Htab]
  · isplitl [Hl' Hout]
    · isplitl [Hl']; · iexact Hl'
      iexact Hout
    iexact Htab
  isplitl [Hs Hr Hbufs]
  · isplitl [Hs]; · iexists fo; iexact Hs
    isplitl [Hr]; · iexact Hr
    iexact Hbufs
  isplitl [Hgsems Hpsems Hf Hsems]
  · isplitl [Hgsems]; · iexact Hgsems
    isplitl [Hpsems]; · iexact Hpsems
    isplitl [Hf]; · iexact Hf
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases hW' p hp with h | h
  · rcases Finset.mem_insert.mp h with h | h
    · exact .inr (h ▸ rfl)
    · exact .inl h
  · exact .inr h

/-! ## The obligation the launch asks of every tile -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) lV (Memref.isWhole_whole _) oV (Memref.isWhole_whole _)
          iV (Memref.isWhole_whole _) rV (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hl : ∀ d j, (lstOf m d j).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d ⟨_, hc.1⟩ ⟨_, hc.2⟩ hF (hl d) O W hO).trans (wp_mono frame _ _ fun _ => obl_post)

end Tile
end Cert.Proof.KernelP
end
-- ==== Proof.FrameB.lean ====
/-
  The kernel's frame claim from one tile's obligation.

  The word-level program is the idealized one's text in another namespace, and everything proved of it is generic in
  how floats are read; so the launch gives its run from a tile's obligation exactly as for the idealized program: every
  weakly fair execution terminates with the result array at the re-laid gather and the two arguments unchanged. The
  frame claim keeps the two arguments' conjuncts and forgets the result's.

  The obligation is asked for only of launch memories whose index lists hold row numbers below 100000. Under the
  precondition they do: the lists are the array of row numbers transposed and cut, so each entry is one of the row
  numbers, and the precondition puts every row number below 100000.
-/
import proofs.«206364_g2774548873608_retrytranche1_142_25_alg».proof.Proof.LaunchB
import proofs.«206364_g2774548873608_retrytranche1_142_25_alg».proof.Proof.TileB
import proofs.«206364_g2774548873608_retrytranche1_142_25_alg».proof.Proof.PreRange

noncomputable section

namespace Cert.Proof.Asm

open Idealize.ShloMosaic Idealize.SL.Sem
open Cert.Proof

/-- Under the precondition every entry of the kernel's index lists is below 100000. -/
theorem lst_lt_bits (m : (ℓ : Loc Cert.Kernel.nD Cert.Kernel.τ Cert.Kernel.sig) → Buf (Elt Bits) ℓ)
    (hpre : Cert.Pre_Kernel m) (d : Dev Cert.Kernel.nD) (j : Cert.Kernel.S6400x128.Idx) :
    (KernelP.lstOf m d j).toNat < 100000 :=
  PreRange.ids_lt_of_pre_kernel m hpre d _

/-- The kernel runs and leaves its arguments unchanged, given a tile's obligation at every launch memory whose index
    lists are in range. -/
theorem frame_kernel_of
    (htile : ∀ m, (∀ d j, (KernelP.lstOf m d j).toNat < 100000) →
      (KernelP.K (F := Bits)).TileObl (KernelP.D (F := Bits)) KernelP.𝒱 (KernelP.P m) KernelP.v₀ 0) :
    Cert.frame_Kernel (hKernel := Cert.Kernel.Gen.facts) (hPre_input_domain := Cert.Pre_input_domain.Gen.facts) :=
  fun m g hpre =>
    (θ_run Cert.Kernel.defs _ _).mono (fun _ h c => (h c).2)
      (KernelP.run_main (F := Bits) m g (htile m (lst_lt_bits m hpre)))

/-- The kernel runs and leaves its arguments unchanged: a tile's obligation holds at every launch memory whose index
    lists are in range. -/
theorem frame_kernel :
    Cert.frame_Kernel (hKernel := Cert.Kernel.Gen.facts) (hPre_input_domain := Cert.Pre_input_domain.Gen.facts) :=
  frame_kernel_of fun m h => KernelP.tileObl (F := Bits) m KernelP.facts h

end Cert.Proof.Asm

end
-- ==== Proof.lean ====
/-
  The certificate's claim: the embedding-lookup kernel and its reference compute the same lookup.

  What the kernel computes. The array of row numbers, [16384, 50], is transposed and cut, in row-major order, into 6400
  index lists of 128 entries. Each of the 32 tiles (two SparseCores of sixteen) has its own 200 consecutive lists and
  the 25600 rows of the flat [819200, 128] output that belong to them. A tile first fetches its 200 index lists; then it
  gathers, list by list, the 128 table rows a list names into one of six row buffers and writes each gathered chunk to
  its 128 rows of the flat output, keeping five gathers in flight over the six buffers. The table is only read, by
  every tile at once, each through its own read share of it. The host re-lays the row numbers before the call and the
  output after it: the flat output is cut into [50, 16384, 128] and its first two axes are exchanged.

  Why that is the lookup. Row h * 16384 + b of the flat output holds the table row named by list entry number
  h * 16384 + b, which is the row number at (b, h); so the re-laid output at (b, h, l) is the table at
  (row number (b, h), l). The reference is the table's rows taken at the row numbers. Under the precondition every row
  number lies between 0 and 99999, the table's rows, so every gather names a row that is there and is served, and the
  two programs compute one and the same lookup.

  The claims. Each program runs to its end from any launch memory of which the precondition holds, whatever the
  interleaving of its threads, and leaves its two arguments as they were (the three frame claims); the idealized
  kernel is the kernel's own text read with exact arithmetic, no operation rewritten, so that claim is trivial; and
  from memories that agree on the arguments the idealized kernel and the idealized reference end with equal results,
  the lookup of the table at the row numbers.
-/
import proofs.«206364_g2774548873608_retrytranche1_142_25_alg».proof.Defs
import proofs.«206364_g2774548873608_retrytranche1_142_25_alg».proof.Proof.Gen.Kernel
import proofs.«206364_g2774548873608_retrytranche1_142_25_alg».proof.Proof.Gen.Kernel.Skeleton
import proofs.«206364_g2774548873608_retrytranche1_142_25_alg».proof.Proof.Gen.KernelIdeal
import proofs.«206364_g2774548873608_retrytranche1_142_25_alg».proof.Proof.Gen.KernelIdeal.Skeleton
import proofs.«206364_g2774548873608_retrytranche1_142_25_alg».proof.Proof.Gen.ReferenceIdeal
import proofs.«206364_g2774548873608_retrytranche1_142_25_alg».proof.Proof.Gen.Pre_input_domain
import Idealize.ShloMosaic.Adequacy
import Idealize.ShloMosaic.Init
import proofs.«206364_g2774548873608_retrytranche1_142_25_alg».proof.Proof.Assemble
import proofs.«206364_g2774548873608_retrytranche1_142_25_alg».proof.Proof.LaunchI
import proofs.«206364_g2774548873608_retrytranche1_142_25_alg».proof.Proof.TileI
import proofs.«206364_g2774548873608_retrytranche1_142_25_alg».proof.Proof.FrameB

noncomputable section

namespace Cert.Proof

open Idealize.ShloMosaic Idealize.SL.Sem

/-- The certificate's claim: the idealized kernel's run from a tile's obligation, and the kernel's frame claim. -/
theorem claim : Cert.Claim :=
  Cert.Proof.Asm.claim_of
    (fun m ρ h => KernelIdealP.run_main (F := Ideal) m ρ (KernelIdealP.tileObl (F := Ideal) m KernelIdealP.facts h))
    Cert.Proof.Asm.frame_kernel

end Cert.Proof

end
